-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S8192x1 : Shape := ⟨2, ![8192, 1]⟩
abbrev S1024x4096 : Shape := ⟨2, ![1024, 4096]⟩
abbrev S1024x1 : Shape := ⟨2, ![1024, 1]⟩
abbrev S1024 : Shape := ⟨1, ![1024]⟩
abbrev S8192 : Shape := ⟨1, ![8192]⟩
abbrev S_ : Shape := ⟨0, ![]⟩
abbrev S1x256 : Shape := ⟨2, ![1, 256]⟩
abbrev S1024x1024 : Shape := ⟨2, ![1024, 1024]⟩
abbrev S1024x256 : Shape := ⟨2, ![1024, 256]⟩

abbrev nBuf : Space → Nat
  | .hbm => 24
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .i1⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S8192x256, .f32⟩
  | .hbm, ⟨18, _⟩ => ⟨S8192x1, .f32⟩
  | .hbm, ⟨19, _⟩ => ⟨S8192x256, .f32⟩
  | .hbm, ⟨20, _⟩ => ⟨S8192x256, .f32⟩
  | .hbm, ⟨21, _⟩ => ⟨S8192x256, .bf16⟩
  | .hbm, ⟨22, _⟩ => ⟨S1x256, .f32⟩
  | .hbm, ⟨23, _⟩ => ⟨S8192x256, .f32⟩
  | .local _ .vmem, ⟨0, _⟩ => ⟨S1024x4096, .f32⟩
  | .local _ .vmem, ⟨1, _⟩ => ⟨S1024x4096, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1024, .f32⟩
  | .local _ .vmem, ⟨6, _⟩ => ⟨S1024x1024, .f32⟩
  | .local _ .vmem, ⟨7, _⟩ => ⟨S1024x256, .bf16⟩
  | .local _ .vmem, ⟨8, _⟩ => ⟨S1024x256, .bf16⟩
  | .local _ .vmem, ⟨9, _⟩ => ⟨S1024x1, .f32⟩
  | .local _ .vmem, ⟨10, _⟩ => ⟨S1024x1, .f32⟩
  | .local _ .vmem, ⟨11, _⟩ => ⟨S1x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  shapeCasts_S8192x1_S8192 : S8192x1.ShapeCasts S8192
  bcast_S_S8192 : S_.BroadcastsInDim S8192 (![] : Fin 0 → Fin S8192.rank)
  shapeCasts_S8192_S8192x1 : S8192.ShapeCasts S8192x1
  bcast_S8192x1_S8192x256_0_1 : S8192x1.BroadcastsInDim S8192x256 (![0, 1] : Fin 2 → Fin S8192x256.rank)
  bitsLt_bf16_f32 : FTy.bits .bf16 < FTy.bits .f32
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S8192x256_S256x256_S8192x256_1_0_0_1_n_n_wf : DotDims.WF S8192x256 S256x256 S8192x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x8192.size a
  hwx0_0 : ∀ i : grid0.Coords, EltTy.bits .f32 = 32 ∨ (Rect.block (s := S8192x8192) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x256 : Shape := ⟨2, ![1, 256]⟩

abbrev nBuf : Space → Nat
  | .hbm => 28
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .i1⟩
  | .hbm, ⟨13, _⟩ => ⟨S_, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x256, .f32⟩
  | .hbm, ⟨24, _⟩ => ⟨S8192x256, .f32⟩
  | .hbm, ⟨25, _⟩ => ⟨S1x256, .f32⟩
  | .hbm, ⟨26, _⟩ => ⟨S8192x256, .f32⟩
  | .hbm, ⟨27, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v3 : Ref sig .tc := ⟨.hbm, 12, rfl⟩
abbrev main_cst_1 : Ref sig .tc := ⟨.hbm, 13, rfl⟩
abbrev main_call1_v0 : Ref sig .tc := ⟨.hbm, 14, rfl⟩
abbrev main_call1_v1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.DegreeRuns.lean ====
/-
  The degree kernel (the first launch) at one grid point, on any whole staging buffers.

  The grid is 8 row bands × 2 column halves, walked row band first.  At the first half of a row band the body
  zeroes its carried column of 1024 partial sums and adds the row sums of the block it was handed; at the second
  half it adds the block's row sums to what the first half left and copies the total into the output block.  The
  two runs below are the body's triples in these two cases: the stores each buffer ends with are found by running
  the body symbolically.
-/
import proofs.«152812_j63574105915528_2_alg».proof.Proof.Gen.Kernel.Launch
import proofs.«152812_j63574105915528_2_alg».proof.Proof.Gen.Kernel.Skeleton
import proofs.«152812_j63574105915528_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which half of the row band a point is in -/

/-- The body's first branch: the column coordinate is zero. -/
abbrev firstHalf (i : grid0.Coords) : Prop := (Scalar.cmpi .ne (Scalar.extui (Scalar.cmpi .eq (BitVec.ofNat 32 (i 1).val) 0#32)) 0#32) = 1#1
theorem firstHalf_iff : ∀ t : Fin cfg0.N, firstHalf (grid0.coords t) ↔ t.val % 2 = 0 :=
  (by decide +kernel : ∀ t : Fin grid0.N, firstHalf (grid0.coords t) ↔ t.val % 2 = 0)

/-- The body's second branch: the column coordinate is the last one. -/
abbrev lastHalf (i : grid0.Coords) : Prop := k0_cond2 i = 1#1
theorem lastHalf_iff : ∀ t : Fin cfg0.N, lastHalf (grid0.coords t) ↔ t.val % 2 = 1 :=
  (by decide +kernel : ∀ t : Fin grid0.N, lastHalf (grid0.coords t) ↔ t.val % 2 = 1)

/-- The adjacency window is never idle. -/
theorem degIn_live : ∀ t : Fin cfg0.N, cfg0.idle 0 (grid0.coords t) = false := by decide +kernel
/-- In the first half the output window is idle and is not written back. -/
theorem degOut_idle : ∀ t : Fin cfg0.N, firstHalf (grid0.coords t) → ¬lastHalf (grid0.coords t) → cfg0.idle 1 (grid0.coords t) = true := by decide +kernel
theorem degOut_noFlush : ∀ t : Fin cfg0.N, firstHalf (grid0.coords t) → ¬lastHalf (grid0.coords t) → (cfg0.win 1).flush t = false := by decide +kernel
/-- In the second half it is live. -/
theorem degOut_live : ∀ t : Fin cfg0.N, ¬firstHalf (grid0.coords t) → lastHalf (grid0.coords t) → cfg0.idle 1 (grid0.coords t) = false := by decide +kernel

/-! ## The buffers the body is called with -/

abbrev degOutV : View sig .tc .vmem S1024x1 .f32 := (Memref.whole cc0_stg1_0 : Memref sig .tc .vmem S1024x1 .f32).view
abbrev degM0 (t : Fin cfg0.N) : Memref sig .tc .vmem S1024x4096 .f32 := win0_0.stage (cfg0.slots t 0)
abbrev degH0 (t : Fin cfg0.N) : (degM0 t).IsWhole := hstage0_0 ((cfg0.slots t 0).cast nbuf0_0)
abbrev degM1 (t : Fin cfg0.N) : Memref sig .tc .vmem S1024x1 .f32 := win0_1.stage (cfg0.slots t 1)
abbrev degH1 (t : Fin cfg0.N) : (degM1 t).IsWhole := hstage0_1 ((cfg0.slots t 1).cast nbuf0_1)
/-- The carried column of partial sums. -/
abbrev degAccM : Memref sig .tc .vmem S1024x1 .f32 := Memref.whole cc0_scratch0
abbrev degAccV : View sig .tc .vmem S1024x1 .f32 := degAccM.view

/-- The scoped buffers of the other launch, each whole at some contents: they ride through this launch untouched. -/
def degOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the carried column as a memref owned at some contents. -/
theorem degPhiA_eq (c : Dev nD) :
    (Pipeline.ΦA spec0 c : sProp 𝕄)
      = iprop(iprop((∃ d, owns (c : Thread nD τ) degAccM fullShare d) ∗ degOther c) ∗ (∃ r, prngReg c r)) := by
  unfold Pipeline.ΦA; rw [scopedRest0_eq]; simp only [degAccM, owns_whole, degOther]; try rfl

/-! ## The two runs -/

set_option maxHeartbeats 1000000 in
/-- First half: the carried column is zeroed and the block's row sums added; the output block is left as handed. -/
noncomputable def degRunFirst (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : firstHalf i) (hc1 : ¬lastHalf i)
    (x0 : Vec F S1024x4096 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Second half: the block's row sums are added to the carried column and the total stored into the output block. -/
noncomputable def degRunLast (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬firstHalf i) (hc1 : lastHalf i)
    (x0 : Vec F S1024x4096 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.K.DegreeData.lean ====
/-
  The degree launch point by point: what the output block and the carried column of partial sums hold after each
  grid point, the launch's proof data over any region-entry contents, and the body obligation at every point.

  After a first-half point the carried column holds what that run's stores leave (zero plus the block's row sums);
  after a second-half point the run is applied to what the point before left, and the output block holds the copy
  of the total.  Between points the invariant keeps the carried column at exactly these contents; the other
  launch's scoped buffers and the generator register ride along.
-/
import proofs.«152812_j63574105915528_2_alg».proof.Proof.K.DegreeRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the launch finds it. -/
def degBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point. -/
theorem degBefore0_of {c : Dev nD} (dat : Dat τ (Elt F) Unit ℕ (UR sig nD τ) ℕ cfg0 c) (hA : dat.A 0 = V c (Pipeline.arrRef spec0 0))
    (hafter : ∀ t, dat.after 0 t = degBlk V c 0 t) (t : Fin cfg0.N) (d) : dat.before 0 t d = degBlk V c 0 t :=
  (dat.before_in_eq_fetched 0 rfl (fun _ => rfl) (fun _ _ _ => rfl) (fun t => by rw [hafter]; unfold Dat.blockOf degBlk; rw [hA]; try rfl) t d).trans
    (by unfold Dat.fetched Dat.blockOf degBlk; rw [hA]; try rfl)

/-! ## What each case leaves -/

/-- First half: nothing is stored into the output block (a placeholder nothing consults). -/
def degOutFirst (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : firstHalf i) (hc1 : ¬lastHalf i) (x0 : Vec F S1024x4096 .f32) : Vec F S1024x1 .f32 :=
  degOutV.read (Elt F) (degOutV.writes (Elt F) degOutV.junk (degRunFirst c i arg2 harg2 arg3 harg3 arg4 harg4 hc0 hc1 x0).1)

theorem degAccCoverFirst (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : firstHalf i) (hc1 : ¬lastHalf i) (x0 : Vec F S1024x4096 .f32) (y : S1024x1.Idx) :
    ∃ pc ∈ (degRunFirst c i arg2 harg2 arg3 harg3 arg4 harg4 hc0 hc1 x0).2.1, y ∈ pc.1.set :=
  View.cover_of_tiledL (degRunFirst c i arg2 harg2 arg3 harg3 arg4 harg4 hc0 hc1 x0).2.1 S1024x1.size (by sl_kernel_rfl) y

/-- First half: what the carried column holds afterwards. -/
def degAccFirst (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : firstHalf i) (hc1 : ¬lastHalf i) (x0 : Vec F S1024x4096 .f32) : Vec F S1024x1 .f32 :=
  degAccV.read (Elt F) (degAccV.writes (Elt F) degAccV.junk (degRunFirst c i arg2 harg2 arg3 harg3 arg4 harg4 hc0 hc1 x0).2.1)

theorem degOutCoverLast (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬firstHalf i) (hc1 : lastHalf i) (x0 : Vec F S1024x4096 .f32) (xs0 : Vec F S1024x1 .f32) (y : S1024x1.Idx) :
    ∃ pc ∈ (degRunLast c i arg2 harg2 arg3 harg3 arg4 harg4 hc0 hc1 x0 xs0).1, y ∈ pc.1.set :=
  View.cover_of_tiledL (degRunLast c i arg2 harg2 arg3 harg3 arg4 harg4 hc0 hc1 x0 xs0).1 S1024x1.size (by sl_kernel_rfl) y

/-- Second half: what the output block holds afterwards. -/
def degOutLast (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬firstHalf i) (hc1 : lastHalf i) (x0 : Vec F S1024x4096 .f32) (xs0 : Vec F S1024x1 .f32) : Vec F S1024x1 .f32 :=
  degOutV.read (Elt F) (degOutV.writes (Elt F) degOutV.junk (degRunLast c i arg2 harg2 arg3 harg3 arg4 harg4 hc0 hc1 x0 xs0).1)

theorem degAccCoverLast (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬firstHalf i) (hc1 : lastHalf i) (x0 : Vec F S1024x4096 .f32) (xs0 : Vec F S1024x1 .f32) (y : S1024x1.Idx) :
    ∃ pc ∈ (degRunLast c i arg2 harg2 arg3 harg3 arg4 harg4 hc0 hc1 x0 xs0).2.1, y ∈ pc.1.set :=
  View.cover_of_tiledL (degRunLast c i arg2 harg2 arg3 harg3 arg4 harg4 hc0 hc1 x0 xs0).2.1 S1024x1.size (by sl_kernel_rfl) y

/-- Second half: what the carried column holds afterwards. -/
def degAccLast (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬firstHalf i) (hc1 : lastHalf i) (x0 : Vec F S1024x4096 .f32) (xs0 : Vec F S1024x1 .f32) : Vec F S1024x1 .f32 :=
  degAccV.read (Elt F) (degAccV.writes (Elt F) degAccV.junk (degRunLast c i arg2 harg2 arg3 harg3 arg4 harg4 hc0 hc1 x0 xs0).2.1)

/-! ## Point by point -/

theorem not_last_of_even (t : Fin cfg0.N) (h0 : t.val % 2 = 0) : ¬lastHalf (grid0.coords t) :=
  fun h => by have := (lastHalf_iff t).mp h; omega
theorem not_first_of_odd (t : Fin cfg0.N) (h0 : ¬t.val % 2 = 0) : ¬firstHalf (grid0.coords t) :=
  fun h => h0 ((firstHalf_iff t).mp h)
theorem last_of_odd (t : Fin cfg0.N) (h0 : ¬t.val % 2 = 0) : lastHalf (grid0.coords t) :=
  (lastHalf_iff t).mpr (by omega)

/-- What the output block and the carried column hold after the body at position `n`. -/
def degAt (c : Dev nD) : (n : ℕ) → n < cfg0.N → Vec F S1024x1 .f32 × Vec F S1024x1 .f32
  | 0, hn => (degOutFirst c (grid0.coords ⟨0, hn⟩) (degM0 ⟨0, hn⟩) (degH0 ⟨0, hn⟩) (degM1 ⟨0, hn⟩) (degH1 ⟨0, hn⟩) degAccM (Memref.isWhole_whole _) ((firstHalf_iff ⟨0, hn⟩).mpr (Nat.zero_mod _)) (not_last_of_even ⟨0, hn⟩ (Nat.zero_mod _)) (degBlk V c 0 ⟨0, hn⟩),
      degAccFirst c (grid0.coords ⟨0, hn⟩) (degM0 ⟨0, hn⟩) (degH0 ⟨0, hn⟩) (degM1 ⟨0, hn⟩) (degH1 ⟨0, hn⟩) degAccM (Memref.isWhole_whole _) ((firstHalf_iff ⟨0, hn⟩).mpr (Nat.zero_mod _)) (not_last_of_even ⟨0, hn⟩ (Nat.zero_mod _)) (degBlk V c 0 ⟨0, hn⟩))
  | n + 1, hn =>
    if h0 : (n + 1) % 2 = 0 then
      (degOutFirst c (grid0.coords ⟨n + 1, hn⟩) (degM0 ⟨n + 1, hn⟩) (degH0 ⟨n + 1, hn⟩) (degM1 ⟨n + 1, hn⟩) (degH1 ⟨n + 1, hn⟩) degAccM (Memref.isWhole_whole _) ((firstHalf_iff ⟨n + 1, hn⟩).mpr h0) (not_last_of_even ⟨n + 1, hn⟩ h0) (degBlk V c 0 ⟨n + 1, hn⟩),
        degAccFirst c (grid0.coords ⟨n + 1, hn⟩) (degM0 ⟨n + 1, hn⟩) (degH0 ⟨n + 1, hn⟩) (degM1 ⟨n + 1, hn⟩) (degH1 ⟨n + 1, hn⟩) degAccM (Memref.isWhole_whole _) ((firstHalf_iff ⟨n + 1, hn⟩).mpr h0) (not_last_of_even ⟨n + 1, hn⟩ h0) (degBlk V c 0 ⟨n + 1, hn⟩))
    else
      (degOutLast c (grid0.coords ⟨n + 1, hn⟩) (degM0 ⟨n + 1, hn⟩) (degH0 ⟨n + 1, hn⟩) (degM1 ⟨n + 1, hn⟩) (degH1 ⟨n + 1, hn⟩) degAccM (Memref.isWhole_whole _) (not_first_of_odd ⟨n + 1, hn⟩ h0) (last_of_odd ⟨n + 1, hn⟩ h0) (degBlk V c 0 ⟨n + 1, hn⟩) (degAt c n (Nat.lt_of_succ_lt hn)).2,
        degAccLast c (grid0.coords ⟨n + 1, hn⟩) (degM0 ⟨n + 1, hn⟩) (degH0 ⟨n + 1, hn⟩) (degM1 ⟨n + 1, hn⟩) (degH1 ⟨n + 1, hn⟩) degAccM (Memref.isWhole_whole _) (not_first_of_odd ⟨n + 1, hn⟩ h0) (last_of_odd ⟨n + 1, hn⟩ h0) (degBlk V c 0 ⟨n + 1, hn⟩) (degAt c n (Nat.lt_of_succ_lt hn)).2)

theorem degAt_first (c : Dev nD) (t : Fin cfg0.N) (h0 : t.val % 2 = 0) :
    degAt V c t.val t.isLt = (degOutFirst c (grid0.coords t) (degM0 t) (degH0 t) (degM1 t) (degH1 t) degAccM (Memref.isWhole_whole _) ((firstHalf_iff t).mpr h0) (not_last_of_even t h0) (degBlk V c 0 t),
      degAccFirst c (grid0.coords t) (degM0 t) (degH0 t) (degM1 t) (degH1 t) degAccM (Memref.isWhole_whole _) ((firstHalf_iff t).mpr h0) (not_last_of_even t h0) (degBlk V c 0 t)) := by
  obtain ⟨n, hn⟩ := t
  cases n with
  | zero => exact rfl
  | succ n => exact (dif_pos h0).trans rfl

theorem degAt_last (c : Dev nD) (t : Fin cfg0.N) (h0 : ¬t.val % 2 = 0) :
    degAt V c t.val t.isLt = (degOutLast c (grid0.coords t) (degM0 t) (degH0 t) (degM1 t) (degH1 t) degAccM (Memref.isWhole_whole _) (not_first_of_odd t h0) (last_of_odd t h0) (degBlk V c 0 t) (degAt V c (t.val - 1) (Nat.lt_of_le_of_lt (Nat.sub_le _ _) t.isLt)).2,
      degAccLast c (grid0.coords t) (degM0 t) (degH0 t) (degM1 t) (degH1 t) degAccM (Memref.isWhole_whole _) (not_first_of_odd t h0) (last_of_odd t h0) (degBlk V c 0 t) (degAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The launch's invariant before position `n`: the class's before the first point; afterwards the carried column at
    what the point before left, the other launch's buffers and the generator register at anything. -/
def degPhi (c : Dev nD) : (n : ℕ) → n ≤ cfg0.N → sProp 𝕄
  | 0, _ => Pipeline.ΦA spec0 c
  | n + 1, hn => iprop(iprop(owns (c : Thread nD τ) degAccM fullShare ((degAt V c n hn).2) ∗ degOther c) ∗ (∃ r, prngReg c r))

theorem degPhi_zero (c : Dev nD) (n : ℕ) (h : n ≤ cfg0.N) (hz : n = 0) : degPhi V c n h = Pipeline.ΦA spec0 c := by
  subst hz; rfl

theorem degPhi_succ (c : Dev nD) (n : ℕ) (hn : n < cfg0.N) :
    degPhi V c (n + 1) hn = iprop(iprop(owns (c : Thread nD τ) degAccM fullShare ((degAt V c n hn).2) ∗ degOther c) ∗ (∃ r, prngReg c r)) := rfl

theorem degPhi_pos (c : Dev nD) (n : ℕ) (h : n ≤ cfg0.N) (hz : n ≠ 0) :
    degPhi V c n h = iprop(iprop(owns (c : Thread nD τ) degAccM fullShare ((degAt V c (n - 1) (by omega)).2) ∗ degOther c) ∗ (∃ r, prngReg c r)) := by
  cases n with
  | zero => exact absurd rfl hz
  | succ n => rfl

/-! ## The proof data -/

def degDat (c : Dev nD) : Dat τ (Elt F) Unit ℕ (UR sig nD τ) ℕ cfg0 c where
  A w := V c (Pipeline.arrRef spec0 w)
  after w t := match w with
    | ⟨0, _⟩ => degBlk V c 0 t
    | ⟨1, _⟩ => (degAt V c t.val t.isLt).1
  Φ t := degPhi V c t.val (Nat.le_of_lt_succ t.isLt)
  q _ := fullShare
  owed _ := 0

theorem degA_eq (c : Dev nD) (w : Fin cfg0.W) : (degDat V c).A w = V c (Pipeline.arrRef spec0 w) := by
  dsimp only [degDat]

theorem degPhi_castSucc (c : Dev nD) (t : Fin cfg0.N) :
    (degDat V c).Φ t.castSucc = degPhi V c t.val (Nat.le_of_lt t.isLt) := by
  dsimp only [degDat]; simp only [Fin.coe_castSucc]

theorem degAfter0 (c : Dev nD) (t : Fin cfg0.N) : (degDat V c).after 0 t = degBlk V c 0 t := by dsimp only [degDat]
theorem degAfter1 (c : Dev nD) (t : Fin cfg0.N) : (degDat V c).after 1 t = (degAt V c t.val t.isLt).1 := by dsimp only [degDat]

theorem degBefore0 (c : Dev nD) (t : Fin cfg0.N) (d) : (degDat V c).before 0 t d = degBlk V c 0 t :=
  degBefore0_of V (degDat V c) (degA_eq V c 0) (degAfter0 V c) t d

/-! ## The body obligation -/

def degBodyPre (c : Dev nD) (t : Fin cfg0.N) : sProp 𝕄 :=
  iprop((degDat V c).Φ t.castSucc ∗ (degDat V c).owesAt () t.castSucc
    ∗ (∃ d, owns (c : Thread nD τ) (degM0 t) fullShare ((degDat V c).before 0 t d))
    ∗ (∃ d, owns (c : Thread nD τ) (degM1 t) fullShare ((degDat V c).before 1 t d)))

def degBodyPost (c : Dev nD) (t : Fin cfg0.N) : sProp 𝕄 :=
  iprop((degDat V c).Φ t.succ ∗ (degDat V c).owesAt () t.succ
    ∗ (degDat V c).leavesExact 0 t
    ∗ (degDat V c).leavesExact 1 t)

set_option maxHeartbeats 4800000 in
theorem degSoundBody (c : Dev nD) (t : Fin cfg0.N) :
    degBodyPre V c t ⊢ wp frame (wpE (defs₀ (F := F)) Variants.none c none) Set.univ (bodyAt0 t) (fun _ => degBodyPost V c t) := by
  unfold degBodyPre degBodyPost bodyAt0
  simp only [degBefore0]
  rw [show (degDat V c).owesAt () t.succ = (degDat V c).owesAt () t.castSucc from rfl]
  rw [show (degDat V c).Φ t.succ = degPhi V c (t.val + 1) t.isLt from rfl, degPhi_succ]
  have hN : t.val < 16 := lt_of_lt_of_eq t.isLt (show cfg0.N = 16 from N_0)
  by_cases h0 : t.val % 2 = 0
  · rw [show (degDat V c).leavesExact 0 t = owns (c : Thread nD τ) (degM0 t) fullShare ((degDat V c).after 0 t) from by
      unfold Dat.leavesExact; rw [degIn_live t], degAfter0]
    rw [Dat.leavesExact_idle (degDat V c) 1 t (degOut_idle t ((firstHalf_iff t).mpr h0) (not_last_of_even t h0)) (degOut_noFlush t ((firstHalf_iff t).mpr h0) (not_last_of_even t h0))]
    rw [degAt_first V c t h0]
    unfold degAccFirst; (try dsimp only)
    by_cases hz : t.val = 0
    · rw [degPhi_castSucc V c t, degPhi_zero V c _ _ hz, degPhiA_eq]
      iintro ⟨⟨⟨HS0, Hoth⟩, Hg⟩, Ho, ⟨%d0, H0⟩, ⟨%d1, H1⟩⟩
      iapply ((degRunFirst c (grid0.coords t) _ _ _ _ _ _ ((firstHalf_iff t).mpr h0) (not_last_of_even t h0) (degBlk V c 0 t)).2.2 _ Set.univ _)
      isplitl [H0]; · iexact H0
      isplitl [H1]; · iexact H1
      isplitl [HS0]; · iexact HS0
      iintro ⟨H0, H1, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (degAccCoverFirst c _ _ _ _ _ _ _ _ _ _)
          iexact Hoth
        iexact Hg
      isplitl [Ho]; · iexact Ho
      isplitl [H0]; · iexact H0
      iexists _; iexact H1
    · rw [degPhi_castSucc V c t, degPhi_pos V c _ _ hz]
      iintro ⟨⟨⟨HS0, Hoth⟩, Hg⟩, Ho, ⟨%d0, H0⟩, ⟨%d1, H1⟩⟩
      iapply ((degRunFirst c (grid0.coords t) _ _ _ _ _ _ ((firstHalf_iff t).mpr h0) (not_last_of_even t h0) (degBlk V c 0 t)).2.2 _ Set.univ _)
      isplitl [H0]; · iexact H0
      isplitl [H1]; · iexact H1
      isplitl [HS0]; · iexists _; iexact HS0
      iintro ⟨H0, H1, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (degAccCoverFirst c _ _ _ _ _ _ _ _ _ _)
          iexact Hoth
        iexact Hg
      isplitl [Ho]; · iexact Ho
      isplitl [H0]; · iexact H0
      iexists _; iexact H1
  · rw [show (degDat V c).leavesExact 0 t = owns (c : Thread nD τ) (degM0 t) fullShare ((degDat V c).after 0 t) from by
      unfold Dat.leavesExact; rw [degIn_live t], degAfter0]
    rw [show (degDat V c).leavesExact 1 t = owns (c : Thread nD τ) (degM1 t) fullShare ((degDat V c).after 1 t) from by
      unfold Dat.leavesExact; rw [degOut_live t (not_first_of_odd t h0) (last_of_odd t h0)], degAfter1]
    rw [degAt_last V c t h0]
    unfold degOutLast degAccLast; (try dsimp only)
    have hz : t.val ≠ 0 := fun h => h0 (by rw [h])
    rw [degPhi_castSucc V c t, degPhi_pos V c _ _ hz]
    iintro ⟨⟨⟨HS0, Hoth⟩, Hg⟩, Ho, ⟨%d0, H0⟩, ⟨%d1, H1⟩⟩
    iapply ((degRunLast c (grid0.coords t) _ _ _ _ _ _ (not_first_of_odd t h0) (last_of_odd t h0) (degBlk V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hg Hoth]
    · isplitl [HS0 Hoth]
      · isplitl [HS0]
        · unfold owns; iexists _; isplitr
          swap; · iexact HS0
          ipureintro; exact View.read_writes_of_cover _ _ _ _ _ (degAccCoverLast c _ _ _ _ _ _ _ _ _ _ _)
        iexact Hoth
      iexact Hg
    isplitl [Ho]; · iexact Ho
    isplitl [H0]; · iexact H0
    unfold owns; iexists _; isplitr
    swap; · iexact H1
    ipureintro; exact View.read_writes_of_cover _ _ _ _ _ (degOutCoverLast c _ _ _ _ _ _ _ _ _ _ _)

theorem degBodyObligation (c : Dev nD) : BodyObligation (degDat (F := F) V c) (defs₀ (F := F)) Variants.none () Set.univ := fun t => by
  rw [bigSep_W0, bigSep_W0]
  exact degSoundBody V c t

/-- What the launch hands the region is the invariant before the first point. -/
theorem degHin (c : Dev nD) : Pipeline.ΦA spec0 c ⊢ (degDat V c).Φ 0 := by
  rw [show (degDat V c).Φ 0 = degPhi V c 0 (Nat.zero_le _) from rfl, degPhi_zero V c 0 _ rfl]
  try exact Idealize.SL.BI.Entails.refl _

/-- After the last point the invariant gives the class's back: the carried column's contents are forgotten. -/
theorem degHout (c : Dev nD) : (degDat V c).Φ (Fin.last cfg0.N) ⊢ Pipeline.ΦA spec0 c := by
  have ht : (Fin.last cfg0.N).val ≠ 0 := by rw [Fin.val_last]; have : cfg0.N = 16 := N_0; omega
  rw [show (degDat V c).Φ (Fin.last cfg0.N) = degPhi V c (Fin.last cfg0.N).val (Nat.le_of_lt_succ (Fin.last cfg0.N).isLt) from rfl, degPhi_pos V c _ _ ht, degPhiA_eq]
  iintro ⟨⟨HS0, Hoth⟩, Hg⟩
  isplitl [HS0 Hoth]
  · isplitl [HS0]
    · iexists _; iexact HS0
    iexact Hoth
  iexact Hg

end Cert.Kernel.Hand

end
-- ==== Proof.K.LayerShared.lean ====
/-
  The layer kernel (the second launch) at one grid point, on any whole staging buffers.

  The grid is 8 row bands × 8 column bands, walked row band first.  At the first column band the body zeroes its
  carried 1024×256 accumulator; at every column band it adds the product of the adjacency block with the scaled
  support block; at the last column band it scales the accumulator row by row, adds the bias row and stores the
  output block.  The three runs below are the body's triples in the three cases (first, middle, last column band).
-/
import proofs.«152812_j63574105915528_2_alg».proof.Proof.Gen.Kernel.Launch
import proofs.«152812_j63574105915528_2_alg».proof.Proof.Gen.Kernel.Skeleton
import proofs.«152812_j63574105915528_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which column band a point is in -/

/-- The body's first branch: the column-band coordinate is zero. -/
abbrev firstBand (i : grid1.Coords) : Prop := (Scalar.cmpi .ne (Scalar.extui (Scalar.cmpi .eq (BitVec.ofNat 32 (i 1).val) 0#32)) 0#32) = 1#1
theorem firstBand_iff : ∀ t : Fin cfg1.N, firstBand (grid1.coords t) ↔ t.val % 8 = 0 :=
  (by decide +kernel : ∀ t : Fin grid1.N, firstBand (grid1.coords t) ↔ t.val % 8 = 0)

/-- The body's second branch: the column-band coordinate is the last one. -/
abbrev lastBand (i : grid1.Coords) : Prop := k1_cond2 i = 1#1
theorem lastBand_iff : ∀ t : Fin cfg1.N, lastBand (grid1.coords t) ↔ t.val % 8 = 7 :=
  (by decide +kernel : ∀ t : Fin grid1.N, lastBand (grid1.coords t) ↔ t.val % 8 = 7)

/-- The four input windows are never idle. -/
theorem layIn0_live : ∀ t : Fin cfg1.N, cfg1.idle 0 (grid1.coords t) = false := by decide +kernel
theorem layIn1_live : ∀ t : Fin cfg1.N, cfg1.idle 1 (grid1.coords t) = false := by decide +kernel
theorem layIn2_live : ∀ t : Fin cfg1.N, cfg1.idle 2 (grid1.coords t) = false := by decide +kernel
theorem layIn3_live : ∀ t : Fin cfg1.N, cfg1.idle 3 (grid1.coords t) = false := by decide +kernel
/-- Before the last column band the output window is idle and is not written back. -/
theorem layOut_idle : ∀ t : Fin cfg1.N, ¬lastBand (grid1.coords t) → cfg1.idle 4 (grid1.coords t) = true := by decide +kernel
theorem layOut_noFlush : ∀ t : Fin cfg1.N, ¬lastBand (grid1.coords t) → (cfg1.win 4).flush t = false := by decide +kernel
/-- At the last column band it is live. -/
theorem layOut_live : ∀ t : Fin cfg1.N, lastBand (grid1.coords t) → cfg1.idle 4 (grid1.coords t) = false := by decide +kernel

/-! ## The buffers the body is called with -/

abbrev layOutV : View sig .tc .vmem S1024x256 .f32 := (Memref.whole cc1_stg4_0 : Memref sig .tc .vmem S1024x256 .f32).view
abbrev layM0 (t : Fin cfg1.N) : Memref sig .tc .vmem S1024x1024 .f32 := win1_0.stage (cfg1.slots t 0)
abbrev layH0 (t : Fin cfg1.N) : (layM0 t).IsWhole := hstage1_0 ((cfg1.slots t 0).cast nbuf1_0)
abbrev layM1 (t : Fin cfg1.N) : Memref sig .tc .vmem S1024x256 .bf16 := win1_1.stage (cfg1.slots t 1)
abbrev layH1 (t : Fin cfg1.N) : (layM1 t).IsWhole := hstage1_1 ((cfg1.slots t 1).cast nbuf1_1)
abbrev layM2 (t : Fin cfg1.N) : Memref sig .tc .vmem S1024x1 .f32 := win1_2.stage (cfg1.slots t 2)
abbrev layH2 (t : Fin cfg1.N) : (layM2 t).IsWhole := hstage1_2 ((cfg1.slots t 2).cast nbuf1_2)
abbrev layM3 (t : Fin cfg1.N) : Memref sig .tc .vmem S1x256 .f32 := win1_3.stage (cfg1.slots t 3)
abbrev layH3 (t : Fin cfg1.N) : (layM3 t).IsWhole := hstage1_3 ((cfg1.slots t 3).cast nbuf1_3)
abbrev layM4 (t : Fin cfg1.N) : Memref sig .tc .vmem S1024x256 .f32 := win1_4.stage (cfg1.slots t 4)
abbrev layH4 (t : Fin cfg1.N) : (layM4 t).IsWhole := hstage1_4 ((cfg1.slots t 4).cast nbuf1_4)
/-- The carried accumulator. -/
abbrev layAccM : Memref sig .tc .vmem S1024x256 .f32 := Memref.whole cc1_scratch0
abbrev layAccV : View sig .tc .vmem S1024x256 .f32 := layAccM.view

/-- The scoped buffers of the other launch, each whole at some contents, beside a proposition about the carried
    accumulator: they ride through this launch untouched. -/
def layOther (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ X)

/-- The class invariant with the carried accumulator as a memref owned at some contents. -/
theorem layPhiA_eq (c : Dev nD) :
    (Pipeline.ΦA spec1 c : sProp 𝕄)
      = iprop(layOther c (iprop(∃ d, owns (c : Thread nD τ) layAccM fullShare d)) ∗ (∃ r, prngReg c r)) := by
  unfold Pipeline.ΦA; rw [scopedRest1_eq]; simp only [layAccM, owns_whole, layOther]; try rfl

end Cert.Kernel.Hand

end
-- ==== Proof.K.LayerRunFirst.lean ====
/-
  The layer kernel at the first column band of a row band.
-/
import proofs.«152812_j63574105915528_2_alg».proof.Proof.K.LayerShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First column band: the accumulator is zeroed and the block product added; the output block is left as handed. -/
noncomputable def layRunFirst (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : firstBand i) (hc1 : ¬lastBand i)
    (x0 : Vec F S1024x1024 .f32) (x1 : Vec F S1024x256 .bf16) (x2 : Vec F S1024x1 .f32) (x3 : Vec F S1x256 .f32) :
    Σ' (L4 : List (View.Piece (Elt F) S1024x256 .f32)), { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.LayerRunMid.lean ====
/-
  The layer kernel at a middle column band of a row band.
-/
import proofs.«152812_j63574105915528_2_alg».proof.Proof.K.LayerShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle column band: the block product is added to what the band before left; the output block is left as handed. -/
noncomputable def layRunMid (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : ¬lastBand i)
    (x0 : Vec F S1024x1024 .f32) (x1 : Vec F S1024x256 .bf16) (x2 : Vec F S1024x1 .f32) (x3 : Vec F S1x256 .f32) (xs0 : Vec F S1024x256 .f32) :
    Σ' (L4 : List (View.Piece (Elt F) S1024x256 .f32)), { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.LayerRunLast.lean ====
/-
  The layer kernel at the last column band of a row band.
-/
import proofs.«152812_j63574105915528_2_alg».proof.Proof.K.LayerShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last column band: the block product is added, and the scaled accumulator plus the bias row is stored into the output block. -/
noncomputable def layRunLast (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : lastBand i)
    (x0 : Vec F S1024x1024 .f32) (x1 : Vec F S1024x256 .bf16) (x2 : Vec F S1024x1 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.LayerData.lean ====
/-
  The layer launch point by point: what the output block and the carried accumulator hold after each grid point,
  the launch's proof data over any region-entry contents, and the body obligation at every point.

  After the first column band of a row band the accumulator holds what that run's stores leave (zero plus the first
  block product); after every later band the run is applied to what the band before left; after the last band the
  output block holds the scaled total plus the bias row.  Between points the invariant keeps the accumulator at
  exactly these contents; the other launch's scoped buffers and the generator register ride along.
-/
import proofs.«152812_j63574105915528_2_alg».proof.Proof.K.LayerRunFirst
import proofs.«152812_j63574105915528_2_alg».proof.Proof.K.LayerRunMid
import proofs.«152812_j63574105915528_2_alg».proof.Proof.K.LayerRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the launch finds it. -/
def layBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem layBefore0_of {c : Dev nD} (dat : Dat τ (Elt F) Unit ℕ (UR sig nD τ) ℕ cfg1 c) (hA : dat.A 0 = V c (Pipeline.arrRef spec1 0))
    (hafter : ∀ t, dat.after 0 t = layBlk V c 0 t) (t : Fin cfg1.N) (d) : dat.before 0 t d = layBlk V c 0 t :=
  (dat.before_in_eq_fetched 0 rfl (fun _ => rfl) (fun _ _ _ => rfl) (fun t => by rw [hafter]; unfold Dat.blockOf layBlk; rw [hA]; try rfl) t d).trans
    (by unfold Dat.fetched Dat.blockOf layBlk; rw [hA]; try rfl)
theorem layBefore1_of {c : Dev nD} (dat : Dat τ (Elt F) Unit ℕ (UR sig nD τ) ℕ cfg1 c) (hA : dat.A 1 = V c (Pipeline.arrRef spec1 1))
    (hafter : ∀ t, dat.after 1 t = layBlk V c 1 t) (t : Fin cfg1.N) (d) : dat.before 1 t d = layBlk V c 1 t :=
  (dat.before_in_eq_fetched 1 rfl (fun _ => rfl) (fun _ _ _ => rfl) (fun t => by rw [hafter]; unfold Dat.blockOf layBlk; rw [hA]; try rfl) t d).trans
    (by unfold Dat.fetched Dat.blockOf layBlk; rw [hA]; try rfl)
theorem layBefore2_of {c : Dev nD} (dat : Dat τ (Elt F) Unit ℕ (UR sig nD τ) ℕ cfg1 c) (hA : dat.A 2 = V c (Pipeline.arrRef spec1 2))
    (hafter : ∀ t, dat.after 2 t = layBlk V c 2 t) (t : Fin cfg1.N) (d) : dat.before 2 t d = layBlk V c 2 t :=
  (dat.before_in_eq_fetched 2 rfl (fun _ => rfl) (fun _ _ _ => rfl) (fun t => by rw [hafter]; unfold Dat.blockOf layBlk; rw [hA]; try rfl) t d).trans
    (by unfold Dat.fetched Dat.blockOf layBlk; rw [hA]; try rfl)
theorem layBefore3_of {c : Dev nD} (dat : Dat τ (Elt F) Unit ℕ (UR sig nD τ) ℕ cfg1 c) (hA : dat.A 3 = V c (Pipeline.arrRef spec1 3))
    (hafter : ∀ t, dat.after 3 t = layBlk V c 3 t) (t : Fin cfg1.N) (d) : dat.before 3 t d = layBlk V c 3 t :=
  (dat.before_in_eq_fetched 3 rfl (fun _ => rfl) (fun _ _ _ => rfl) (fun t => by rw [hafter]; unfold Dat.blockOf layBlk; rw [hA]; try rfl) t d).trans
    (by unfold Dat.fetched Dat.blockOf layBlk; rw [hA]; try rfl)

/-! ## What each case leaves -/

def layOutFirst (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : firstBand i) (hc1 : ¬lastBand i) (x0 : Vec F S1024x1024 .f32) (x1 : Vec F S1024x256 .bf16) (x2 : Vec F S1024x1 .f32) (x3 : Vec F S1x256 .f32) : Vec F S1024x256 .f32 :=
  layOutV.read (Elt F) (layOutV.writes (Elt F) layOutV.junk (layRunFirst c i arg2 harg2 arg3 harg3 arg4 harg4 arg5 harg5 arg6 harg6 arg7 harg7 hc0 hc1 x0 x1 x2 x3).1)
theorem layAccCoverFirst (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : firstBand i) (hc1 : ¬lastBand i) (x0 : Vec F S1024x1024 .f32) (x1 : Vec F S1024x256 .bf16) (x2 : Vec F S1024x1 .f32) (x3 : Vec F S1x256 .f32) (y : S1024x256.Idx) :
    ∃ pc ∈ (layRunFirst c i arg2 harg2 arg3 harg3 arg4 harg4 arg5 harg5 arg6 harg6 arg7 harg7 hc0 hc1 x0 x1 x2 x3).2.1, y ∈ pc.1.set :=
  View.cover_of_tiledL (layRunFirst c i arg2 harg2 arg3 harg3 arg4 harg4 arg5 harg5 arg6 harg6 arg7 harg7 hc0 hc1 x0 x1 x2 x3).2.1 S1024x256.size (by sl_kernel_rfl) y
def layAccFirst (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : firstBand i) (hc1 : ¬lastBand i) (x0 : Vec F S1024x1024 .f32) (x1 : Vec F S1024x256 .bf16) (x2 : Vec F S1024x1 .f32) (x3 : Vec F S1x256 .f32) : Vec F S1024x256 .f32 :=
  layAccV.read (Elt F) (layAccV.writes (Elt F) layAccV.junk (layRunFirst c i arg2 harg2 arg3 harg3 arg4 harg4 arg5 harg5 arg6 harg6 arg7 harg7 hc0 hc1 x0 x1 x2 x3).2.1)

def layOutMid (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : ¬lastBand i) (x0 : Vec F S1024x1024 .f32) (x1 : Vec F S1024x256 .bf16) (x2 : Vec F S1024x1 .f32) (x3 : Vec F S1x256 .f32) (xs0 : Vec F S1024x256 .f32) : Vec F S1024x256 .f32 :=
  layOutV.read (Elt F) (layOutV.writes (Elt F) layOutV.junk (layRunMid c i arg2 harg2 arg3 harg3 arg4 harg4 arg5 harg5 arg6 harg6 arg7 harg7 hc0 hc1 x0 x1 x2 x3 xs0).1)
theorem layAccCoverMid (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : ¬lastBand i) (x0 : Vec F S1024x1024 .f32) (x1 : Vec F S1024x256 .bf16) (x2 : Vec F S1024x1 .f32) (x3 : Vec F S1x256 .f32) (xs0 : Vec F S1024x256 .f32) (y : S1024x256.Idx) :
    ∃ pc ∈ (layRunMid c i arg2 harg2 arg3 harg3 arg4 harg4 arg5 harg5 arg6 harg6 arg7 harg7 hc0 hc1 x0 x1 x2 x3 xs0).2.1, y ∈ pc.1.set :=
  View.cover_of_tiledL (layRunMid c i arg2 harg2 arg3 harg3 arg4 harg4 arg5 harg5 arg6 harg6 arg7 harg7 hc0 hc1 x0 x1 x2 x3 xs0).2.1 S1024x256.size (by sl_kernel_rfl) y
def layAccMid (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : ¬lastBand i) (x0 : Vec F S1024x1024 .f32) (x1 : Vec F S1024x256 .bf16) (x2 : Vec F S1024x1 .f32) (x3 : Vec F S1x256 .f32) (xs0 : Vec F S1024x256 .f32) : Vec F S1024x256 .f32 :=
  layAccV.read (Elt F) (layAccV.writes (Elt F) layAccV.junk (layRunMid c i arg2 harg2 arg3 harg3 arg4 harg4 arg5 harg5 arg6 harg6 arg7 harg7 hc0 hc1 x0 x1 x2 x3 xs0).2.1)

theorem layOutCoverLast (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : lastBand i) (x0 : Vec F S1024x1024 .f32) (x1 : Vec F S1024x256 .bf16) (x2 : Vec F S1024x1 .f32) (x3 : Vec F S1x256 .f32) (xs0 : Vec F S1024x256 .f32) (y : S1024x256.Idx) :
    ∃ pc ∈ (layRunLast c i arg2 harg2 arg3 harg3 arg4 harg4 arg5 harg5 arg6 harg6 arg7 harg7 hc0 hc1 x0 x1 x2 x3 xs0).1, y ∈ pc.1.set :=
  View.cover_of_tiledL (layRunLast c i arg2 harg2 arg3 harg3 arg4 harg4 arg5 harg5 arg6 harg6 arg7 harg7 hc0 hc1 x0 x1 x2 x3 xs0).1 S1024x256.size (by sl_kernel_rfl) y
def layOutLast (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : lastBand i) (x0 : Vec F S1024x1024 .f32) (x1 : Vec F S1024x256 .bf16) (x2 : Vec F S1024x1 .f32) (x3 : Vec F S1x256 .f32) (xs0 : Vec F S1024x256 .f32) : Vec F S1024x256 .f32 :=
  layOutV.read (Elt F) (layOutV.writes (Elt F) layOutV.junk (layRunLast c i arg2 harg2 arg3 harg3 arg4 harg4 arg5 harg5 arg6 harg6 arg7 harg7 hc0 hc1 x0 x1 x2 x3 xs0).1)
theorem layAccCoverLast (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : lastBand i) (x0 : Vec F S1024x1024 .f32) (x1 : Vec F S1024x256 .bf16) (x2 : Vec F S1024x1 .f32) (x3 : Vec F S1x256 .f32) (xs0 : Vec F S1024x256 .f32) (y : S1024x256.Idx) :
    ∃ pc ∈ (layRunLast c i arg2 harg2 arg3 harg3 arg4 harg4 arg5 harg5 arg6 harg6 arg7 harg7 hc0 hc1 x0 x1 x2 x3 xs0).2.1, y ∈ pc.1.set :=
  View.cover_of_tiledL (layRunLast c i arg2 harg2 arg3 harg3 arg4 harg4 arg5 harg5 arg6 harg6 arg7 harg7 hc0 hc1 x0 x1 x2 x3 xs0).2.1 S1024x256.size (by sl_kernel_rfl) y
def layAccLast (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : lastBand i) (x0 : Vec F S1024x1024 .f32) (x1 : Vec F S1024x256 .bf16) (x2 : Vec F S1024x1 .f32) (x3 : Vec F S1x256 .f32) (xs0 : Vec F S1024x256 .f32) : Vec F S1024x256 .f32 :=
  layAccV.read (Elt F) (layAccV.writes (Elt F) layAccV.junk (layRunLast c i arg2 harg2 arg3 harg3 arg4 harg4 arg5 harg5 arg6 harg6 arg7 harg7 hc0 hc1 x0 x1 x2 x3 xs0).2.1)

/-! ## Point by point -/

theorem fb_of (t : Fin cfg1.N) (h0 : t.val % 8 = 0) : firstBand (grid1.coords t) := (firstBand_iff t).mpr h0
theorem nfb_of (t : Fin cfg1.N) (h0 : ¬t.val % 8 = 0) : ¬firstBand (grid1.coords t) := fun h => h0 ((firstBand_iff t).mp h)
theorem lb_of (t : Fin cfg1.N) (h1 : t.val % 8 = 7) : lastBand (grid1.coords t) := (lastBand_iff t).mpr h1
theorem nlb_of (t : Fin cfg1.N) (h1 : ¬t.val % 8 = 7) : ¬lastBand (grid1.coords t) := fun h => h1 ((lastBand_iff t).mp h)
theorem nlb_of_first (t : Fin cfg1.N) (h0 : t.val % 8 = 0) : ¬lastBand (grid1.coords t) := nlb_of t (by omega)

/-- What the output block and the carried accumulator hold after the body at position `n`. -/
def layAt (c : Dev nD) : (n : ℕ) → n < cfg1.N → Vec F S1024x256 .f32 × Vec F S1024x256 .f32
  | 0, hn => (layOutFirst c (grid1.coords ⟨0, hn⟩) (layM0 ⟨0, hn⟩) (layH0 ⟨0, hn⟩) (layM1 ⟨0, hn⟩) (layH1 ⟨0, hn⟩) (layM2 ⟨0, hn⟩) (layH2 ⟨0, hn⟩) (layM3 ⟨0, hn⟩) (layH3 ⟨0, hn⟩) (layM4 ⟨0, hn⟩) (layH4 ⟨0, hn⟩) layAccM (Memref.isWhole_whole _) (fb_of ⟨0, hn⟩ (Nat.zero_mod _)) (nlb_of_first ⟨0, hn⟩ (Nat.zero_mod _)) (layBlk V c 0 ⟨0, hn⟩) (layBlk V c 1 ⟨0, hn⟩) (layBlk V c 2 ⟨0, hn⟩) (layBlk V c 3 ⟨0, hn⟩),
      layAccFirst c (grid1.coords ⟨0, hn⟩) (layM0 ⟨0, hn⟩) (layH0 ⟨0, hn⟩) (layM1 ⟨0, hn⟩) (layH1 ⟨0, hn⟩) (layM2 ⟨0, hn⟩) (layH2 ⟨0, hn⟩) (layM3 ⟨0, hn⟩) (layH3 ⟨0, hn⟩) (layM4 ⟨0, hn⟩) (layH4 ⟨0, hn⟩) layAccM (Memref.isWhole_whole _) (fb_of ⟨0, hn⟩ (Nat.zero_mod _)) (nlb_of_first ⟨0, hn⟩ (Nat.zero_mod _)) (layBlk V c 0 ⟨0, hn⟩) (layBlk V c 1 ⟨0, hn⟩) (layBlk V c 2 ⟨0, hn⟩) (layBlk V c 3 ⟨0, hn⟩))
  | n + 1, hn =>
    if h0 : (n + 1) % 8 = 0 then
      (layOutFirst c (grid1.coords ⟨n + 1, hn⟩) (layM0 ⟨n + 1, hn⟩) (layH0 ⟨n + 1, hn⟩) (layM1 ⟨n + 1, hn⟩) (layH1 ⟨n + 1, hn⟩) (layM2 ⟨n + 1, hn⟩) (layH2 ⟨n + 1, hn⟩) (layM3 ⟨n + 1, hn⟩) (layH3 ⟨n + 1, hn⟩) (layM4 ⟨n + 1, hn⟩) (layH4 ⟨n + 1, hn⟩) layAccM (Memref.isWhole_whole _) (fb_of ⟨n + 1, hn⟩ h0) (nlb_of_first ⟨n + 1, hn⟩ h0) (layBlk V c 0 ⟨n + 1, hn⟩) (layBlk V c 1 ⟨n + 1, hn⟩) (layBlk V c 2 ⟨n + 1, hn⟩) (layBlk V c 3 ⟨n + 1, hn⟩),
        layAccFirst c (grid1.coords ⟨n + 1, hn⟩) (layM0 ⟨n + 1, hn⟩) (layH0 ⟨n + 1, hn⟩) (layM1 ⟨n + 1, hn⟩) (layH1 ⟨n + 1, hn⟩) (layM2 ⟨n + 1, hn⟩) (layH2 ⟨n + 1, hn⟩) (layM3 ⟨n + 1, hn⟩) (layH3 ⟨n + 1, hn⟩) (layM4 ⟨n + 1, hn⟩) (layH4 ⟨n + 1, hn⟩) layAccM (Memref.isWhole_whole _) (fb_of ⟨n + 1, hn⟩ h0) (nlb_of_first ⟨n + 1, hn⟩ h0) (layBlk V c 0 ⟨n + 1, hn⟩) (layBlk V c 1 ⟨n + 1, hn⟩) (layBlk V c 2 ⟨n + 1, hn⟩) (layBlk V c 3 ⟨n + 1, hn⟩))
    else
      if h1 : (n + 1) % 8 = 7 then
        (layOutLast c (grid1.coords ⟨n + 1, hn⟩) (layM0 ⟨n + 1, hn⟩) (layH0 ⟨n + 1, hn⟩) (layM1 ⟨n + 1, hn⟩) (layH1 ⟨n + 1, hn⟩) (layM2 ⟨n + 1, hn⟩) (layH2 ⟨n + 1, hn⟩) (layM3 ⟨n + 1, hn⟩) (layH3 ⟨n + 1, hn⟩) (layM4 ⟨n + 1, hn⟩) (layH4 ⟨n + 1, hn⟩) layAccM (Memref.isWhole_whole _) (nfb_of ⟨n + 1, hn⟩ h0) (lb_of ⟨n + 1, hn⟩ h1) (layBlk V c 0 ⟨n + 1, hn⟩) (layBlk V c 1 ⟨n + 1, hn⟩) (layBlk V c 2 ⟨n + 1, hn⟩) (layBlk V c 3 ⟨n + 1, hn⟩) (layAt c n (Nat.lt_of_succ_lt hn)).2,
          layAccLast c (grid1.coords ⟨n + 1, hn⟩) (layM0 ⟨n + 1, hn⟩) (layH0 ⟨n + 1, hn⟩) (layM1 ⟨n + 1, hn⟩) (layH1 ⟨n + 1, hn⟩) (layM2 ⟨n + 1, hn⟩) (layH2 ⟨n + 1, hn⟩) (layM3 ⟨n + 1, hn⟩) (layH3 ⟨n + 1, hn⟩) (layM4 ⟨n + 1, hn⟩) (layH4 ⟨n + 1, hn⟩) layAccM (Memref.isWhole_whole _) (nfb_of ⟨n + 1, hn⟩ h0) (lb_of ⟨n + 1, hn⟩ h1) (layBlk V c 0 ⟨n + 1, hn⟩) (layBlk V c 1 ⟨n + 1, hn⟩) (layBlk V c 2 ⟨n + 1, hn⟩) (layBlk V c 3 ⟨n + 1, hn⟩) (layAt c n (Nat.lt_of_succ_lt hn)).2)
      else
        (layOutMid c (grid1.coords ⟨n + 1, hn⟩) (layM0 ⟨n + 1, hn⟩) (layH0 ⟨n + 1, hn⟩) (layM1 ⟨n + 1, hn⟩) (layH1 ⟨n + 1, hn⟩) (layM2 ⟨n + 1, hn⟩) (layH2 ⟨n + 1, hn⟩) (layM3 ⟨n + 1, hn⟩) (layH3 ⟨n + 1, hn⟩) (layM4 ⟨n + 1, hn⟩) (layH4 ⟨n + 1, hn⟩) layAccM (Memref.isWhole_whole _) (nfb_of ⟨n + 1, hn⟩ h0) (nlb_of ⟨n + 1, hn⟩ h1) (layBlk V c 0 ⟨n + 1, hn⟩) (layBlk V c 1 ⟨n + 1, hn⟩) (layBlk V c 2 ⟨n + 1, hn⟩) (layBlk V c 3 ⟨n + 1, hn⟩) (layAt c n (Nat.lt_of_succ_lt hn)).2,
          layAccMid c (grid1.coords ⟨n + 1, hn⟩) (layM0 ⟨n + 1, hn⟩) (layH0 ⟨n + 1, hn⟩) (layM1 ⟨n + 1, hn⟩) (layH1 ⟨n + 1, hn⟩) (layM2 ⟨n + 1, hn⟩) (layH2 ⟨n + 1, hn⟩) (layM3 ⟨n + 1, hn⟩) (layH3 ⟨n + 1, hn⟩) (layM4 ⟨n + 1, hn⟩) (layH4 ⟨n + 1, hn⟩) layAccM (Memref.isWhole_whole _) (nfb_of ⟨n + 1, hn⟩ h0) (nlb_of ⟨n + 1, hn⟩ h1) (layBlk V c 0 ⟨n + 1, hn⟩) (layBlk V c 1 ⟨n + 1, hn⟩) (layBlk V c 2 ⟨n + 1, hn⟩) (layBlk V c 3 ⟨n + 1, hn⟩) (layAt c n (Nat.lt_of_succ_lt hn)).2)

theorem layAt_first (c : Dev nD) (t : Fin cfg1.N) (h0 : t.val % 8 = 0) :
    layAt V c t.val t.isLt = (layOutFirst c (grid1.coords t) (layM0 t) (layH0 t) (layM1 t) (layH1 t) (layM2 t) (layH2 t) (layM3 t) (layH3 t) (layM4 t) (layH4 t) layAccM (Memref.isWhole_whole _) (fb_of t h0) (nlb_of_first t h0) (layBlk V c 0 t) (layBlk V c 1 t) (layBlk V c 2 t) (layBlk V c 3 t),
      layAccFirst c (grid1.coords t) (layM0 t) (layH0 t) (layM1 t) (layH1 t) (layM2 t) (layH2 t) (layM3 t) (layH3 t) (layM4 t) (layH4 t) layAccM (Memref.isWhole_whole _) (fb_of t h0) (nlb_of_first t h0) (layBlk V c 0 t) (layBlk V c 1 t) (layBlk V c 2 t) (layBlk V c 3 t)) := by
  obtain ⟨n, hn⟩ := t
  cases n with
  | zero => exact rfl
  | succ n => exact (dif_pos h0).trans rfl

theorem layAt_mid (c : Dev nD) (t : Fin cfg1.N) (h0 : ¬t.val % 8 = 0) (h1 : ¬t.val % 8 = 7) :
    layAt V c t.val t.isLt = (layOutMid c (grid1.coords t) (layM0 t) (layH0 t) (layM1 t) (layH1 t) (layM2 t) (layH2 t) (layM3 t) (layH3 t) (layM4 t) (layH4 t) layAccM (Memref.isWhole_whole _) (nfb_of t h0) (nlb_of t h1) (layBlk V c 0 t) (layBlk V c 1 t) (layBlk V c 2 t) (layBlk V c 3 t) (layAt V c (t.val - 1) (Nat.lt_of_le_of_lt (Nat.sub_le _ _) t.isLt)).2,
      layAccMid c (grid1.coords t) (layM0 t) (layH0 t) (layM1 t) (layH1 t) (layM2 t) (layH2 t) (layM3 t) (layH3 t) (layM4 t) (layH4 t) layAccM (Memref.isWhole_whole _) (nfb_of t h0) (nlb_of t h1) (layBlk V c 0 t) (layBlk V c 1 t) (layBlk V c 2 t) (layBlk V c 3 t) (layAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem layAt_last (c : Dev nD) (t : Fin cfg1.N) (h0 : ¬t.val % 8 = 0) (h1 : t.val % 8 = 7) :
    layAt V c t.val t.isLt = (layOutLast c (grid1.coords t) (layM0 t) (layH0 t) (layM1 t) (layH1 t) (layM2 t) (layH2 t) (layM3 t) (layH3 t) (layM4 t) (layH4 t) layAccM (Memref.isWhole_whole _) (nfb_of t h0) (lb_of t h1) (layBlk V c 0 t) (layBlk V c 1 t) (layBlk V c 2 t) (layBlk V c 3 t) (layAt V c (t.val - 1) (Nat.lt_of_le_of_lt (Nat.sub_le _ _) t.isLt)).2,
      layAccLast c (grid1.coords t) (layM0 t) (layH0 t) (layM1 t) (layH1 t) (layM2 t) (layH2 t) (layM3 t) (layH3 t) (layM4 t) (layH4 t) layAccM (Memref.isWhole_whole _) (nfb_of t h0) (lb_of t h1) (layBlk V c 0 t) (layBlk V c 1 t) (layBlk V c 2 t) (layBlk V c 3 t) (layAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`. -/
def layPhi (c : Dev nD) : (n : ℕ) → n ≤ cfg1.N → sProp 𝕄
  | 0, _ => Pipeline.ΦA spec1 c
  | n + 1, hn => iprop(layOther c (owns (c : Thread nD τ) layAccM fullShare ((layAt V c n hn).2)) ∗ (∃ r, prngReg c r))

theorem layPhi_zero (c : Dev nD) (n : ℕ) (h : n ≤ cfg1.N) (hz : n = 0) : layPhi V c n h = Pipeline.ΦA spec1 c := by
  subst hz; rfl
theorem layPhi_succ (c : Dev nD) (n : ℕ) (hn : n < cfg1.N) :
    layPhi V c (n + 1) hn = iprop(layOther c (owns (c : Thread nD τ) layAccM fullShare ((layAt V c n hn).2)) ∗ (∃ r, prngReg c r)) := rfl
theorem layPhi_pos (c : Dev nD) (n : ℕ) (h : n ≤ cfg1.N) (hz : n ≠ 0) :
    layPhi V c n h = iprop(layOther c (owns (c : Thread nD τ) layAccM fullShare ((layAt V c (n - 1) (by omega)).2)) ∗ (∃ r, prngReg c r)) := by
  cases n with
  | zero => exact absurd rfl hz
  | succ n => rfl

/-! ## The proof data -/

def layDat (c : Dev nD) : Dat τ (Elt F) Unit ℕ (UR sig nD τ) ℕ cfg1 c where
  A w := V c (Pipeline.arrRef spec1 w)
  after w t := match w with
    | ⟨0, _⟩ => layBlk V c 0 t
    | ⟨1, _⟩ => layBlk V c 1 t
    | ⟨2, _⟩ => layBlk V c 2 t
    | ⟨3, _⟩ => layBlk V c 3 t
    | ⟨4, _⟩ => (layAt V c t.val t.isLt).1
  Φ t := layPhi V c t.val (Nat.le_of_lt_succ t.isLt)
  q _ := fullShare
  owed _ := 0

theorem layA_eq (c : Dev nD) (w : Fin cfg1.W) : (layDat V c).A w = V c (Pipeline.arrRef spec1 w) := by
  dsimp only [layDat]
theorem layPhi_castSucc (c : Dev nD) (t : Fin cfg1.N) :
    (layDat V c).Φ t.castSucc = layPhi V c t.val (Nat.le_of_lt t.isLt) := by
  dsimp only [layDat]; simp only [Fin.coe_castSucc]

theorem layAfter0 (c : Dev nD) (t : Fin cfg1.N) : (layDat V c).after 0 t = layBlk V c 0 t := by dsimp only [layDat]
theorem layAfter1 (c : Dev nD) (t : Fin cfg1.N) : (layDat V c).after 1 t = layBlk V c 1 t := by dsimp only [layDat]
theorem layAfter2 (c : Dev nD) (t : Fin cfg1.N) : (layDat V c).after 2 t = layBlk V c 2 t := by dsimp only [layDat]
theorem layAfter3 (c : Dev nD) (t : Fin cfg1.N) : (layDat V c).after 3 t = layBlk V c 3 t := by dsimp only [layDat]
theorem layAfter4 (c : Dev nD) (t : Fin cfg1.N) : (layDat V c).after 4 t = (layAt V c t.val t.isLt).1 := by dsimp only [layDat]

theorem layBefore0 (c : Dev nD) (t : Fin cfg1.N) (d) : (layDat V c).before 0 t d = layBlk V c 0 t :=
  layBefore0_of V (layDat V c) (layA_eq V c 0) (layAfter0 V c) t d
theorem layBefore1 (c : Dev nD) (t : Fin cfg1.N) (d) : (layDat V c).before 1 t d = layBlk V c 1 t :=
  layBefore1_of V (layDat V c) (layA_eq V c 1) (layAfter1 V c) t d
theorem layBefore2 (c : Dev nD) (t : Fin cfg1.N) (d) : (layDat V c).before 2 t d = layBlk V c 2 t :=
  layBefore2_of V (layDat V c) (layA_eq V c 2) (layAfter2 V c) t d
theorem layBefore3 (c : Dev nD) (t : Fin cfg1.N) (d) : (layDat V c).before 3 t d = layBlk V c 3 t :=
  layBefore3_of V (layDat V c) (layA_eq V c 3) (layAfter3 V c) t d

/-! ## The body obligation -/

def layBodyPre (c : Dev nD) (t : Fin cfg1.N) : sProp 𝕄 :=
  iprop((layDat V c).Φ t.castSucc ∗ (layDat V c).owesAt () t.castSucc
    ∗ (∃ d, owns (c : Thread nD τ) (layM0 t) fullShare ((layDat V c).before 0 t d))
    ∗ (∃ d, owns (c : Thread nD τ) (layM1 t) fullShare ((layDat V c).before 1 t d))
    ∗ (∃ d, owns (c : Thread nD τ) (layM2 t) fullShare ((layDat V c).before 2 t d))
    ∗ (∃ d, owns (c : Thread nD τ) (layM3 t) fullShare ((layDat V c).before 3 t d))
    ∗ (∃ d, owns (c : Thread nD τ) (layM4 t) fullShare ((layDat V c).before 4 t d)))

def layBodyPost (c : Dev nD) (t : Fin cfg1.N) : sProp 𝕄 :=
  iprop((layDat V c).Φ t.succ ∗ (layDat V c).owesAt () t.succ
    ∗ (layDat V c).leavesExact 0 t
    ∗ (layDat V c).leavesExact 1 t
    ∗ (layDat V c).leavesExact 2 t
    ∗ (layDat V c).leavesExact 3 t
    ∗ (layDat V c).leavesExact 4 t)

theorem layLeaves0 (c : Dev nD) (t : Fin cfg1.N) : (layDat V c).leavesExact 0 t = owns (c : Thread nD τ) (layM0 t) fullShare (layBlk V c 0 t) := by
  unfold Dat.leavesExact; rw [layIn0_live t, layAfter0]
theorem layLeaves1 (c : Dev nD) (t : Fin cfg1.N) : (layDat V c).leavesExact 1 t = owns (c : Thread nD τ) (layM1 t) fullShare (layBlk V c 1 t) := by
  unfold Dat.leavesExact; rw [layIn1_live t, layAfter1]
theorem layLeaves2 (c : Dev nD) (t : Fin cfg1.N) : (layDat V c).leavesExact 2 t = owns (c : Thread nD τ) (layM2 t) fullShare (layBlk V c 2 t) := by
  unfold Dat.leavesExact; rw [layIn2_live t, layAfter2]
theorem layLeaves3 (c : Dev nD) (t : Fin cfg1.N) : (layDat V c).leavesExact 3 t = owns (c : Thread nD τ) (layM3 t) fullShare (layBlk V c 3 t) := by
  unfold Dat.leavesExact; rw [layIn3_live t, layAfter3]

set_option maxHeartbeats 4800000 in
theorem laySoundBody (c : Dev nD) (t : Fin cfg1.N) :
    layBodyPre V c t ⊢ wp frame (wpE (defs₀ (F := F)) Variants.none c none) Set.univ (bodyAt1 t) (fun _ => layBodyPost V c t) := by
  unfold layBodyPre layBodyPost bodyAt1
  simp only [layBefore0, layBefore1, layBefore2, layBefore3]
  rw [show (layDat V c).owesAt () t.succ = (layDat V c).owesAt () t.castSucc from rfl]
  rw [show (layDat V c).Φ t.succ = layPhi V c (t.val + 1) t.isLt from rfl, layPhi_succ]
  rw [layLeaves0, layLeaves1, layLeaves2, layLeaves3]
  have hN : t.val < 64 := lt_of_lt_of_eq t.isLt (show cfg1.N = 64 from N_1)
  by_cases h0 : t.val % 8 = 0
  · rw [Dat.leavesExact_idle (layDat V c) 4 t (layOut_idle t (nlb_of_first t h0)) (layOut_noFlush t (nlb_of_first t h0))]
    rw [layAt_first V c t h0]
    unfold layAccFirst; (try dsimp only)
    by_cases hz : t.val = 0
    · rw [layPhi_castSucc V c t, layPhi_zero V c _ _ hz, layPhiA_eq]
      unfold layOther
      iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩⟩
      iapply ((layRunFirst c (grid1.coords t) _ _ _ _ _ _ _ _ _ _ _ _ (fb_of t h0) (nlb_of_first t h0) (layBlk V c 0 t) (layBlk V c 1 t) (layBlk V c 2 t) (layBlk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg Ha1 Ha2 Ha3 Ha4 Ha5]
      · isplitl [HS0 Ha1 Ha2 Ha3 Ha4 Ha5]
        · isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (layAccCoverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [layPhi_castSucc V c t, layPhi_pos V c _ _ hz]
      unfold layOther
      iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩⟩
      iapply ((layRunFirst c (grid1.coords t) _ _ _ _ _ _ _ _ _ _ _ _ (fb_of t h0) (nlb_of_first t h0) (layBlk V c 0 t) (layBlk V c 1 t) (layBlk V c 2 t) (layBlk V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg Ha1 Ha2 Ha3 Ha4 Ha5]
      · isplitl [HS0 Ha1 Ha2 Ha3 Ha4 Ha5]
        · isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (layAccCoverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (layDat V c).leavesExact 4 t = owns (c : Thread nD τ) (layM4 t) fullShare ((layDat V c).after 4 t) from by
        unfold Dat.leavesExact; rw [layOut_live t (lb_of t h1)], layAfter4]
      rw [layAt_last V c t h0 h1]
      unfold layOutLast layAccLast; (try dsimp only)
      rw [layPhi_castSucc V c t, layPhi_pos V c _ _ hz]
      unfold layOther
      iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩⟩
      iapply ((layRunLast c (grid1.coords t) _ _ _ _ _ _ _ _ _ _ _ _ (nfb_of t h0) (lb_of t h1) (layBlk V c 0 t) (layBlk V c 1 t) (layBlk V c 2 t) (layBlk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg Ha1 Ha2 Ha3 Ha4 Ha5]
      · isplitl [HS0 Ha1 Ha2 Ha3 Ha4 Ha5]
        · isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (layAccCoverLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (layOutCoverLast c _ _ _ _ _ _ _ _ _ _ _ _ _ _ _ _ _ _ _ _)
    · rw [Dat.leavesExact_idle (layDat V c) 4 t (layOut_idle t (nlb_of t h1)) (layOut_noFlush t (nlb_of t h1))]
      rw [layAt_mid V c t h0 h1]
      unfold layAccMid; (try dsimp only)
      rw [layPhi_castSucc V c t, layPhi_pos V c _ _ hz]
      unfold layOther
      iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩⟩
      iapply ((layRunMid c (grid1.coords t) _ _ _ _ _ _ _ _ _ _ _ _ (nfb_of t h0) (nlb_of t h1) (layBlk V c 0 t) (layBlk V c 1 t) (layBlk V c 2 t) (layBlk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg Ha1 Ha2 Ha3 Ha4 Ha5]
      · isplitl [HS0 Ha1 Ha2 Ha3 Ha4 Ha5]
        · isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (layAccCoverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem layBodyObligation (c : Dev nD) : BodyObligation (layDat (F := F) V c) (defs₀ (F := F)) Variants.none () Set.univ := fun t => by
  rw [bigSep_W1, bigSep_W1]
  exact laySoundBody V c t

theorem layHin (c : Dev nD) : Pipeline.ΦA spec1 c ⊢ (layDat V c).Φ 0 := by
  rw [show (layDat V c).Φ 0 = layPhi V c 0 (Nat.zero_le _) from rfl, layPhi_zero V c 0 _ rfl]
  try exact Idealize.SL.BI.Entails.refl _

theorem layHout (c : Dev nD) : (layDat V c).Φ (Fin.last cfg1.N) ⊢ Pipeline.ΦA spec1 c := by
  have ht : (Fin.last cfg1.N).val ≠ 0 := by rw [Fin.val_last]; have : cfg1.N = 64 := N_1; omega
  rw [show (layDat V c).Φ (Fin.last cfg1.N) = layPhi V c (Fin.last cfg1.N).val (Nat.le_of_lt_succ (Fin.last cfg1.N).isLt) from rfl, layPhi_pos V c _ _ ht, layPhiA_eq]
  unfold layOther
  iintro ⟨⟨Ha1, Ha2, Ha3, Ha4, Ha5, HS0⟩, Hg⟩
  isplitl [HS0 Ha1 Ha2 Ha3 Ha4 Ha5]
  · isplitl [Ha1]; · iexact Ha1
    isplitl [Ha2]; · iexact Ha2
    isplitl [Ha3]; · iexact Ha3
    isplitl [Ha4]; · iexact Ha4
    isplitl [Ha5]; · iexact Ha5
    iexists _; iexact HS0
  iexact Hg

end Cert.Kernel.Hand

end
-- ==== Proof.K.Regions.lean ====
/-
  The whole program as a run of five segments — the degree launch, three stretches of host operations, the layer
  launch — from the launch memory to the return.

  Between two segments every unscoped buffer of a core is held whole at named contents: the launch memory; then the
  degree launch's arrays at what its pipeline leaves; then each host stretch applied in order; then the layer launch's
  arrays at what its pipeline leaves.  Each launch's arrays are split out of the unscoped buffers at its entry and put
  back at its exit; the generator register enters each launch's invariant and comes back; nothing is ever owed.  The
  final memory therefore holds every unscoped buffer at the last of these contents: the result at what the layer
  launch leaves, and each argument, which no segment writes, as launched.
-/
import proofs.«152812_j63574105915528_2_alg».proof.Proof.K.DegreeData
import proofs.«152812_j63574105915528_2_alg».proof.Proof.K.LayerData
import proofs.«152812_j63574105915528_2_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the degree launch: its arrays at what its pipeline leaves, every other buffer as before. -/
def W1 (c : Dev nD) : Valuation τ sig (Elt F) :=
  Pipeline.withArrays spec0 c (W0 m ρ c) fun w => (degDat (V0 m ρ) c).arrAt w cfg0.N
theorem W1_arr (c : Dev nD) (w : Fin cfg0.W) :
    W1 m ρ c (Proc.devRef .tc (Pipeline.arrRef spec0 w)) = (degDat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev W1V : (c : Dev nD) → (b : Ref sig .tc) → Buf (Elt F) ((c : Thread nD τ).loc b) := fun c b => W1 m ρ c b
theorem W1_hF (c : Dev nD) (w : Fin cfg0.W) : (degDat (V0 m ρ) c).arrAt w cfg0.N = W1V m ρ c (Pipeline.arrRef spec0 w) :=
  (W1_arr m ρ c w).symm
theorem W1_hrest (c : Dev nD) : ∀ b, b ∉ Finset.univ.image (Pipeline.arrRef spec0) → W1V m ρ c b = V0 m ρ c b :=
  fun b hb => W1_of_ne m ρ c b fun w e => hb (Finset.mem_image.mpr ⟨w, Finset.mem_univ _, e⟩)

/-- After each of the three host stretches. -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev V4 : (c : Dev nD) → (b : Ref sig .tc) → Buf (Elt F) ((c : Thread nD τ).loc b) := fun c b => W4 m ρ c b
/-- After the layer launch. -/
def W5 (c : Dev nD) : Valuation τ sig (Elt F) :=
  Pipeline.withArrays spec1 c (W4 m ρ c) fun w => (layDat (V4 m ρ) c).arrAt w cfg1.N
theorem W5_arr (c : Dev nD) (w : Fin cfg1.W) :
    W5 m ρ c (Proc.devRef .tc (Pipeline.arrRef spec1 w)) = (layDat (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev W5V : (c : Dev nD) → (b : Ref sig .tc) → Buf (Elt F) ((c : Thread nD τ).loc b) := fun c b => W5 m ρ c b
theorem W5_hF (c : Dev nD) (w : Fin cfg1.W) : (layDat (V4 m ρ) c).arrAt w cfg1.N = W5V m ρ c (Pipeline.arrRef spec1 w) :=
  (W5_arr m ρ c w).symm
theorem W5_hrest (c : Dev nD) : ∀ b, b ∉ Finset.univ.image (Pipeline.arrRef spec1) → W5V m ρ c b = V4 m ρ c b :=
  fun b hb => W5_of_ne m ρ c b fun w e => hb (Finset.mem_image.mpr ⟨w, Finset.mem_univ _, e⟩)

/-- A buffer no host stretch writes passes through the three stretches. -/
theorem W4_of (c : Dev nD) (r : Ref sig .tc) (h1 : r ∉ hostOps1_W) (h2 : r ∉ hostOps1_1_W) (h3 : r ∉ hostOps1_2_W) :
    W4 m ρ c (Proc.devRef .tc r) = W1 m ρ c (Proc.devRef .tc r) :=
  (StableHlo.after_of_writes_sub hostOps1_2 _ hostOps1_2_writes h3).trans <|
    (StableHlo.after_of_writes_sub hostOps1_1 _ hostOps1_1_writes h2).trans <|
      StableHlo.after_of_writes_sub hostOps1 _ hostOps1_writes h1

/-! ## The arguments end as launched -/

theorem W5_main_arg0 (c : Dev nD) : W5 m ρ c (Proc.devRef .tc main_arg0) = m ((c : Thread nD τ).loc main_arg0) :=
  (W5_of_ne m ρ c main_arg0 (by decide)).trans <| (W4_of m ρ c main_arg0 (by decide) (by decide) (by decide)).trans <|
    (W1_of_ne m ρ c main_arg0 (by decide)).trans rfl
theorem W5_main_arg2 (c : Dev nD) : W5 m ρ c (Proc.devRef .tc main_arg2) = m ((c : Thread nD τ).loc main_arg2) :=
  (W5_of_ne m ρ c main_arg2 (by decide)).trans <| (W4_of m ρ c main_arg2 (by decide) (by decide) (by decide)).trans <|
    (W1_of_ne m ρ c main_arg2 (by decide)).trans rfl
theorem W5_main_arg3 (c : Dev nD) : W5 m ρ c (Proc.devRef .tc main_arg3) = m ((c : Thread nD τ).loc main_arg3) :=
  (W5_of_ne m ρ c main_arg3 (by decide)).trans <| (W4_of m ρ c main_arg3 (by decide) (by decide) (by decide)).trans <|
    (W1_of_ne m ρ c main_arg3 (by decide)).trans rfl
/-- The adjacency is an input window of both launches: each leaves it as found. -/
theorem W1_main_arg1 (c : Dev nD) : W1 m ρ c (Proc.devRef .tc main_arg1) = m ((c : Thread nD τ).loc main_arg1) :=
  (W1_arr m ρ c 0).trans (((degDat (V0 m ρ) c).arrAt_in 0 rfl _).trans ((degA_eq (V0 m ρ) c 0).trans rfl))
theorem W4_main_arg1 (c : Dev nD) : W4 m ρ c (Proc.devRef .tc main_arg1) = m ((c : Thread nD τ).loc main_arg1) :=
  (W4_of m ρ c main_arg1 (by decide) (by decide) (by decide)).trans (W1_main_arg1 m ρ c)
theorem W5_main_arg1 (c : Dev nD) : W5 m ρ c (Proc.devRef .tc main_arg1) = m ((c : Thread nD τ).loc main_arg1) :=
  (W5_arr m ρ c 0).trans (((layDat (V4 m ρ) c).arrAt_in 0 rfl _).trans ((layA_eq (V4 m ρ) c 0).trans (W4_main_arg1 m ρ c)))
/-- The result is the layer launch's output array. -/
theorem W5_main_v14 (c : Dev nD) : W5 m ρ c (Proc.devRef .tc main_v14) = (layDat (V4 m ρ) c).arrAt 4 cfg1.N :=
  W5_arr m ρ c 4
/-- The degree column the host stretches read is the degree launch's output array. -/
theorem W1_main_v0 (c : Dev nD) : W1 m ρ c (Proc.devRef .tc main_v0) = (degDat (V0 m ρ) c).arrAt 1 cfg0.N :=
  W1_arr m ρ c 1

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => degDat (V0 m ρ) c
  | ⟨1, _⟩ => fun c => layDat (V4 m ρ) c
abbrev 𝒱₀ : Variants := Variants.none
abbrev L : GSem nD τ sig → Finset Unit := fun _ => ∅
abbrev lv : GSem nD τ sig → Unit → ℕ := fun _ _ => 0
/-- What rides beside the buffers through every segment: the generator register and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W5 m ρ c) ∗ ∃ r, prngReg c r)

/-! ## The two launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (degBodyObligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (degHin (V0 m ρ) c)
    unfold Pipeline.ΦA
    iintro ⟨Hp, -, Hr⟩
    isplitl [Hr]; · iexact Hr
    iexact Hp
  hout c := by
    rw [Pipeline.ownSems0_none]
    refine .trans (degHout (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (W1V m ρ c) ((pdats m ρ 0 c).arrAt · cfg0.N) (W1_hF m ρ c) (W1_hrest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (layBodyObligation (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (layHin (V4 m ρ) c)
    unfold Pipeline.ΦA
    iintro ⟨Hp, -, Hr⟩
    isplitl [Hr]; · iexact Hr
    iexact Hp
  hout c := by
    rw [Pipeline.ownSems0_none]
    refine .trans (layHout (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (W5V m ρ c) ((pdats m ρ 1 c).arrAt · cfg1.N) (W5_hF m ρ c) (W5_hrest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds the result at what the layer launch's pipeline leaves and each argument as launched. -/
theorem run_all : θ_run defs (onTc (τ := τ) (main (F := F))) ⟨m, fun _ => 0, ρ⟩ (fun r => ∀ c : Dev nD,
      r.2.mem ((c.tc : Thread nD τ).loc main_v14) = (layDat (V4 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v14 (by decide))).trans (W5_main_v14 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Kernel.Hand

end
-- ==== Proof.KI.DegreeRuns.lean ====
/-
  The degree kernel (the first launch) at one grid point, on any whole staging buffers.

  The grid is 8 row bands × 2 column halves, walked row band first.  At the first half of a row band the body
  zeroes its carried column of 1024 partial sums and adds the row sums of the block it was handed; at the second
  half it adds the block's row sums to what the first half left and copies the total into the output block.  The
  two runs below are the body's triples in these two cases: the stores each buffer ends with are found by running
  the body symbolically.
-/
import proofs.«152812_j63574105915528_2_alg».proof.Proof.Gen.KernelIdeal.Launch
import proofs.«152812_j63574105915528_2_alg».proof.Proof.Gen.KernelIdeal.Skeleton
import proofs.«152812_j63574105915528_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which half of the row band a point is in -/

/-- The body's first branch: the column coordinate is zero. -/
abbrev firstHalf (i : grid0.Coords) : Prop := (Scalar.cmpi .ne (Scalar.extui (Scalar.cmpi .eq (BitVec.ofNat 32 (i 1).val) 0#32)) 0#32) = 1#1
theorem firstHalf_iff : ∀ t : Fin cfg0.N, firstHalf (grid0.coords t) ↔ t.val % 2 = 0 :=
  (by decide +kernel : ∀ t : Fin grid0.N, firstHalf (grid0.coords t) ↔ t.val % 2 = 0)

/-- The body's second branch: the column coordinate is the last one. -/
abbrev lastHalf (i : grid0.Coords) : Prop := k0_cond2 i = 1#1
theorem lastHalf_iff : ∀ t : Fin cfg0.N, lastHalf (grid0.coords t) ↔ t.val % 2 = 1 :=
  (by decide +kernel : ∀ t : Fin grid0.N, lastHalf (grid0.coords t) ↔ t.val % 2 = 1)

/-- The adjacency window is never idle. -/
theorem degIn_live : ∀ t : Fin cfg0.N, cfg0.idle 0 (grid0.coords t) = false := by decide +kernel
/-- In the first half the output window is idle and is not written back. -/
theorem degOut_idle : ∀ t : Fin cfg0.N, firstHalf (grid0.coords t) → ¬lastHalf (grid0.coords t) → cfg0.idle 1 (grid0.coords t) = true := by decide +kernel
theorem degOut_noFlush : ∀ t : Fin cfg0.N, firstHalf (grid0.coords t) → ¬lastHalf (grid0.coords t) → (cfg0.win 1).flush t = false := by decide +kernel
/-- In the second half it is live. -/
theorem degOut_live : ∀ t : Fin cfg0.N, ¬firstHalf (grid0.coords t) → lastHalf (grid0.coords t) → cfg0.idle 1 (grid0.coords t) = false := by decide +kernel

/-! ## The buffers the body is called with -/

abbrev degOutV : View sig .tc .vmem S1024x1 .f32 := (Memref.whole cc0_stg1_0 : Memref sig .tc .vmem S1024x1 .f32).view
abbrev degM0 (t : Fin cfg0.N) : Memref sig .tc .vmem S1024x4096 .f32 := win0_0.stage (cfg0.slots t 0)
abbrev degH0 (t : Fin cfg0.N) : (degM0 t).IsWhole := hstage0_0 ((cfg0.slots t 0).cast nbuf0_0)
abbrev degM1 (t : Fin cfg0.N) : Memref sig .tc .vmem S1024x1 .f32 := win0_1.stage (cfg0.slots t 1)
abbrev degH1 (t : Fin cfg0.N) : (degM1 t).IsWhole := hstage0_1 ((cfg0.slots t 1).cast nbuf0_1)
/-- The carried column of partial sums. -/
abbrev degAccM : Memref sig .tc .vmem S1024x1 .f32 := Memref.whole cc0_scratch0
abbrev degAccV : View sig .tc .vmem S1024x1 .f32 := degAccM.view

/-- The scoped buffers of the other launch, each whole at some contents: they ride through this launch untouched. -/
def degOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class invariant with the carried column as a memref owned at some contents. -/
theorem degPhiA_eq (c : Dev nD) :
    (Pipeline.ΦA spec0 c : sProp 𝕄)
      = iprop(iprop((∃ d, owns (c : Thread nD τ) degAccM fullShare d) ∗ degOther c) ∗ (∃ r, prngReg c r)) := by
  unfold Pipeline.ΦA; rw [scopedRest0_eq]; simp only [degAccM, owns_whole, degOther]; try rfl

/-! ## The two runs -/

set_option maxHeartbeats 1000000 in
/-- First half: the carried column is zeroed and the block's row sums added; the output block is left as handed. -/
noncomputable def degRunFirst (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : firstHalf i) (hc1 : ¬lastHalf i)
    (x0 : Vec F S1024x4096 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Second half: the block's row sums are added to the carried column and the total stored into the output block. -/
noncomputable def degRunLast (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬firstHalf i) (hc1 : lastHalf i)
    (x0 : Vec F S1024x4096 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KI.DegreeData.lean ====
/-
  The degree launch point by point: what the output block and the carried column of partial sums hold after each
  grid point, the launch's proof data over any region-entry contents, and the body obligation at every point.

  After a first-half point the carried column holds what that run's stores leave (zero plus the block's row sums);
  after a second-half point the run is applied to what the point before left, and the output block holds the copy
  of the total.  Between points the invariant keeps the carried column at exactly these contents; the other
  launch's scoped buffers and the generator register ride along.
-/
import proofs.«152812_j63574105915528_2_alg».proof.Proof.KI.DegreeRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the launch finds it. -/
def degBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block at every point. -/
theorem degBefore0_of {c : Dev nD} (dat : Dat τ (Elt F) Unit ℕ (UR sig nD τ) ℕ cfg0 c) (hA : dat.A 0 = V c (Pipeline.arrRef spec0 0))
    (hafter : ∀ t, dat.after 0 t = degBlk V c 0 t) (t : Fin cfg0.N) (d) : dat.before 0 t d = degBlk V c 0 t :=
  (dat.before_in_eq_fetched 0 rfl (fun _ => rfl) (fun _ _ _ => rfl) (fun t => by rw [hafter]; unfold Dat.blockOf degBlk; rw [hA]; try rfl) t d).trans
    (by unfold Dat.fetched Dat.blockOf degBlk; rw [hA]; try rfl)

/-! ## What each case leaves -/

/-- First half: nothing is stored into the output block (a placeholder nothing consults). -/
def degOutFirst (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : firstHalf i) (hc1 : ¬lastHalf i) (x0 : Vec F S1024x4096 .f32) : Vec F S1024x1 .f32 :=
  degOutV.read (Elt F) (degOutV.writes (Elt F) degOutV.junk (degRunFirst c i arg2 harg2 arg3 harg3 arg4 harg4 hc0 hc1 x0).1)

theorem degAccCoverFirst (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : firstHalf i) (hc1 : ¬lastHalf i) (x0 : Vec F S1024x4096 .f32) (y : S1024x1.Idx) :
    ∃ pc ∈ (degRunFirst c i arg2 harg2 arg3 harg3 arg4 harg4 hc0 hc1 x0).2.1, y ∈ pc.1.set :=
  View.cover_of_tiledL (degRunFirst c i arg2 harg2 arg3 harg3 arg4 harg4 hc0 hc1 x0).2.1 S1024x1.size (by sl_kernel_rfl) y

/-- First half: what the carried column holds afterwards. -/
def degAccFirst (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : firstHalf i) (hc1 : ¬lastHalf i) (x0 : Vec F S1024x4096 .f32) : Vec F S1024x1 .f32 :=
  degAccV.read (Elt F) (degAccV.writes (Elt F) degAccV.junk (degRunFirst c i arg2 harg2 arg3 harg3 arg4 harg4 hc0 hc1 x0).2.1)

theorem degOutCoverLast (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬firstHalf i) (hc1 : lastHalf i) (x0 : Vec F S1024x4096 .f32) (xs0 : Vec F S1024x1 .f32) (y : S1024x1.Idx) :
    ∃ pc ∈ (degRunLast c i arg2 harg2 arg3 harg3 arg4 harg4 hc0 hc1 x0 xs0).1, y ∈ pc.1.set :=
  View.cover_of_tiledL (degRunLast c i arg2 harg2 arg3 harg3 arg4 harg4 hc0 hc1 x0 xs0).1 S1024x1.size (by sl_kernel_rfl) y

/-- Second half: what the output block holds afterwards. -/
def degOutLast (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬firstHalf i) (hc1 : lastHalf i) (x0 : Vec F S1024x4096 .f32) (xs0 : Vec F S1024x1 .f32) : Vec F S1024x1 .f32 :=
  degOutV.read (Elt F) (degOutV.writes (Elt F) degOutV.junk (degRunLast c i arg2 harg2 arg3 harg3 arg4 harg4 hc0 hc1 x0 xs0).1)

theorem degAccCoverLast (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬firstHalf i) (hc1 : lastHalf i) (x0 : Vec F S1024x4096 .f32) (xs0 : Vec F S1024x1 .f32) (y : S1024x1.Idx) :
    ∃ pc ∈ (degRunLast c i arg2 harg2 arg3 harg3 arg4 harg4 hc0 hc1 x0 xs0).2.1, y ∈ pc.1.set :=
  View.cover_of_tiledL (degRunLast c i arg2 harg2 arg3 harg3 arg4 harg4 hc0 hc1 x0 xs0).2.1 S1024x1.size (by sl_kernel_rfl) y

/-- Second half: what the carried column holds afterwards. -/
def degAccLast (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬firstHalf i) (hc1 : lastHalf i) (x0 : Vec F S1024x4096 .f32) (xs0 : Vec F S1024x1 .f32) : Vec F S1024x1 .f32 :=
  degAccV.read (Elt F) (degAccV.writes (Elt F) degAccV.junk (degRunLast c i arg2 harg2 arg3 harg3 arg4 harg4 hc0 hc1 x0 xs0).2.1)

/-! ## Point by point -/

theorem not_last_of_even (t : Fin cfg0.N) (h0 : t.val % 2 = 0) : ¬lastHalf (grid0.coords t) :=
  fun h => by have := (lastHalf_iff t).mp h; omega
theorem not_first_of_odd (t : Fin cfg0.N) (h0 : ¬t.val % 2 = 0) : ¬firstHalf (grid0.coords t) :=
  fun h => h0 ((firstHalf_iff t).mp h)
theorem last_of_odd (t : Fin cfg0.N) (h0 : ¬t.val % 2 = 0) : lastHalf (grid0.coords t) :=
  (lastHalf_iff t).mpr (by omega)

/-- What the output block and the carried column hold after the body at position `n`. -/
def degAt (c : Dev nD) : (n : ℕ) → n < cfg0.N → Vec F S1024x1 .f32 × Vec F S1024x1 .f32
  | 0, hn => (degOutFirst c (grid0.coords ⟨0, hn⟩) (degM0 ⟨0, hn⟩) (degH0 ⟨0, hn⟩) (degM1 ⟨0, hn⟩) (degH1 ⟨0, hn⟩) degAccM (Memref.isWhole_whole _) ((firstHalf_iff ⟨0, hn⟩).mpr (Nat.zero_mod _)) (not_last_of_even ⟨0, hn⟩ (Nat.zero_mod _)) (degBlk V c 0 ⟨0, hn⟩),
      degAccFirst c (grid0.coords ⟨0, hn⟩) (degM0 ⟨0, hn⟩) (degH0 ⟨0, hn⟩) (degM1 ⟨0, hn⟩) (degH1 ⟨0, hn⟩) degAccM (Memref.isWhole_whole _) ((firstHalf_iff ⟨0, hn⟩).mpr (Nat.zero_mod _)) (not_last_of_even ⟨0, hn⟩ (Nat.zero_mod _)) (degBlk V c 0 ⟨0, hn⟩))
  | n + 1, hn =>
    if h0 : (n + 1) % 2 = 0 then
      (degOutFirst c (grid0.coords ⟨n + 1, hn⟩) (degM0 ⟨n + 1, hn⟩) (degH0 ⟨n + 1, hn⟩) (degM1 ⟨n + 1, hn⟩) (degH1 ⟨n + 1, hn⟩) degAccM (Memref.isWhole_whole _) ((firstHalf_iff ⟨n + 1, hn⟩).mpr h0) (not_last_of_even ⟨n + 1, hn⟩ h0) (degBlk V c 0 ⟨n + 1, hn⟩),
        degAccFirst c (grid0.coords ⟨n + 1, hn⟩) (degM0 ⟨n + 1, hn⟩) (degH0 ⟨n + 1, hn⟩) (degM1 ⟨n + 1, hn⟩) (degH1 ⟨n + 1, hn⟩) degAccM (Memref.isWhole_whole _) ((firstHalf_iff ⟨n + 1, hn⟩).mpr h0) (not_last_of_even ⟨n + 1, hn⟩ h0) (degBlk V c 0 ⟨n + 1, hn⟩))
    else
      (degOutLast c (grid0.coords ⟨n + 1, hn⟩) (degM0 ⟨n + 1, hn⟩) (degH0 ⟨n + 1, hn⟩) (degM1 ⟨n + 1, hn⟩) (degH1 ⟨n + 1, hn⟩) degAccM (Memref.isWhole_whole _) (not_first_of_odd ⟨n + 1, hn⟩ h0) (last_of_odd ⟨n + 1, hn⟩ h0) (degBlk V c 0 ⟨n + 1, hn⟩) (degAt c n (Nat.lt_of_succ_lt hn)).2,
        degAccLast c (grid0.coords ⟨n + 1, hn⟩) (degM0 ⟨n + 1, hn⟩) (degH0 ⟨n + 1, hn⟩) (degM1 ⟨n + 1, hn⟩) (degH1 ⟨n + 1, hn⟩) degAccM (Memref.isWhole_whole _) (not_first_of_odd ⟨n + 1, hn⟩ h0) (last_of_odd ⟨n + 1, hn⟩ h0) (degBlk V c 0 ⟨n + 1, hn⟩) (degAt c n (Nat.lt_of_succ_lt hn)).2)

theorem degAt_first (c : Dev nD) (t : Fin cfg0.N) (h0 : t.val % 2 = 0) :
    degAt V c t.val t.isLt = (degOutFirst c (grid0.coords t) (degM0 t) (degH0 t) (degM1 t) (degH1 t) degAccM (Memref.isWhole_whole _) ((firstHalf_iff t).mpr h0) (not_last_of_even t h0) (degBlk V c 0 t),
      degAccFirst c (grid0.coords t) (degM0 t) (degH0 t) (degM1 t) (degH1 t) degAccM (Memref.isWhole_whole _) ((firstHalf_iff t).mpr h0) (not_last_of_even t h0) (degBlk V c 0 t)) := by
  obtain ⟨n, hn⟩ := t
  cases n with
  | zero => exact rfl
  | succ n => exact (dif_pos h0).trans rfl

theorem degAt_last (c : Dev nD) (t : Fin cfg0.N) (h0 : ¬t.val % 2 = 0) :
    degAt V c t.val t.isLt = (degOutLast c (grid0.coords t) (degM0 t) (degH0 t) (degM1 t) (degH1 t) degAccM (Memref.isWhole_whole _) (not_first_of_odd t h0) (last_of_odd t h0) (degBlk V c 0 t) (degAt V c (t.val - 1) (Nat.lt_of_le_of_lt (Nat.sub_le _ _) t.isLt)).2,
      degAccLast c (grid0.coords t) (degM0 t) (degH0 t) (degM1 t) (degH1 t) degAccM (Memref.isWhole_whole _) (not_first_of_odd t h0) (last_of_odd t h0) (degBlk V c 0 t) (degAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The launch's invariant before position `n`: the class's before the first point; afterwards the carried column at
    what the point before left, the other launch's buffers and the generator register at anything. -/
def degPhi (c : Dev nD) : (n : ℕ) → n ≤ cfg0.N → sProp 𝕄
  | 0, _ => Pipeline.ΦA spec0 c
  | n + 1, hn => iprop(iprop(owns (c : Thread nD τ) degAccM fullShare ((degAt V c n hn).2) ∗ degOther c) ∗ (∃ r, prngReg c r))

theorem degPhi_zero (c : Dev nD) (n : ℕ) (h : n ≤ cfg0.N) (hz : n = 0) : degPhi V c n h = Pipeline.ΦA spec0 c := by
  subst hz; rfl

theorem degPhi_succ (c : Dev nD) (n : ℕ) (hn : n < cfg0.N) :
    degPhi V c (n + 1) hn = iprop(iprop(owns (c : Thread nD τ) degAccM fullShare ((degAt V c n hn).2) ∗ degOther c) ∗ (∃ r, prngReg c r)) := rfl

theorem degPhi_pos (c : Dev nD) (n : ℕ) (h : n ≤ cfg0.N) (hz : n ≠ 0) :
    degPhi V c n h = iprop(iprop(owns (c : Thread nD τ) degAccM fullShare ((degAt V c (n - 1) (by omega)).2) ∗ degOther c) ∗ (∃ r, prngReg c r)) := by
  cases n with
  | zero => exact absurd rfl hz
  | succ n => rfl

/-! ## The proof data -/

def degDat (c : Dev nD) : Dat τ (Elt F) Unit ℕ (UR sig nD τ) ℕ cfg0 c where
  A w := V c (Pipeline.arrRef spec0 w)
  after w t := match w with
    | ⟨0, _⟩ => degBlk V c 0 t
    | ⟨1, _⟩ => (degAt V c t.val t.isLt).1
  Φ t := degPhi V c t.val (Nat.le_of_lt_succ t.isLt)
  q _ := fullShare
  owed _ := 0

theorem degA_eq (c : Dev nD) (w : Fin cfg0.W) : (degDat V c).A w = V c (Pipeline.arrRef spec0 w) := by
  dsimp only [degDat]

theorem degPhi_castSucc (c : Dev nD) (t : Fin cfg0.N) :
    (degDat V c).Φ t.castSucc = degPhi V c t.val (Nat.le_of_lt t.isLt) := by
  dsimp only [degDat]; simp only [Fin.coe_castSucc]

theorem degAfter0 (c : Dev nD) (t : Fin cfg0.N) : (degDat V c).after 0 t = degBlk V c 0 t := by dsimp only [degDat]
theorem degAfter1 (c : Dev nD) (t : Fin cfg0.N) : (degDat V c).after 1 t = (degAt V c t.val t.isLt).1 := by dsimp only [degDat]

theorem degBefore0 (c : Dev nD) (t : Fin cfg0.N) (d) : (degDat V c).before 0 t d = degBlk V c 0 t :=
  degBefore0_of V (degDat V c) (degA_eq V c 0) (degAfter0 V c) t d

/-! ## The body obligation -/

def degBodyPre (c : Dev nD) (t : Fin cfg0.N) : sProp 𝕄 :=
  iprop((degDat V c).Φ t.castSucc ∗ (degDat V c).owesAt () t.castSucc
    ∗ (∃ d, owns (c : Thread nD τ) (degM0 t) fullShare ((degDat V c).before 0 t d))
    ∗ (∃ d, owns (c : Thread nD τ) (degM1 t) fullShare ((degDat V c).before 1 t d)))

def degBodyPost (c : Dev nD) (t : Fin cfg0.N) : sProp 𝕄 :=
  iprop((degDat V c).Φ t.succ ∗ (degDat V c).owesAt () t.succ
    ∗ (degDat V c).leavesExact 0 t
    ∗ (degDat V c).leavesExact 1 t)

set_option maxHeartbeats 4800000 in
theorem degSoundBody (c : Dev nD) (t : Fin cfg0.N) :
    degBodyPre V c t ⊢ wp frame (wpE (defs₀ (F := F)) Variants.none c none) Set.univ (bodyAt0 t) (fun _ => degBodyPost V c t) := by
  unfold degBodyPre degBodyPost bodyAt0
  simp only [degBefore0]
  rw [show (degDat V c).owesAt () t.succ = (degDat V c).owesAt () t.castSucc from rfl]
  rw [show (degDat V c).Φ t.succ = degPhi V c (t.val + 1) t.isLt from rfl, degPhi_succ]
  have hN : t.val < 16 := lt_of_lt_of_eq t.isLt (show cfg0.N = 16 from N_0)
  by_cases h0 : t.val % 2 = 0
  · rw [show (degDat V c).leavesExact 0 t = owns (c : Thread nD τ) (degM0 t) fullShare ((degDat V c).after 0 t) from by
      unfold Dat.leavesExact; rw [degIn_live t], degAfter0]
    rw [Dat.leavesExact_idle (degDat V c) 1 t (degOut_idle t ((firstHalf_iff t).mpr h0) (not_last_of_even t h0)) (degOut_noFlush t ((firstHalf_iff t).mpr h0) (not_last_of_even t h0))]
    rw [degAt_first V c t h0]
    unfold degAccFirst; (try dsimp only)
    by_cases hz : t.val = 0
    · rw [degPhi_castSucc V c t, degPhi_zero V c _ _ hz, degPhiA_eq]
      iintro ⟨⟨⟨HS0, Hoth⟩, Hg⟩, Ho, ⟨%d0, H0⟩, ⟨%d1, H1⟩⟩
      iapply ((degRunFirst c (grid0.coords t) _ _ _ _ _ _ ((firstHalf_iff t).mpr h0) (not_last_of_even t h0) (degBlk V c 0 t)).2.2 _ Set.univ _)
      isplitl [H0]; · iexact H0
      isplitl [H1]; · iexact H1
      isplitl [HS0]; · iexact HS0
      iintro ⟨H0, H1, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (degAccCoverFirst c _ _ _ _ _ _ _ _ _ _)
          iexact Hoth
        iexact Hg
      isplitl [Ho]; · iexact Ho
      isplitl [H0]; · iexact H0
      iexists _; iexact H1
    · rw [degPhi_castSucc V c t, degPhi_pos V c _ _ hz]
      iintro ⟨⟨⟨HS0, Hoth⟩, Hg⟩, Ho, ⟨%d0, H0⟩, ⟨%d1, H1⟩⟩
      iapply ((degRunFirst c (grid0.coords t) _ _ _ _ _ _ ((firstHalf_iff t).mpr h0) (not_last_of_even t h0) (degBlk V c 0 t)).2.2 _ Set.univ _)
      isplitl [H0]; · iexact H0
      isplitl [H1]; · iexact H1
      isplitl [HS0]; · iexists _; iexact HS0
      iintro ⟨H0, H1, ⟨%es0, HS0⟩⟩
      isplitl [HS0 Hg Hoth]
      · isplitl [HS0 Hoth]
        · isplitl [HS0]
          · unfold owns; iexists _; isplitr
            swap; · iexact HS0
            ipureintro; exact View.read_writes_of_cover _ _ _ _ _ (degAccCoverFirst c _ _ _ _ _ _ _ _ _ _)
          iexact Hoth
        iexact Hg
      isplitl [Ho]; · iexact Ho
      isplitl [H0]; · iexact H0
      iexists _; iexact H1
  · rw [show (degDat V c).leavesExact 0 t = owns (c : Thread nD τ) (degM0 t) fullShare ((degDat V c).after 0 t) from by
      unfold Dat.leavesExact; rw [degIn_live t], degAfter0]
    rw [show (degDat V c).leavesExact 1 t = owns (c : Thread nD τ) (degM1 t) fullShare ((degDat V c).after 1 t) from by
      unfold Dat.leavesExact; rw [degOut_live t (not_first_of_odd t h0) (last_of_odd t h0)], degAfter1]
    rw [degAt_last V c t h0]
    unfold degOutLast degAccLast; (try dsimp only)
    have hz : t.val ≠ 0 := fun h => h0 (by rw [h])
    rw [degPhi_castSucc V c t, degPhi_pos V c _ _ hz]
    iintro ⟨⟨⟨HS0, Hoth⟩, Hg⟩, Ho, ⟨%d0, H0⟩, ⟨%d1, H1⟩⟩
    iapply ((degRunLast c (grid0.coords t) _ _ _ _ _ _ (not_first_of_odd t h0) (last_of_odd t h0) (degBlk V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hg Hoth]
    · isplitl [HS0 Hoth]
      · isplitl [HS0]
        · unfold owns; iexists _; isplitr
          swap; · iexact HS0
          ipureintro; exact View.read_writes_of_cover _ _ _ _ _ (degAccCoverLast c _ _ _ _ _ _ _ _ _ _ _)
        iexact Hoth
      iexact Hg
    isplitl [Ho]; · iexact Ho
    isplitl [H0]; · iexact H0
    unfold owns; iexists _; isplitr
    swap; · iexact H1
    ipureintro; exact View.read_writes_of_cover _ _ _ _ _ (degOutCoverLast c _ _ _ _ _ _ _ _ _ _ _)

theorem degBodyObligation (c : Dev nD) : BodyObligation (degDat (F := F) V c) (defs₀ (F := F)) Variants.none () Set.univ := fun t => by
  rw [bigSep_W0, bigSep_W0]
  exact degSoundBody V c t

/-- What the launch hands the region is the invariant before the first point. -/
theorem degHin (c : Dev nD) : Pipeline.ΦA spec0 c ⊢ (degDat V c).Φ 0 := by
  rw [show (degDat V c).Φ 0 = degPhi V c 0 (Nat.zero_le _) from rfl, degPhi_zero V c 0 _ rfl]
  try exact Idealize.SL.BI.Entails.refl _

/-- After the last point the invariant gives the class's back: the carried column's contents are forgotten. -/
theorem degHout (c : Dev nD) : (degDat V c).Φ (Fin.last cfg0.N) ⊢ Pipeline.ΦA spec0 c := by
  have ht : (Fin.last cfg0.N).val ≠ 0 := by rw [Fin.val_last]; have : cfg0.N = 16 := N_0; omega
  rw [show (degDat V c).Φ (Fin.last cfg0.N) = degPhi V c (Fin.last cfg0.N).val (Nat.le_of_lt_succ (Fin.last cfg0.N).isLt) from rfl, degPhi_pos V c _ _ ht, degPhiA_eq]
  iintro ⟨⟨HS0, Hoth⟩, Hg⟩
  isplitl [HS0 Hoth]
  · isplitl [HS0]
    · iexists _; iexact HS0
    iexact Hoth
  iexact Hg

end Cert.KernelIdeal.Hand

end
-- ==== Proof.KI.LayerShared.lean ====
/-
  The layer kernel (the second launch) at one grid point, on any whole staging buffers.

  The grid is 8 row bands × 8 column bands, walked row band first.  At the first column band the body zeroes its
  carried 1024×256 accumulator; at every column band it adds the product of the adjacency block with the scaled
  support block; at the last column band it scales the accumulator row by row, adds the bias row and stores the
  output block.  The three runs below are the body's triples in the three cases (first, middle, last column band).
-/
import proofs.«152812_j63574105915528_2_alg».proof.Proof.Gen.KernelIdeal.Launch
import proofs.«152812_j63574105915528_2_alg».proof.Proof.Gen.KernelIdeal.Skeleton
import proofs.«152812_j63574105915528_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which column band a point is in -/

/-- The body's first branch: the column-band coordinate is zero. -/
abbrev firstBand (i : grid1.Coords) : Prop := (Scalar.cmpi .ne (Scalar.extui (Scalar.cmpi .eq (BitVec.ofNat 32 (i 1).val) 0#32)) 0#32) = 1#1
theorem firstBand_iff : ∀ t : Fin cfg1.N, firstBand (grid1.coords t) ↔ t.val % 8 = 0 :=
  (by decide +kernel : ∀ t : Fin grid1.N, firstBand (grid1.coords t) ↔ t.val % 8 = 0)

/-- The body's second branch: the column-band coordinate is the last one. -/
abbrev lastBand (i : grid1.Coords) : Prop := k1_cond2 i = 1#1
theorem lastBand_iff : ∀ t : Fin cfg1.N, lastBand (grid1.coords t) ↔ t.val % 8 = 7 :=
  (by decide +kernel : ∀ t : Fin grid1.N, lastBand (grid1.coords t) ↔ t.val % 8 = 7)

/-- The four input windows are never idle. -/
theorem layIn0_live : ∀ t : Fin cfg1.N, cfg1.idle 0 (grid1.coords t) = false := by decide +kernel
theorem layIn1_live : ∀ t : Fin cfg1.N, cfg1.idle 1 (grid1.coords t) = false := by decide +kernel
theorem layIn2_live : ∀ t : Fin cfg1.N, cfg1.idle 2 (grid1.coords t) = false := by decide +kernel
theorem layIn3_live : ∀ t : Fin cfg1.N, cfg1.idle 3 (grid1.coords t) = false := by decide +kernel
/-- Before the last column band the output window is idle and is not written back. -/
theorem layOut_idle : ∀ t : Fin cfg1.N, ¬lastBand (grid1.coords t) → cfg1.idle 4 (grid1.coords t) = true := by decide +kernel
theorem layOut_noFlush : ∀ t : Fin cfg1.N, ¬lastBand (grid1.coords t) → (cfg1.win 4).flush t = false := by decide +kernel
/-- At the last column band it is live. -/
theorem layOut_live : ∀ t : Fin cfg1.N, lastBand (grid1.coords t) → cfg1.idle 4 (grid1.coords t) = false := by decide +kernel

/-! ## The buffers the body is called with -/

abbrev layOutV : View sig .tc .vmem S1024x256 .f32 := (Memref.whole cc1_stg4_0 : Memref sig .tc .vmem S1024x256 .f32).view
abbrev layM0 (t : Fin cfg1.N) : Memref sig .tc .vmem S1024x1024 .f32 := win1_0.stage (cfg1.slots t 0)
abbrev layH0 (t : Fin cfg1.N) : (layM0 t).IsWhole := hstage1_0 ((cfg1.slots t 0).cast nbuf1_0)
abbrev layM1 (t : Fin cfg1.N) : Memref sig .tc .vmem S1024x256 .bf16 := win1_1.stage (cfg1.slots t 1)
abbrev layH1 (t : Fin cfg1.N) : (layM1 t).IsWhole := hstage1_1 ((cfg1.slots t 1).cast nbuf1_1)
abbrev layM2 (t : Fin cfg1.N) : Memref sig .tc .vmem S1024x1 .f32 := win1_2.stage (cfg1.slots t 2)
abbrev layH2 (t : Fin cfg1.N) : (layM2 t).IsWhole := hstage1_2 ((cfg1.slots t 2).cast nbuf1_2)
abbrev layM3 (t : Fin cfg1.N) : Memref sig .tc .vmem S1x256 .f32 := win1_3.stage (cfg1.slots t 3)
abbrev layH3 (t : Fin cfg1.N) : (layM3 t).IsWhole := hstage1_3 ((cfg1.slots t 3).cast nbuf1_3)
abbrev layM4 (t : Fin cfg1.N) : Memref sig .tc .vmem S1024x256 .f32 := win1_4.stage (cfg1.slots t 4)
abbrev layH4 (t : Fin cfg1.N) : (layM4 t).IsWhole := hstage1_4 ((cfg1.slots t 4).cast nbuf1_4)
/-- The carried accumulator. -/
abbrev layAccM : Memref sig .tc .vmem S1024x256 .f32 := Memref.whole cc1_scratch0
abbrev layAccV : View sig .tc .vmem S1024x256 .f32 := layAccM.view

/-- The scoped buffers of the other launch, each whole at some contents, beside a proposition about the carried
    accumulator: they ride through this launch untouched. -/
def layOther (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ X)

/-- The class invariant with the carried accumulator as a memref owned at some contents. -/
theorem layPhiA_eq (c : Dev nD) :
    (Pipeline.ΦA spec1 c : sProp 𝕄)
      = iprop(layOther c (iprop(∃ d, owns (c : Thread nD τ) layAccM fullShare d)) ∗ (∃ r, prngReg c r)) := by
  unfold Pipeline.ΦA; rw [scopedRest1_eq]; simp only [layAccM, owns_whole, layOther]; try rfl

end Cert.KernelIdeal.Hand

end
-- ==== Proof.KI.LayerRunFirst.lean ====
/-
  The layer kernel at the first column band of a row band.
-/
import proofs.«152812_j63574105915528_2_alg».proof.Proof.KI.LayerShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First column band: the accumulator is zeroed and the block product added; the output block is left as handed. -/
noncomputable def layRunFirst (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : firstBand i) (hc1 : ¬lastBand i)
    (x0 : Vec F S1024x1024 .f32) (x1 : Vec F S1024x256 .bf16) (x2 : Vec F S1024x1 .f32) (x3 : Vec F S1x256 .f32) :
    Σ' (L4 : List (View.Piece (Elt F) S1024x256 .f32)), { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.LayerRunMid.lean ====
/-
  The layer kernel at a middle column band of a row band.
-/
import proofs.«152812_j63574105915528_2_alg».proof.Proof.KI.LayerShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle column band: the block product is added to what the band before left; the output block is left as handed. -/
noncomputable def layRunMid (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : ¬lastBand i)
    (x0 : Vec F S1024x1024 .f32) (x1 : Vec F S1024x256 .bf16) (x2 : Vec F S1024x1 .f32) (x3 : Vec F S1x256 .f32) (xs0 : Vec F S1024x256 .f32) :
    Σ' (L4 : List (View.Piece (Elt F) S1024x256 .f32)), { LS0 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨[], ?_, fun xi4 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.LayerRunLast.lean ====
/-
  The layer kernel at the last column band of a row band.
-/
import proofs.«152812_j63574105915528_2_alg».proof.Proof.KI.LayerShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last column band: the block product is added, and the scaled accumulator plus the bias row is stored into the output block. -/
noncomputable def layRunLast (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : lastBand i)
    (x0 : Vec F S1024x1024 .f32) (x1 : Vec F S1024x256 .bf16) (x2 : Vec F S1024x1 .f32) (x3 : Vec F S1x256 .f32) (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.LayerData.lean ====
/-
  The layer launch point by point: what the output block and the carried accumulator hold after each grid point,
  the launch's proof data over any region-entry contents, and the body obligation at every point.

  After the first column band of a row band the accumulator holds what that run's stores leave (zero plus the first
  block product); after every later band the run is applied to what the band before left; after the last band the
  output block holds the scaled total plus the bias row.  Between points the invariant keeps the accumulator at
  exactly these contents; the other launch's scoped buffers and the generator register ride along.
-/
import proofs.«152812_j63574105915528_2_alg».proof.Proof.KI.LayerRunFirst
import proofs.«152812_j63574105915528_2_alg».proof.Proof.KI.LayerRunMid
import proofs.«152812_j63574105915528_2_alg».proof.Proof.KI.LayerRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a point, read off its array as the launch finds it. -/
def layBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem layBefore0_of {c : Dev nD} (dat : Dat τ (Elt F) Unit ℕ (UR sig nD τ) ℕ cfg1 c) (hA : dat.A 0 = V c (Pipeline.arrRef spec1 0))
    (hafter : ∀ t, dat.after 0 t = layBlk V c 0 t) (t : Fin cfg1.N) (d) : dat.before 0 t d = layBlk V c 0 t :=
  (dat.before_in_eq_fetched 0 rfl (fun _ => rfl) (fun _ _ _ => rfl) (fun t => by rw [hafter]; unfold Dat.blockOf layBlk; rw [hA]; try rfl) t d).trans
    (by unfold Dat.fetched Dat.blockOf layBlk; rw [hA]; try rfl)
theorem layBefore1_of {c : Dev nD} (dat : Dat τ (Elt F) Unit ℕ (UR sig nD τ) ℕ cfg1 c) (hA : dat.A 1 = V c (Pipeline.arrRef spec1 1))
    (hafter : ∀ t, dat.after 1 t = layBlk V c 1 t) (t : Fin cfg1.N) (d) : dat.before 1 t d = layBlk V c 1 t :=
  (dat.before_in_eq_fetched 1 rfl (fun _ => rfl) (fun _ _ _ => rfl) (fun t => by rw [hafter]; unfold Dat.blockOf layBlk; rw [hA]; try rfl) t d).trans
    (by unfold Dat.fetched Dat.blockOf layBlk; rw [hA]; try rfl)
theorem layBefore2_of {c : Dev nD} (dat : Dat τ (Elt F) Unit ℕ (UR sig nD τ) ℕ cfg1 c) (hA : dat.A 2 = V c (Pipeline.arrRef spec1 2))
    (hafter : ∀ t, dat.after 2 t = layBlk V c 2 t) (t : Fin cfg1.N) (d) : dat.before 2 t d = layBlk V c 2 t :=
  (dat.before_in_eq_fetched 2 rfl (fun _ => rfl) (fun _ _ _ => rfl) (fun t => by rw [hafter]; unfold Dat.blockOf layBlk; rw [hA]; try rfl) t d).trans
    (by unfold Dat.fetched Dat.blockOf layBlk; rw [hA]; try rfl)
theorem layBefore3_of {c : Dev nD} (dat : Dat τ (Elt F) Unit ℕ (UR sig nD τ) ℕ cfg1 c) (hA : dat.A 3 = V c (Pipeline.arrRef spec1 3))
    (hafter : ∀ t, dat.after 3 t = layBlk V c 3 t) (t : Fin cfg1.N) (d) : dat.before 3 t d = layBlk V c 3 t :=
  (dat.before_in_eq_fetched 3 rfl (fun _ => rfl) (fun _ _ _ => rfl) (fun t => by rw [hafter]; unfold Dat.blockOf layBlk; rw [hA]; try rfl) t d).trans
    (by unfold Dat.fetched Dat.blockOf layBlk; rw [hA]; try rfl)

/-! ## What each case leaves -/

def layOutFirst (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : firstBand i) (hc1 : ¬lastBand i) (x0 : Vec F S1024x1024 .f32) (x1 : Vec F S1024x256 .bf16) (x2 : Vec F S1024x1 .f32) (x3 : Vec F S1x256 .f32) : Vec F S1024x256 .f32 :=
  layOutV.read (Elt F) (layOutV.writes (Elt F) layOutV.junk (layRunFirst c i arg2 harg2 arg3 harg3 arg4 harg4 arg5 harg5 arg6 harg6 arg7 harg7 hc0 hc1 x0 x1 x2 x3).1)
theorem layAccCoverFirst (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : firstBand i) (hc1 : ¬lastBand i) (x0 : Vec F S1024x1024 .f32) (x1 : Vec F S1024x256 .bf16) (x2 : Vec F S1024x1 .f32) (x3 : Vec F S1x256 .f32) (y : S1024x256.Idx) :
    ∃ pc ∈ (layRunFirst c i arg2 harg2 arg3 harg3 arg4 harg4 arg5 harg5 arg6 harg6 arg7 harg7 hc0 hc1 x0 x1 x2 x3).2.1, y ∈ pc.1.set :=
  View.cover_of_tiledL (layRunFirst c i arg2 harg2 arg3 harg3 arg4 harg4 arg5 harg5 arg6 harg6 arg7 harg7 hc0 hc1 x0 x1 x2 x3).2.1 S1024x256.size (by sl_kernel_rfl) y
def layAccFirst (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : firstBand i) (hc1 : ¬lastBand i) (x0 : Vec F S1024x1024 .f32) (x1 : Vec F S1024x256 .bf16) (x2 : Vec F S1024x1 .f32) (x3 : Vec F S1x256 .f32) : Vec F S1024x256 .f32 :=
  layAccV.read (Elt F) (layAccV.writes (Elt F) layAccV.junk (layRunFirst c i arg2 harg2 arg3 harg3 arg4 harg4 arg5 harg5 arg6 harg6 arg7 harg7 hc0 hc1 x0 x1 x2 x3).2.1)

def layOutMid (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : ¬lastBand i) (x0 : Vec F S1024x1024 .f32) (x1 : Vec F S1024x256 .bf16) (x2 : Vec F S1024x1 .f32) (x3 : Vec F S1x256 .f32) (xs0 : Vec F S1024x256 .f32) : Vec F S1024x256 .f32 :=
  layOutV.read (Elt F) (layOutV.writes (Elt F) layOutV.junk (layRunMid c i arg2 harg2 arg3 harg3 arg4 harg4 arg5 harg5 arg6 harg6 arg7 harg7 hc0 hc1 x0 x1 x2 x3 xs0).1)
theorem layAccCoverMid (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : ¬lastBand i) (x0 : Vec F S1024x1024 .f32) (x1 : Vec F S1024x256 .bf16) (x2 : Vec F S1024x1 .f32) (x3 : Vec F S1x256 .f32) (xs0 : Vec F S1024x256 .f32) (y : S1024x256.Idx) :
    ∃ pc ∈ (layRunMid c i arg2 harg2 arg3 harg3 arg4 harg4 arg5 harg5 arg6 harg6 arg7 harg7 hc0 hc1 x0 x1 x2 x3 xs0).2.1, y ∈ pc.1.set :=
  View.cover_of_tiledL (layRunMid c i arg2 harg2 arg3 harg3 arg4 harg4 arg5 harg5 arg6 harg6 arg7 harg7 hc0 hc1 x0 x1 x2 x3 xs0).2.1 S1024x256.size (by sl_kernel_rfl) y
def layAccMid (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : ¬lastBand i) (x0 : Vec F S1024x1024 .f32) (x1 : Vec F S1024x256 .bf16) (x2 : Vec F S1024x1 .f32) (x3 : Vec F S1x256 .f32) (xs0 : Vec F S1024x256 .f32) : Vec F S1024x256 .f32 :=
  layAccV.read (Elt F) (layAccV.writes (Elt F) layAccV.junk (layRunMid c i arg2 harg2 arg3 harg3 arg4 harg4 arg5 harg5 arg6 harg6 arg7 harg7 hc0 hc1 x0 x1 x2 x3 xs0).2.1)

theorem layOutCoverLast (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : lastBand i) (x0 : Vec F S1024x1024 .f32) (x1 : Vec F S1024x256 .bf16) (x2 : Vec F S1024x1 .f32) (x3 : Vec F S1x256 .f32) (xs0 : Vec F S1024x256 .f32) (y : S1024x256.Idx) :
    ∃ pc ∈ (layRunLast c i arg2 harg2 arg3 harg3 arg4 harg4 arg5 harg5 arg6 harg6 arg7 harg7 hc0 hc1 x0 x1 x2 x3 xs0).1, y ∈ pc.1.set :=
  View.cover_of_tiledL (layRunLast c i arg2 harg2 arg3 harg3 arg4 harg4 arg5 harg5 arg6 harg6 arg7 harg7 hc0 hc1 x0 x1 x2 x3 xs0).1 S1024x256.size (by sl_kernel_rfl) y
def layOutLast (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : lastBand i) (x0 : Vec F S1024x1024 .f32) (x1 : Vec F S1024x256 .bf16) (x2 : Vec F S1024x1 .f32) (x3 : Vec F S1x256 .f32) (xs0 : Vec F S1024x256 .f32) : Vec F S1024x256 .f32 :=
  layOutV.read (Elt F) (layOutV.writes (Elt F) layOutV.junk (layRunLast c i arg2 harg2 arg3 harg3 arg4 harg4 arg5 harg5 arg6 harg6 arg7 harg7 hc0 hc1 x0 x1 x2 x3 xs0).1)
theorem layAccCoverLast (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : lastBand i) (x0 : Vec F S1024x1024 .f32) (x1 : Vec F S1024x256 .bf16) (x2 : Vec F S1024x1 .f32) (x3 : Vec F S1x256 .f32) (xs0 : Vec F S1024x256 .f32) (y : S1024x256.Idx) :
    ∃ pc ∈ (layRunLast c i arg2 harg2 arg3 harg3 arg4 harg4 arg5 harg5 arg6 harg6 arg7 harg7 hc0 hc1 x0 x1 x2 x3 xs0).2.1, y ∈ pc.1.set :=
  View.cover_of_tiledL (layRunLast c i arg2 harg2 arg3 harg3 arg4 harg4 arg5 harg5 arg6 harg6 arg7 harg7 hc0 hc1 x0 x1 x2 x3 xs0).2.1 S1024x256.size (by sl_kernel_rfl) y
def layAccLast (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : lastBand i) (x0 : Vec F S1024x1024 .f32) (x1 : Vec F S1024x256 .bf16) (x2 : Vec F S1024x1 .f32) (x3 : Vec F S1x256 .f32) (xs0 : Vec F S1024x256 .f32) : Vec F S1024x256 .f32 :=
  layAccV.read (Elt F) (layAccV.writes (Elt F) layAccV.junk (layRunLast c i arg2 harg2 arg3 harg3 arg4 harg4 arg5 harg5 arg6 harg6 arg7 harg7 hc0 hc1 x0 x1 x2 x3 xs0).2.1)

/-! ## Point by point -/

theorem fb_of (t : Fin cfg1.N) (h0 : t.val % 8 = 0) : firstBand (grid1.coords t) := (firstBand_iff t).mpr h0
theorem nfb_of (t : Fin cfg1.N) (h0 : ¬t.val % 8 = 0) : ¬firstBand (grid1.coords t) := fun h => h0 ((firstBand_iff t).mp h)
theorem lb_of (t : Fin cfg1.N) (h1 : t.val % 8 = 7) : lastBand (grid1.coords t) := (lastBand_iff t).mpr h1
theorem nlb_of (t : Fin cfg1.N) (h1 : ¬t.val % 8 = 7) : ¬lastBand (grid1.coords t) := fun h => h1 ((lastBand_iff t).mp h)
theorem nlb_of_first (t : Fin cfg1.N) (h0 : t.val % 8 = 0) : ¬lastBand (grid1.coords t) := nlb_of t (by omega)

/-- What the output block and the carried accumulator hold after the body at position `n`. -/
def layAt (c : Dev nD) : (n : ℕ) → n < cfg1.N → Vec F S1024x256 .f32 × Vec F S1024x256 .f32
  | 0, hn => (layOutFirst c (grid1.coords ⟨0, hn⟩) (layM0 ⟨0, hn⟩) (layH0 ⟨0, hn⟩) (layM1 ⟨0, hn⟩) (layH1 ⟨0, hn⟩) (layM2 ⟨0, hn⟩) (layH2 ⟨0, hn⟩) (layM3 ⟨0, hn⟩) (layH3 ⟨0, hn⟩) (layM4 ⟨0, hn⟩) (layH4 ⟨0, hn⟩) layAccM (Memref.isWhole_whole _) (fb_of ⟨0, hn⟩ (Nat.zero_mod _)) (nlb_of_first ⟨0, hn⟩ (Nat.zero_mod _)) (layBlk V c 0 ⟨0, hn⟩) (layBlk V c 1 ⟨0, hn⟩) (layBlk V c 2 ⟨0, hn⟩) (layBlk V c 3 ⟨0, hn⟩),
      layAccFirst c (grid1.coords ⟨0, hn⟩) (layM0 ⟨0, hn⟩) (layH0 ⟨0, hn⟩) (layM1 ⟨0, hn⟩) (layH1 ⟨0, hn⟩) (layM2 ⟨0, hn⟩) (layH2 ⟨0, hn⟩) (layM3 ⟨0, hn⟩) (layH3 ⟨0, hn⟩) (layM4 ⟨0, hn⟩) (layH4 ⟨0, hn⟩) layAccM (Memref.isWhole_whole _) (fb_of ⟨0, hn⟩ (Nat.zero_mod _)) (nlb_of_first ⟨0, hn⟩ (Nat.zero_mod _)) (layBlk V c 0 ⟨0, hn⟩) (layBlk V c 1 ⟨0, hn⟩) (layBlk V c 2 ⟨0, hn⟩) (layBlk V c 3 ⟨0, hn⟩))
  | n + 1, hn =>
    if h0 : (n + 1) % 8 = 0 then
      (layOutFirst c (grid1.coords ⟨n + 1, hn⟩) (layM0 ⟨n + 1, hn⟩) (layH0 ⟨n + 1, hn⟩) (layM1 ⟨n + 1, hn⟩) (layH1 ⟨n + 1, hn⟩) (layM2 ⟨n + 1, hn⟩) (layH2 ⟨n + 1, hn⟩) (layM3 ⟨n + 1, hn⟩) (layH3 ⟨n + 1, hn⟩) (layM4 ⟨n + 1, hn⟩) (layH4 ⟨n + 1, hn⟩) layAccM (Memref.isWhole_whole _) (fb_of ⟨n + 1, hn⟩ h0) (nlb_of_first ⟨n + 1, hn⟩ h0) (layBlk V c 0 ⟨n + 1, hn⟩) (layBlk V c 1 ⟨n + 1, hn⟩) (layBlk V c 2 ⟨n + 1, hn⟩) (layBlk V c 3 ⟨n + 1, hn⟩),
        layAccFirst c (grid1.coords ⟨n + 1, hn⟩) (layM0 ⟨n + 1, hn⟩) (layH0 ⟨n + 1, hn⟩) (layM1 ⟨n + 1, hn⟩) (layH1 ⟨n + 1, hn⟩) (layM2 ⟨n + 1, hn⟩) (layH2 ⟨n + 1, hn⟩) (layM3 ⟨n + 1, hn⟩) (layH3 ⟨n + 1, hn⟩) (layM4 ⟨n + 1, hn⟩) (layH4 ⟨n + 1, hn⟩) layAccM (Memref.isWhole_whole _) (fb_of ⟨n + 1, hn⟩ h0) (nlb_of_first ⟨n + 1, hn⟩ h0) (layBlk V c 0 ⟨n + 1, hn⟩) (layBlk V c 1 ⟨n + 1, hn⟩) (layBlk V c 2 ⟨n + 1, hn⟩) (layBlk V c 3 ⟨n + 1, hn⟩))
    else
      if h1 : (n + 1) % 8 = 7 then
        (layOutLast c (grid1.coords ⟨n + 1, hn⟩) (layM0 ⟨n + 1, hn⟩) (layH0 ⟨n + 1, hn⟩) (layM1 ⟨n + 1, hn⟩) (layH1 ⟨n + 1, hn⟩) (layM2 ⟨n + 1, hn⟩) (layH2 ⟨n + 1, hn⟩) (layM3 ⟨n + 1, hn⟩) (layH3 ⟨n + 1, hn⟩) (layM4 ⟨n + 1, hn⟩) (layH4 ⟨n + 1, hn⟩) layAccM (Memref.isWhole_whole _) (nfb_of ⟨n + 1, hn⟩ h0) (lb_of ⟨n + 1, hn⟩ h1) (layBlk V c 0 ⟨n + 1, hn⟩) (layBlk V c 1 ⟨n + 1, hn⟩) (layBlk V c 2 ⟨n + 1, hn⟩) (layBlk V c 3 ⟨n + 1, hn⟩) (layAt c n (Nat.lt_of_succ_lt hn)).2,
          layAccLast c (grid1.coords ⟨n + 1, hn⟩) (layM0 ⟨n + 1, hn⟩) (layH0 ⟨n + 1, hn⟩) (layM1 ⟨n + 1, hn⟩) (layH1 ⟨n + 1, hn⟩) (layM2 ⟨n + 1, hn⟩) (layH2 ⟨n + 1, hn⟩) (layM3 ⟨n + 1, hn⟩) (layH3 ⟨n + 1, hn⟩) (layM4 ⟨n + 1, hn⟩) (layH4 ⟨n + 1, hn⟩) layAccM (Memref.isWhole_whole _) (nfb_of ⟨n + 1, hn⟩ h0) (lb_of ⟨n + 1, hn⟩ h1) (layBlk V c 0 ⟨n + 1, hn⟩) (layBlk V c 1 ⟨n + 1, hn⟩) (layBlk V c 2 ⟨n + 1, hn⟩) (layBlk V c 3 ⟨n + 1, hn⟩) (layAt c n (Nat.lt_of_succ_lt hn)).2)
      else
        (layOutMid c (grid1.coords ⟨n + 1, hn⟩) (layM0 ⟨n + 1, hn⟩) (layH0 ⟨n + 1, hn⟩) (layM1 ⟨n + 1, hn⟩) (layH1 ⟨n + 1, hn⟩) (layM2 ⟨n + 1, hn⟩) (layH2 ⟨n + 1, hn⟩) (layM3 ⟨n + 1, hn⟩) (layH3 ⟨n + 1, hn⟩) (layM4 ⟨n + 1, hn⟩) (layH4 ⟨n + 1, hn⟩) layAccM (Memref.isWhole_whole _) (nfb_of ⟨n + 1, hn⟩ h0) (nlb_of ⟨n + 1, hn⟩ h1) (layBlk V c 0 ⟨n + 1, hn⟩) (layBlk V c 1 ⟨n + 1, hn⟩) (layBlk V c 2 ⟨n + 1, hn⟩) (layBlk V c 3 ⟨n + 1, hn⟩) (layAt c n (Nat.lt_of_succ_lt hn)).2,
          layAccMid c (grid1.coords ⟨n + 1, hn⟩) (layM0 ⟨n + 1, hn⟩) (layH0 ⟨n + 1, hn⟩) (layM1 ⟨n + 1, hn⟩) (layH1 ⟨n + 1, hn⟩) (layM2 ⟨n + 1, hn⟩) (layH2 ⟨n + 1, hn⟩) (layM3 ⟨n + 1, hn⟩) (layH3 ⟨n + 1, hn⟩) (layM4 ⟨n + 1, hn⟩) (layH4 ⟨n + 1, hn⟩) layAccM (Memref.isWhole_whole _) (nfb_of ⟨n + 1, hn⟩ h0) (nlb_of ⟨n + 1, hn⟩ h1) (layBlk V c 0 ⟨n + 1, hn⟩) (layBlk V c 1 ⟨n + 1, hn⟩) (layBlk V c 2 ⟨n + 1, hn⟩) (layBlk V c 3 ⟨n + 1, hn⟩) (layAt c n (Nat.lt_of_succ_lt hn)).2)

theorem layAt_first (c : Dev nD) (t : Fin cfg1.N) (h0 : t.val % 8 = 0) :
    layAt V c t.val t.isLt = (layOutFirst c (grid1.coords t) (layM0 t) (layH0 t) (layM1 t) (layH1 t) (layM2 t) (layH2 t) (layM3 t) (layH3 t) (layM4 t) (layH4 t) layAccM (Memref.isWhole_whole _) (fb_of t h0) (nlb_of_first t h0) (layBlk V c 0 t) (layBlk V c 1 t) (layBlk V c 2 t) (layBlk V c 3 t),
      layAccFirst c (grid1.coords t) (layM0 t) (layH0 t) (layM1 t) (layH1 t) (layM2 t) (layH2 t) (layM3 t) (layH3 t) (layM4 t) (layH4 t) layAccM (Memref.isWhole_whole _) (fb_of t h0) (nlb_of_first t h0) (layBlk V c 0 t) (layBlk V c 1 t) (layBlk V c 2 t) (layBlk V c 3 t)) := by
  obtain ⟨n, hn⟩ := t
  cases n with
  | zero => exact rfl
  | succ n => exact (dif_pos h0).trans rfl

theorem layAt_mid (c : Dev nD) (t : Fin cfg1.N) (h0 : ¬t.val % 8 = 0) (h1 : ¬t.val % 8 = 7) :
    layAt V c t.val t.isLt = (layOutMid c (grid1.coords t) (layM0 t) (layH0 t) (layM1 t) (layH1 t) (layM2 t) (layH2 t) (layM3 t) (layH3 t) (layM4 t) (layH4 t) layAccM (Memref.isWhole_whole _) (nfb_of t h0) (nlb_of t h1) (layBlk V c 0 t) (layBlk V c 1 t) (layBlk V c 2 t) (layBlk V c 3 t) (layAt V c (t.val - 1) (Nat.lt_of_le_of_lt (Nat.sub_le _ _) t.isLt)).2,
      layAccMid c (grid1.coords t) (layM0 t) (layH0 t) (layM1 t) (layH1 t) (layM2 t) (layH2 t) (layM3 t) (layH3 t) (layM4 t) (layH4 t) layAccM (Memref.isWhole_whole _) (nfb_of t h0) (nlb_of t h1) (layBlk V c 0 t) (layBlk V c 1 t) (layBlk V c 2 t) (layBlk V c 3 t) (layAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem layAt_last (c : Dev nD) (t : Fin cfg1.N) (h0 : ¬t.val % 8 = 0) (h1 : t.val % 8 = 7) :
    layAt V c t.val t.isLt = (layOutLast c (grid1.coords t) (layM0 t) (layH0 t) (layM1 t) (layH1 t) (layM2 t) (layH2 t) (layM3 t) (layH3 t) (layM4 t) (layH4 t) layAccM (Memref.isWhole_whole _) (nfb_of t h0) (lb_of t h1) (layBlk V c 0 t) (layBlk V c 1 t) (layBlk V c 2 t) (layBlk V c 3 t) (layAt V c (t.val - 1) (Nat.lt_of_le_of_lt (Nat.sub_le _ _) t.isLt)).2,
      layAccLast c (grid1.coords t) (layM0 t) (layH0 t) (layM1 t) (layH1 t) (layM2 t) (layH2 t) (layM3 t) (layH3 t) (layM4 t) (layH4 t) layAccM (Memref.isWhole_whole _) (nfb_of t h0) (lb_of t h1) (layBlk V c 0 t) (layBlk V c 1 t) (layBlk V c 2 t) (layBlk V c 3 t) (layAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`. -/
def layPhi (c : Dev nD) : (n : ℕ) → n ≤ cfg1.N → sProp 𝕄
  | 0, _ => Pipeline.ΦA spec1 c
  | n + 1, hn => iprop(layOther c (owns (c : Thread nD τ) layAccM fullShare ((layAt V c n hn).2)) ∗ (∃ r, prngReg c r))

theorem layPhi_zero (c : Dev nD) (n : ℕ) (h : n ≤ cfg1.N) (hz : n = 0) : layPhi V c n h = Pipeline.ΦA spec1 c := by
  subst hz; rfl
theorem layPhi_succ (c : Dev nD) (n : ℕ) (hn : n < cfg1.N) :
    layPhi V c (n + 1) hn = iprop(layOther c (owns (c : Thread nD τ) layAccM fullShare ((layAt V c n hn).2)) ∗ (∃ r, prngReg c r)) := rfl
theorem layPhi_pos (c : Dev nD) (n : ℕ) (h : n ≤ cfg1.N) (hz : n ≠ 0) :
    layPhi V c n h = iprop(layOther c (owns (c : Thread nD τ) layAccM fullShare ((layAt V c (n - 1) (by omega)).2)) ∗ (∃ r, prngReg c r)) := by
  cases n with
  | zero => exact absurd rfl hz
  | succ n => rfl

/-! ## The proof data -/

def layDat (c : Dev nD) : Dat τ (Elt F) Unit ℕ (UR sig nD τ) ℕ cfg1 c where
  A w := V c (Pipeline.arrRef spec1 w)
  after w t := match w with
    | ⟨0, _⟩ => layBlk V c 0 t
    | ⟨1, _⟩ => layBlk V c 1 t
    | ⟨2, _⟩ => layBlk V c 2 t
    | ⟨3, _⟩ => layBlk V c 3 t
    | ⟨4, _⟩ => (layAt V c t.val t.isLt).1
  Φ t := layPhi V c t.val (Nat.le_of_lt_succ t.isLt)
  q _ := fullShare
  owed _ := 0

theorem layA_eq (c : Dev nD) (w : Fin cfg1.W) : (layDat V c).A w = V c (Pipeline.arrRef spec1 w) := by
  dsimp only [layDat]
theorem layPhi_castSucc (c : Dev nD) (t : Fin cfg1.N) :
    (layDat V c).Φ t.castSucc = layPhi V c t.val (Nat.le_of_lt t.isLt) := by
  dsimp only [layDat]; simp only [Fin.coe_castSucc]

theorem layAfter0 (c : Dev nD) (t : Fin cfg1.N) : (layDat V c).after 0 t = layBlk V c 0 t := by dsimp only [layDat]
theorem layAfter1 (c : Dev nD) (t : Fin cfg1.N) : (layDat V c).after 1 t = layBlk V c 1 t := by dsimp only [layDat]
theorem layAfter2 (c : Dev nD) (t : Fin cfg1.N) : (layDat V c).after 2 t = layBlk V c 2 t := by dsimp only [layDat]
theorem layAfter3 (c : Dev nD) (t : Fin cfg1.N) : (layDat V c).after 3 t = layBlk V c 3 t := by dsimp only [layDat]
theorem layAfter4 (c : Dev nD) (t : Fin cfg1.N) : (layDat V c).after 4 t = (layAt V c t.val t.isLt).1 := by dsimp only [layDat]

theorem layBefore0 (c : Dev nD) (t : Fin cfg1.N) (d) : (layDat V c).before 0 t d = layBlk V c 0 t :=
  layBefore0_of V (layDat V c) (layA_eq V c 0) (layAfter0 V c) t d
theorem layBefore1 (c : Dev nD) (t : Fin cfg1.N) (d) : (layDat V c).before 1 t d = layBlk V c 1 t :=
  layBefore1_of V (layDat V c) (layA_eq V c 1) (layAfter1 V c) t d
theorem layBefore2 (c : Dev nD) (t : Fin cfg1.N) (d) : (layDat V c).before 2 t d = layBlk V c 2 t :=
  layBefore2_of V (layDat V c) (layA_eq V c 2) (layAfter2 V c) t d
theorem layBefore3 (c : Dev nD) (t : Fin cfg1.N) (d) : (layDat V c).before 3 t d = layBlk V c 3 t :=
  layBefore3_of V (layDat V c) (layA_eq V c 3) (layAfter3 V c) t d

/-! ## The body obligation -/

def layBodyPre (c : Dev nD) (t : Fin cfg1.N) : sProp 𝕄 :=
  iprop((layDat V c).Φ t.castSucc ∗ (layDat V c).owesAt () t.castSucc
    ∗ (∃ d, owns (c : Thread nD τ) (layM0 t) fullShare ((layDat V c).before 0 t d))
    ∗ (∃ d, owns (c : Thread nD τ) (layM1 t) fullShare ((layDat V c).before 1 t d))
    ∗ (∃ d, owns (c : Thread nD τ) (layM2 t) fullShare ((layDat V c).before 2 t d))
    ∗ (∃ d, owns (c : Thread nD τ) (layM3 t) fullShare ((layDat V c).before 3 t d))
    ∗ (∃ d, owns (c : Thread nD τ) (layM4 t) fullShare ((layDat V c).before 4 t d)))

def layBodyPost (c : Dev nD) (t : Fin cfg1.N) : sProp 𝕄 :=
  iprop((layDat V c).Φ t.succ ∗ (layDat V c).owesAt () t.succ
    ∗ (layDat V c).leavesExact 0 t
    ∗ (layDat V c).leavesExact 1 t
    ∗ (layDat V c).leavesExact 2 t
    ∗ (layDat V c).leavesExact 3 t
    ∗ (layDat V c).leavesExact 4 t)

theorem layLeaves0 (c : Dev nD) (t : Fin cfg1.N) : (layDat V c).leavesExact 0 t = owns (c : Thread nD τ) (layM0 t) fullShare (layBlk V c 0 t) := by
  unfold Dat.leavesExact; rw [layIn0_live t, layAfter0]
theorem layLeaves1 (c : Dev nD) (t : Fin cfg1.N) : (layDat V c).leavesExact 1 t = owns (c : Thread nD τ) (layM1 t) fullShare (layBlk V c 1 t) := by
  unfold Dat.leavesExact; rw [layIn1_live t, layAfter1]
theorem layLeaves2 (c : Dev nD) (t : Fin cfg1.N) : (layDat V c).leavesExact 2 t = owns (c : Thread nD τ) (layM2 t) fullShare (layBlk V c 2 t) := by
  unfold Dat.leavesExact; rw [layIn2_live t, layAfter2]
theorem layLeaves3 (c : Dev nD) (t : Fin cfg1.N) : (layDat V c).leavesExact 3 t = owns (c : Thread nD τ) (layM3 t) fullShare (layBlk V c 3 t) := by
  unfold Dat.leavesExact; rw [layIn3_live t, layAfter3]

set_option maxHeartbeats 4800000 in
theorem laySoundBody (c : Dev nD) (t : Fin cfg1.N) :
    layBodyPre V c t ⊢ wp frame (wpE (defs₀ (F := F)) Variants.none c none) Set.univ (bodyAt1 t) (fun _ => layBodyPost V c t) := by
  unfold layBodyPre layBodyPost bodyAt1
  simp only [layBefore0, layBefore1, layBefore2, layBefore3]
  rw [show (layDat V c).owesAt () t.succ = (layDat V c).owesAt () t.castSucc from rfl]
  rw [show (layDat V c).Φ t.succ = layPhi V c (t.val + 1) t.isLt from rfl, layPhi_succ]
  rw [layLeaves0, layLeaves1, layLeaves2, layLeaves3]
  have hN : t.val < 64 := lt_of_lt_of_eq t.isLt (show cfg1.N = 64 from N_1)
  by_cases h0 : t.val % 8 = 0
  · rw [Dat.leavesExact_idle (layDat V c) 4 t (layOut_idle t (nlb_of_first t h0)) (layOut_noFlush t (nlb_of_first t h0))]
    rw [layAt_first V c t h0]
    unfold layAccFirst; (try dsimp only)
    by_cases hz : t.val = 0
    · rw [layPhi_castSucc V c t, layPhi_zero V c _ _ hz, layPhiA_eq]
      unfold layOther
      iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩⟩
      iapply ((layRunFirst c (grid1.coords t) _ _ _ _ _ _ _ _ _ _ _ _ (fb_of t h0) (nlb_of_first t h0) (layBlk V c 0 t) (layBlk V c 1 t) (layBlk V c 2 t) (layBlk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg Ha1 Ha2 Ha3 Ha4 Ha5]
      · isplitl [HS0 Ha1 Ha2 Ha3 Ha4 Ha5]
        · isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (layAccCoverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [layPhi_castSucc V c t, layPhi_pos V c _ _ hz]
      unfold layOther
      iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩⟩
      iapply ((layRunFirst c (grid1.coords t) _ _ _ _ _ _ _ _ _ _ _ _ (fb_of t h0) (nlb_of_first t h0) (layBlk V c 0 t) (layBlk V c 1 t) (layBlk V c 2 t) (layBlk V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hg Ha1 Ha2 Ha3 Ha4 Ha5]
      · isplitl [HS0 Ha1 Ha2 Ha3 Ha4 Ha5]
        · isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (layAccCoverFirst c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (layDat V c).leavesExact 4 t = owns (c : Thread nD τ) (layM4 t) fullShare ((layDat V c).after 4 t) from by
        unfold Dat.leavesExact; rw [layOut_live t (lb_of t h1)], layAfter4]
      rw [layAt_last V c t h0 h1]
      unfold layOutLast layAccLast; (try dsimp only)
      rw [layPhi_castSucc V c t, layPhi_pos V c _ _ hz]
      unfold layOther
      iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩⟩
      iapply ((layRunLast c (grid1.coords t) _ _ _ _ _ _ _ _ _ _ _ _ (nfb_of t h0) (lb_of t h1) (layBlk V c 0 t) (layBlk V c 1 t) (layBlk V c 2 t) (layBlk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg Ha1 Ha2 Ha3 Ha4 Ha5]
      · isplitl [HS0 Ha1 Ha2 Ha3 Ha4 Ha5]
        · isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (layAccCoverLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (layOutCoverLast c _ _ _ _ _ _ _ _ _ _ _ _ _ _ _ _ _ _ _ _)
    · rw [Dat.leavesExact_idle (layDat V c) 4 t (layOut_idle t (nlb_of t h1)) (layOut_noFlush t (nlb_of t h1))]
      rw [layAt_mid V c t h0 h1]
      unfold layAccMid; (try dsimp only)
      rw [layPhi_castSucc V c t, layPhi_pos V c _ _ hz]
      unfold layOther
      iintro ⟨⟨⟨Ha1, Ha2, Ha3, Ha4, Ha5, HS0⟩, Hg⟩, Ho, ⟨%d0, H0⟩, ⟨%d1, H1⟩, ⟨%d2, H2⟩, ⟨%d3, H3⟩, ⟨%d4, H4⟩⟩
      iapply ((layRunMid c (grid1.coords t) _ _ _ _ _ _ _ _ _ _ _ _ (nfb_of t h0) (nlb_of t h1) (layBlk V c 0 t) (layBlk V c 1 t) (layBlk V c 2 t) (layBlk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg Ha1 Ha2 Ha3 Ha4 Ha5]
      · isplitl [HS0 Ha1 Ha2 Ha3 Ha4 Ha5]
        · isplitl [Ha1]; · iexact Ha1
          isplitl [Ha2]; · iexact Ha2
          isplitl [Ha3]; · iexact Ha3
          isplitl [Ha4]; · iexact Ha4
          isplitl [Ha5]; · iexact Ha5
          unfold owns; iexists _; isplitr
          swap; · iexact HS0
          ipureintro; exact View.read_writes_of_cover _ _ _ _ _ (layAccCoverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem layBodyObligation (c : Dev nD) : BodyObligation (layDat (F := F) V c) (defs₀ (F := F)) Variants.none () Set.univ := fun t => by
  rw [bigSep_W1, bigSep_W1]
  exact laySoundBody V c t

theorem layHin (c : Dev nD) : Pipeline.ΦA spec1 c ⊢ (layDat V c).Φ 0 := by
  rw [show (layDat V c).Φ 0 = layPhi V c 0 (Nat.zero_le _) from rfl, layPhi_zero V c 0 _ rfl]
  try exact Idealize.SL.BI.Entails.refl _

theorem layHout (c : Dev nD) : (layDat V c).Φ (Fin.last cfg1.N) ⊢ Pipeline.ΦA spec1 c := by
  have ht : (Fin.last cfg1.N).val ≠ 0 := by rw [Fin.val_last]; have : cfg1.N = 64 := N_1; omega
  rw [show (layDat V c).Φ (Fin.last cfg1.N) = layPhi V c (Fin.last cfg1.N).val (Nat.le_of_lt_succ (Fin.last cfg1.N).isLt) from rfl, layPhi_pos V c _ _ ht, layPhiA_eq]
  unfold layOther
  iintro ⟨⟨Ha1, Ha2, Ha3, Ha4, Ha5, HS0⟩, Hg⟩
  isplitl [HS0 Ha1 Ha2 Ha3 Ha4 Ha5]
  · isplitl [Ha1]; · iexact Ha1
    isplitl [Ha2]; · iexact Ha2
    isplitl [Ha3]; · iexact Ha3
    isplitl [Ha4]; · iexact Ha4
    isplitl [Ha5]; · iexact Ha5
    iexists _; iexact HS0
  iexact Hg

end Cert.KernelIdeal.Hand

end
-- ==== Proof.KI.Regions.lean ====
/-
  The whole program as a run of five segments — the degree launch, three stretches of host operations, the layer
  launch — from the launch memory to the return.

  Between two segments every unscoped buffer of a core is held whole at named contents: the launch memory; then the
  degree launch's arrays at what its pipeline leaves; then each host stretch applied in order; then the layer launch's
  arrays at what its pipeline leaves.  Each launch's arrays are split out of the unscoped buffers at its entry and put
  back at its exit; the generator register enters each launch's invariant and comes back; nothing is ever owed.  The
  final memory therefore holds every unscoped buffer at the last of these contents: the result at what the layer
  launch leaves, and each argument, which no segment writes, as launched.
-/
import proofs.«152812_j63574105915528_2_alg».proof.Proof.KI.DegreeData
import proofs.«152812_j63574105915528_2_alg».proof.Proof.KI.LayerData
import proofs.«152812_j63574105915528_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the degree launch: its arrays at what its pipeline leaves, every other buffer as before. -/
def W1 (c : Dev nD) : Valuation τ sig (Elt F) :=
  Pipeline.withArrays spec0 c (W0 m ρ c) fun w => (degDat (V0 m ρ) c).arrAt w cfg0.N
theorem W1_arr (c : Dev nD) (w : Fin cfg0.W) :
    W1 m ρ c (Proc.devRef .tc (Pipeline.arrRef spec0 w)) = (degDat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev W1V : (c : Dev nD) → (b : Ref sig .tc) → Buf (Elt F) ((c : Thread nD τ).loc b) := fun c b => W1 m ρ c b
theorem W1_hF (c : Dev nD) (w : Fin cfg0.W) : (degDat (V0 m ρ) c).arrAt w cfg0.N = W1V m ρ c (Pipeline.arrRef spec0 w) :=
  (W1_arr m ρ c w).symm
theorem W1_hrest (c : Dev nD) : ∀ b, b ∉ Finset.univ.image (Pipeline.arrRef spec0) → W1V m ρ c b = V0 m ρ c b :=
  fun b hb => W1_of_ne m ρ c b fun w e => hb (Finset.mem_image.mpr ⟨w, Finset.mem_univ _, e⟩)

/-- After each of the three host stretches. -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev V4 : (c : Dev nD) → (b : Ref sig .tc) → Buf (Elt F) ((c : Thread nD τ).loc b) := fun c b => W4 m ρ c b
/-- After the layer launch. -/
def W5 (c : Dev nD) : Valuation τ sig (Elt F) :=
  Pipeline.withArrays spec1 c (W4 m ρ c) fun w => (layDat (V4 m ρ) c).arrAt w cfg1.N
theorem W5_arr (c : Dev nD) (w : Fin cfg1.W) :
    W5 m ρ c (Proc.devRef .tc (Pipeline.arrRef spec1 w)) = (layDat (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev W5V : (c : Dev nD) → (b : Ref sig .tc) → Buf (Elt F) ((c : Thread nD τ).loc b) := fun c b => W5 m ρ c b
theorem W5_hF (c : Dev nD) (w : Fin cfg1.W) : (layDat (V4 m ρ) c).arrAt w cfg1.N = W5V m ρ c (Pipeline.arrRef spec1 w) :=
  (W5_arr m ρ c w).symm
theorem W5_hrest (c : Dev nD) : ∀ b, b ∉ Finset.univ.image (Pipeline.arrRef spec1) → W5V m ρ c b = V4 m ρ c b :=
  fun b hb => W5_of_ne m ρ c b fun w e => hb (Finset.mem_image.mpr ⟨w, Finset.mem_univ _, e⟩)

/-- A buffer no host stretch writes passes through the three stretches. -/
theorem W4_of (c : Dev nD) (r : Ref sig .tc) (h1 : r ∉ hostOps1_W) (h2 : r ∉ hostOps1_1_W) (h3 : r ∉ hostOps1_2_W) :
    W4 m ρ c (Proc.devRef .tc r) = W1 m ρ c (Proc.devRef .tc r) :=
  (StableHlo.after_of_writes_sub hostOps1_2 _ hostOps1_2_writes h3).trans <|
    (StableHlo.after_of_writes_sub hostOps1_1 _ hostOps1_1_writes h2).trans <|
      StableHlo.after_of_writes_sub hostOps1 _ hostOps1_writes h1

/-! ## The arguments end as launched -/

theorem W5_main_arg0 (c : Dev nD) : W5 m ρ c (Proc.devRef .tc main_arg0) = m ((c : Thread nD τ).loc main_arg0) :=
  (W5_of_ne m ρ c main_arg0 (by decide)).trans <| (W4_of m ρ c main_arg0 (by decide) (by decide) (by decide)).trans <|
    (W1_of_ne m ρ c main_arg0 (by decide)).trans rfl
theorem W5_main_arg2 (c : Dev nD) : W5 m ρ c (Proc.devRef .tc main_arg2) = m ((c : Thread nD τ).loc main_arg2) :=
  (W5_of_ne m ρ c main_arg2 (by decide)).trans <| (W4_of m ρ c main_arg2 (by decide) (by decide) (by decide)).trans <|
    (W1_of_ne m ρ c main_arg2 (by decide)).trans rfl
theorem W5_main_arg3 (c : Dev nD) : W5 m ρ c (Proc.devRef .tc main_arg3) = m ((c : Thread nD τ).loc main_arg3) :=
  (W5_of_ne m ρ c main_arg3 (by decide)).trans <| (W4_of m ρ c main_arg3 (by decide) (by decide) (by decide)).trans <|
    (W1_of_ne m ρ c main_arg3 (by decide)).trans rfl
/-- The adjacency is an input window of both launches: each leaves it as found. -/
theorem W1_main_arg1 (c : Dev nD) : W1 m ρ c (Proc.devRef .tc main_arg1) = m ((c : Thread nD τ).loc main_arg1) :=
  (W1_arr m ρ c 0).trans (((degDat (V0 m ρ) c).arrAt_in 0 rfl _).trans ((degA_eq (V0 m ρ) c 0).trans rfl))
theorem W4_main_arg1 (c : Dev nD) : W4 m ρ c (Proc.devRef .tc main_arg1) = m ((c : Thread nD τ).loc main_arg1) :=
  (W4_of m ρ c main_arg1 (by decide) (by decide) (by decide)).trans (W1_main_arg1 m ρ c)
theorem W5_main_arg1 (c : Dev nD) : W5 m ρ c (Proc.devRef .tc main_arg1) = m ((c : Thread nD τ).loc main_arg1) :=
  (W5_arr m ρ c 0).trans (((layDat (V4 m ρ) c).arrAt_in 0 rfl _).trans ((layA_eq (V4 m ρ) c 0).trans (W4_main_arg1 m ρ c)))
/-- The result is the layer launch's output array. -/
theorem W5_main_v14 (c : Dev nD) : W5 m ρ c (Proc.devRef .tc main_v14) = (layDat (V4 m ρ) c).arrAt 4 cfg1.N :=
  W5_arr m ρ c 4
/-- The degree column the host stretches read is the degree launch's output array. -/
theorem W1_main_v0 (c : Dev nD) : W1 m ρ c (Proc.devRef .tc main_v0) = (degDat (V0 m ρ) c).arrAt 1 cfg0.N :=
  W1_arr m ρ c 1

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => degDat (V0 m ρ) c
  | ⟨1, _⟩ => fun c => layDat (V4 m ρ) c
abbrev 𝒱₀ : Variants := Variants.none
abbrev L : GSem nD τ sig → Finset Unit := fun _ => ∅
abbrev lv : GSem nD τ sig → Unit → ℕ := fun _ _ => 0
/-- What rides beside the buffers through every segment: the generator register and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W5 m ρ c) ∗ ∃ r, prngReg c r)

/-! ## The two launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (degBodyObligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (degHin (V0 m ρ) c)
    unfold Pipeline.ΦA
    iintro ⟨Hp, -, Hr⟩
    isplitl [Hr]; · iexact Hr
    iexact Hp
  hout c := by
    rw [Pipeline.ownSems0_none]
    refine .trans (degHout (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (W1V m ρ c) ((pdats m ρ 0 c).arrAt · cfg0.N) (W1_hF m ρ c) (W1_hrest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (layBodyObligation (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (layHin (V4 m ρ) c)
    unfold Pipeline.ΦA
    iintro ⟨Hp, -, Hr⟩
    isplitl [Hr]; · iexact Hr
    iexact Hp
  hout c := by
    rw [Pipeline.ownSems0_none]
    refine .trans (layHout (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (W5V m ρ c) ((pdats m ρ 1 c).arrAt · cfg1.N) (W5_hF m ρ c) (W5_hrest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds the result at what the layer launch's pipeline leaves and each argument as launched. -/
theorem run_all : θ_run defs (onTc (τ := τ) (main (F := F))) ⟨m, fun _ => 0, ρ⟩ (fun r => ∀ c : Dev nD,
      r.2.mem ((c.tc : Thread nD τ).loc main_v14) = (layDat (V4 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v14 (by decide))).trans (W5_main_v14 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Hand

end
-- ==== Proof.GcnSpec.lean ====
/-
  The degree-normalised graph-convolution layer as functions of coordinates on the extended reals.

  Every array is a function of its coordinates: the features `x i j`, the adjacency `adj i k`, the weights
  `w j c`, the bias `b c`.  Two spellings of the layer are stated.

  * The blocked spelling: the row degree is the sum of the row's two halves of 4096 entries; the scale is
    `deg ^ (-1/2)` where the degree is positive and zero elsewhere; the scaled support `d k · (x·w) k c` is
    multiplied into the adjacency row in eight bands of 1024 columns; the row scale and the bias come last.
  * The whole spelling: the row degree is zero plus the sum of the whole row; the scale is `deg ^ (-1/2)`
    unless that is infinite in magnitude, then zero; the adjacency is scaled on both sides entry by entry
    and multiplied into `x·w` as one product over all 8192 columns; the bias comes last.

  On finite inputs the two agree: every degree is a real number, a real power of a real is real (never
  infinite), a non-positive real to the power -1/2 is zero (the power of a negative real carries the
  factor cos(π/2) = 0, the power of zero at a non-zero exponent is zero), and in the reals the row scale
  moves across the finite sum.
-/
import Idealize.ShloMosaic.PureOps.Ideal
import Idealize.ShloMosaic.PureOps.Ideal.Laws

noncomputable section

namespace Cert.Gcn

open Idealize.ShloMosaic

/-- The word of 0.0 read as an extended real. -/
abbrev zeroE : EReal := FloatOps.ofBits (F := Ideal) .f32 0x00000000#32
/-- The word of -0.5 read as an extended real. -/
abbrev nhalfE : EReal := FloatOps.ofBits (F := Ideal) .f32 0xBF000000#32
/-- The word of +infinity read as an extended real. -/
abbrev infE : EReal := FloatOps.ofBits (F := Ideal) .f32 0x7F800000#32

/-- Column `kk` of band `kb` when 8192 columns are cut into bands of 4096. -/
abbrev col4096 (kb : Fin 2) (kk : Fin 4096) : Fin 8192 := ⟨4096 * kb.val + kk.val, by omega⟩
/-- Column `kk` of band `kb` when 8192 columns are cut into bands of 1024. -/
abbrev col1024 (kb : Fin 8) (kk : Fin 1024) : Fin 8192 := ⟨1024 * kb.val + kk.val, by omega⟩

variable (x : Fin 8192 → Fin 256 → EReal) (adj : Fin 8192 → Fin 8192 → EReal)
  (w : Fin 256 → Fin 256 → EReal) (b : Fin 256 → EReal)

/-- The support `x · w`. -/
def supp (k : Fin 8192) (c : Fin 256) : EReal := ∑ j : Fin 256, x k j * w j c

/-! ## The blocked spelling -/

/-- The row degree, as the sum of the row's two halves. -/
def degK (i : Fin 8192) : EReal := ∑ kb : Fin 2, ∑ kk : Fin 4096, adj i (col4096 kb kk)

/-- The scale: `deg ^ (-1/2)` where the degree is positive, zero elsewhere. -/
def dK (i : Fin 8192) : EReal :=
  Scalar.select (FloatOps.cmpf (F := Ideal) (φ := .f32) .ogt (degK adj i) zeroE) (FloatOps.hostPowf (F := Ideal) (φ := .f32) (degK adj i) nhalfE) zeroE

/-- The adjacency row times the scaled support, band by band. -/
def accK (i : Fin 8192) (c : Fin 256) : EReal :=
  ∑ kb : Fin 8, ∑ kk : Fin 1024, adj i (col1024 kb kk) * (dK adj (col1024 kb kk) * supp x w (col1024 kb kk) c)

/-- The layer, blocked spelling. -/
def outK (i : Fin 8192) (c : Fin 256) : EReal := dK adj i * accK x adj w i c + b c

/-! ## The whole spelling -/

/-- The row degree, as zero plus the sum of the whole row. -/
def degR (i : Fin 8192) : EReal := zeroE + ∑ k : Fin 8192, adj i k

/-- The scale: `deg ^ (-1/2)`, replaced by zero where its magnitude is infinite. -/
def dR (i : Fin 8192) : EReal :=
  Scalar.select (FloatOps.cmpf (F := Ideal) (φ := .f32) .oeq (FloatOps.hostAbsf (F := Ideal) (φ := .f32) (FloatOps.hostPowf (F := Ideal) (φ := .f32) (degR adj i) nhalfE)) infE)
    zeroE (FloatOps.hostPowf (F := Ideal) (φ := .f32) (degR adj i) nhalfE)

/-- The layer, whole spelling. -/
def outR (i : Fin 8192) (c : Fin 256) : EReal :=
  (∑ k : Fin 8192, ((dR adj i * adj i k) * dR adj k) * supp x w k c) + b c

end Cert.Gcn

end
-- ==== Proof.KI.Payloads.lean ====
import proofs.«152812_j63574105915528_2_alg».proof.Proof.Gen.KernelIdeal.Skeleton
import proofs.«152812_j63574105915528_2_alg».proof.Proof.GcnSpec
import Idealize.ShloMosaic.Lib.ValueIdx
import Idealize.ShloMosaic.Lib.ValueLayout
import Idealize.ShloMosaic.Lib.Pipeline.Value
import Idealize.ShloMosaic.PureOps.Ideal.Laws

/-!
  The arithmetic of the two kernels' stored values, read at one index on the extended reals.

  The degree kernel stores the word of 0.0 at its first column visit and afterwards adds to each stored row
  entry the sum of that row of the loaded band.  The convolution kernel stores the word of 0.0 at its first
  band, afterwards adds to each stored entry the product of the adjacency band's row with the support band's
  column (the change of format of the adjacency band is the identity on the extended reals), and at its last
  band multiplies each row by the row's scale and adds the bias row.
-/

noncomputable section

namespace Cert.KernelIdeal.Pay

open Cert.KernelIdeal Cert.KernelIdeal.Gen Idealize.ShloMosaic Idealize.ShloMosaic.ValueIdx

/-! ## Two layout operations on a trailing unit axis -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The stores of the word of 0.0 -/

theorem pay_zero_col (y : S1024x1.Idx) : k0_pay1 (F := Ideal) y = Cert.Gcn.zeroE := by
  unfold k0_pay1
  rw [shapeCast_self]
  rfl

theorem pay_zero_acc (y : S1024x256.Idx) : k1_pay1 (F := Ideal) y = Cert.Gcn.zeroE := by
  unfold k1_pay1
  rw [shapeCast_self]
  rfl

/-! ## The row sum of a band of 4096 columns -/

/-- The sum over axis 1 of a `[1024, 4096]` array, read at row `r`. -/
theorem rowsum_apply (v4 : FVec Ideal S1024x4096 .f32) (hacc : (0x00000000#32 : BitVec 32) = 0x00000000#32) (r : Fin 1024) :
    multiReduction (F := Ideal) .add [1] S1024 v4 0x00000000#32 reduces_S1024x4096_S1024 (.inl rfl) hacc (ix1 r)
      = ∑ kk : Fin 4096, v4 (ix2 r kk) := by
  refine (Ideal.multiReduction_add_single v4 0x00000000#32 reduces_S1024x4096_S1024 (.inl rfl) hacc (ix1 r)).trans ?_
  refine Finset.sum_congr rfl fun kk _ => congrArg v4 ?_
  funext a
  match a with
  | ⟨0, _⟩ => exact Fin.ext rfl
  | ⟨1, _⟩ => exact Fin.ext rfl

theorem pay_rowsum (v3 : Vec Ideal S1024x1 .f32) (v4 : Vec Ideal S1024x4096 .f32) (r : Fin 1024) :
    k0_pay2 (F := Ideal) v3 v4 (ix2 r (0 : Fin 1)) = v3 (ix2 r (0 : Fin 1)) + ∑ kk : Fin 4096, v4 (ix2 r kk) := by
  unfold k0_pay2
  rw [shapeCast_self, addf_apply]
  refine congrArg (fun t => v3 (ix2 r (0 : Fin 1)) + t) ?_
  refine (shapeCast_a_a1_apply _ shapeCasts_S1024_S1024x1 r (0 : Fin 1)).trans ?_
  exact rowsum_apply v4 rfl r

/-! ## The product of an adjacency band with a support band -/

theorem lhsIdx_row (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl

theorem lhsIdx_col (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q

theorem rhsIdx_row (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q

theorem rhsIdx_col (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- The contraction into the zero accumulator, read at `(r, c)`: the sum over the 1024 contracted columns. -/
theorem matmul_zero_apply (l : FVec Ideal S1024x1024 .bf16) (m : FVec Ideal S1024x256 .bf16) (r : Fin 1024) (c : Fin 256) :
    matmul dot_S1024x1024_S1024x256_S1024x256_1_0_0_1_n_n none l m (constant (F := Ideal) S1024x256 .f32 0x00000000#32) (ix2 r c)
      = ∑ kk : Fin 1024, l (ix2 r kk) * m (ix2 kk c) := by
  refine (Ideal.matmul_constant_zero_apply dot_S1024x1024_S1024x256_S1024x256_1_0_0_1_n_n none l m (ix2 r c)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r c) ((contrEquiv1 dot_S1024x1024_S1024x256_S1024x256_1_0_0_1_n_n 1024 rfl rfl).symm k) = ix2 r k :=
    funext fun a => Fin.ext (by
      match a with
      | ⟨0, _⟩ => exact lhsIdx_row _ _
      | ⟨1, _⟩ => exact (lhsIdx_col _ _).trans hk)
  have er : dot_S1024x1024_S1024x256_S1024x256_1_0_0_1_n_n.rhsIdx (ix2 r c) ((contrEquiv1 dot_S1024x1024_S1024x256_S1024x256_1_0_0_1_n_n 1024 rfl rfl).symm k) = ix2 k c :=
    funext fun a => Fin.ext (by
      match a with
      | ⟨0, _⟩ => exact (rhsIdx_row _ _).trans hk
      | ⟨1, _⟩ => exact rhsIdx_col _ _)
  rw [el, er]

theorem pay_matmul (v3 : Vec Ideal S1024x1024 .f32) (v5 : Vec Ideal S1024x256 .f32) (v6 : Vec Ideal S1024x256 .bf16)
    (r : Fin 1024) (c : Fin 256) :
    k1_pay2 (F := Ideal) v3 v5 v6 (ix2 r c) = v5 (ix2 r c) + ∑ kk : Fin 1024, v3 (ix2 r kk) * v6 (ix2 kk c) := by
  unfold k1_pay2
  rw [shapeCast_self, shapeCast_self, addf_apply]
  refine congrArg (fun t => v5 (ix2 r c) + t) ?_
  exact matmul_zero_apply (truncf .bf16 v3 bitsLt_bf16_f32) v6 r c

/-! ## The row scale and the bias row -/

theorem pay_final (v16 : Vec Ideal S1024x1 .f32) (v18 : Vec Ideal S1024x256 .f32) (v21 : Vec Ideal S1x256 .f32)
    (r : Fin 1024) (c : Fin 256) :
    k1_pay3 (F := Ideal) v16 v18 v21 (ix2 r c) = v16 (ix2 r (0 : Fin 1)) * v18 (ix2 r c) + v21 (ix2 (0 : Fin 1) c) := by
  unfold k1_pay3
  rw [shapeCast_self, shapeCast_self, addf_apply, mulf_apply]
  have e1 := broadcastTo_a1_ab_apply v16 broadcasts_S1024x1_S1024x256 r c
  have e2 := broadcastTo_1b_ab_apply v21 broadcasts_S1x256_S1024x256 r c
  rw [e1, e2]

end Cert.KernelIdeal.Pay

end
-- ==== Proof.GcnLaw.lean ====
import proofs.«152812_j63574105915528_2_alg».proof.Proof.GcnSpec

/-!
  The blocked and the whole spelling of the degree-normalised graph-convolution layer agree on finite inputs.

  Every input entry is the coercion of a real number.  The row degree is then the coercion of the real row
  sum in both spellings (the two bands of 4096 columns re-index the whole row, and the word of 0.0 is zero).
  A real raised to the real power -1/2 is a real, so its magnitude is never infinite and the whole spelling's
  scale is that power; where the degree is not positive the power is zero (at zero because the exponent is
  not zero, below zero because of the factor cos(π/2) = 0), which is the blocked spelling's value there.
  Both outputs are then coercions of real expressions, and in the reals the row scale moves across the
  finite sum, whose eight bands of 1024 columns re-index the whole row.
-/

noncomputable section

namespace Cert.Gcn

open Idealize.ShloMosaic

/-! ## The three literal words -/

theorem zeroE_eq : zeroE = 0 := by
  show Ideal.ofBits .f32 0x00000000#32 = 0
  exact Ideal.ofBits_zero_f32

theorem infE_eq : infE = ⊤ := by
  show Ideal.ofBits .f32 0x7F800000#32 = ⊤
  simp [Ideal.ofBits, Ideal.ieee]

theorem nhalfE_eq : nhalfE = ((-(1 / 2) : ℝ) : EReal) := by
  show Ideal.ofBits .f32 0xBF000000#32 = _
  simp [Ideal.ofBits, Ideal.ieee, -EReal.coe_mul]
  norm_num

/-! ## Finite sums of coerced reals -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The bands re-index the whole row -/

theorem sum_band4096 (f : Fin 8192 → EReal) :
    ∑ kb : Fin 2, ∑ kk : Fin 4096, f (col4096 kb kk) = ∑ k : Fin 8192, f k := by
  rw [← Fintype.sum_prod_type' (fun kb kk => f (col4096 kb kk))]
  exact Fintype.sum_equiv (finProdFinEquiv (m := 2) (n := 4096)) _ _
    (fun p => congrArg f (Fin.ext (by simp [finProdFinEquiv]; omega)))

theorem sum_band1024 (f : Fin 8192 → EReal) :
    ∑ kb : Fin 8, ∑ kk : Fin 1024, f (col1024 kb kk) = ∑ k : Fin 8192, f k := by
  rw [← Fintype.sum_prod_type' (fun kb kk => f (col1024 kb kk))]
  exact Fintype.sum_equiv (finProdFinEquiv (m := 8) (n := 1024)) _ _
    (fun p => congrArg f (Fin.ext (by simp [finProdFinEquiv]; omega)))

/-! ## The power -1/2 of a real that is not positive -/

theorem rpow_neg_half_of_nonpos {D : ℝ} (h : D ≤ 0) : Real.rpow D (-(1 / 2)) = 0 := by
  show D ^ (-(1 / 2) : ℝ) = 0
  rcases h.lt_or_eq with h | h
  · rw [Real.rpow_def_of_neg h]
    have hc : (-(1 / 2) : ℝ) * Real.pi = -(Real.pi / 2) := by ring
    rw [hc, Real.cos_neg, Real.cos_pi_div_two, mul_zero]
  · rw [h]
    exact Real.zero_rpow (by norm_num)

/-! ## The degree and the scale of a real adjacency -/

/-- The real scale of row `i`: the row sum to the power -1/2. -/
def scale (A : Fin 8192 → Fin 8192 → ℝ) (i : Fin 8192) : ℝ := Real.rpow (∑ k, A i k) (-(1 / 2))

theorem degK_coe (A : Fin 8192 → Fin 8192 → ℝ) (i : Fin 8192) :
    degK (fun i k => (A i k : EReal)) i = ((∑ k, A i k : ℝ) : EReal) := by
  show ∑ kb : Fin 2, ∑ kk : Fin 4096, ((A i (col4096 kb kk) : ℝ) : EReal) = _
  exact (sum_band4096 (fun k => (A i k : EReal))).trans (coe_sum _ _).symm

theorem degR_coe (A : Fin 8192 → Fin 8192 → ℝ) (i : Fin 8192) :
    degR (fun i k => (A i k : EReal)) i = ((∑ k, A i k : ℝ) : EReal) := by
  show zeroE + ∑ k : Fin 8192, ((A i k : ℝ) : EReal) = _
  rw [zeroE_eq, zero_add, coe_sum]

theorem dK_coe (A : Fin 8192 → Fin 8192 → ℝ) (i : Fin 8192) :
    dK (fun i k => (A i k : EReal)) i = ((scale A i : ℝ) : EReal) := by
  unfold dK
  rw [degK_coe, zeroE_eq, nhalfE_eq]
  show Scalar.select (Ideal.cmp .ogt ((∑ k, A i k : ℝ) : EReal) 0)
    (Ideal.pow ((∑ k, A i k : ℝ) : EReal) ((-(1 / 2) : ℝ) : EReal)) 0 = _
  rw [Ideal.pow_coe_coe]
  unfold Scalar.select Ideal.cmp scale
  by_cases h : 0 < ∑ k, A i k
  · have h' : (0 : EReal) < ((∑ k, A i k : ℝ) : EReal) := by exact_mod_cast h
    simp [h']
  · have h' : ¬ (0 : EReal) < ((∑ k, A i k : ℝ) : EReal) := by exact_mod_cast h
    rw [rpow_neg_half_of_nonpos (not_lt.mp h)]
    simp [h']

theorem dR_coe (A : Fin 8192 → Fin 8192 → ℝ) (i : Fin 8192) :
    dR (fun i k => (A i k : EReal)) i = ((scale A i : ℝ) : EReal) := by
  unfold dR
  rw [degR_coe, zeroE_eq, nhalfE_eq, infE_eq]
  show Scalar.select (Ideal.cmp .oeq
      (max (Ideal.pow ((∑ k, A i k : ℝ) : EReal) ((-(1 / 2) : ℝ) : EReal))
        (-(Ideal.pow ((∑ k, A i k : ℝ) : EReal) ((-(1 / 2) : ℝ) : EReal)))) ⊤)
    0 (Ideal.pow ((∑ k, A i k : ℝ) : EReal) ((-(1 / 2) : ℝ) : EReal)) = _
  rw [Ideal.pow_coe_coe]
  have hne : max ((Real.rpow (∑ k, A i k) (-(1 / 2)) : ℝ) : EReal)
      (-((Real.rpow (∑ k, A i k) (-(1 / 2)) : ℝ) : EReal)) ≠ ⊤ := by
    refine (max_lt (EReal.coe_lt_top _) ?_).ne
    rw [← EReal.coe_neg]
    exact EReal.coe_lt_top _
  unfold Scalar.select Ideal.cmp scale
  simp [hne]

/-! ## The support of real features and weights -/

theorem supp_coe (X : Fin 8192 → Fin 256 → ℝ) (W : Fin 256 → Fin 256 → ℝ) (k : Fin 8192) (c : Fin 256) :
    supp (fun i j => (X i j : EReal)) (fun j c => (W j c : EReal)) k c = ((∑ j, X k j * W j c : ℝ) : EReal) := by
  show ∑ j : Fin 256, ((X k j : ℝ) : EReal) * ((W j c : ℝ) : EReal) = _
  rw [coe_sum]
  exact Finset.sum_congr rfl fun j _ => (EReal.coe_mul _ _).symm

/-! ## Both spellings as coerced reals -/

theorem outK_coe (X : Fin 8192 → Fin 256 → ℝ) (A : Fin 8192 → Fin 8192 → ℝ) (W : Fin 256 → Fin 256 → ℝ)
    (B : Fin 256 → ℝ) (i : Fin 8192) (c : Fin 256) :
    outK (fun i j => (X i j : EReal)) (fun i k => (A i k : EReal)) (fun j c => (W j c : EReal))
        (fun c => (B c : EReal)) i c
      = ((scale A i * (∑ k, A i k * (scale A k * ∑ j, X k j * W j c)) + B c : ℝ) : EReal) := by
  unfold outK accK
  rw [sum_band1024 (fun k => (fun i k => (A i k : EReal)) i k
    * (dK (fun i k => (A i k : EReal)) k * supp (fun i j => (X i j : EReal)) (fun j c => (W j c : EReal)) k c))]
  rw [dK_coe, EReal.coe_add, EReal.coe_mul, coe_sum]
  refine congrArg (fun t => ((scale A i : ℝ) : EReal) * t + ((B c : ℝ) : EReal)) ?_
  refine Finset.sum_congr rfl fun k _ => ?_
  rw [dK_coe, supp_coe, ← EReal.coe_mul, ← EReal.coe_mul]

theorem outR_coe (X : Fin 8192 → Fin 256 → ℝ) (A : Fin 8192 → Fin 8192 → ℝ) (W : Fin 256 → Fin 256 → ℝ)
    (B : Fin 256 → ℝ) (i : Fin 8192) (c : Fin 256) :
    outR (fun i j => (X i j : EReal)) (fun i k => (A i k : EReal)) (fun j c => (W j c : EReal))
        (fun c => (B c : EReal)) i c
      = (((∑ k, ((scale A i * A i k) * scale A k) * ∑ j, X k j * W j c) + B c : ℝ) : EReal) := by
  unfold outR
  rw [EReal.coe_add, coe_sum]
  refine congrArg (fun t => t + ((B c : ℝ) : EReal)) ?_
  refine Finset.sum_congr rfl fun k _ => ?_
  rw [dR_coe, dR_coe, supp_coe, ← EReal.coe_mul, ← EReal.coe_mul, ← EReal.coe_mul]

/-! ## The two spellings agree on finite inputs -/

theorem outK_eq_outR (x : Fin 8192 → Fin 256 → EReal) (adj : Fin 8192 → Fin 8192 → EReal)
    (w : Fin 256 → Fin 256 → EReal) (b : Fin 256 → EReal)
    (hx : ∀ i j, ∃ r : ℝ, x i j = (r : EReal)) (hadj : ∀ i k, ∃ r : ℝ, adj i k = (r : EReal))
    (hw : ∀ j c, ∃ r : ℝ, w j c = (r : EReal)) (hb : ∀ c, ∃ r : ℝ, b c = (r : EReal))
    (i : Fin 8192) (c : Fin 256) : outK x adj w b i c = outR x adj w b i c := by
  choose X hX using hx
  choose A hA using hadj
  choose W hW using hw
  choose B hB using hb
  obtain rfl : x = fun i j => (X i j : EReal) := funext fun i => funext fun j => hX i j
  obtain rfl : adj = fun i k => (A i k : EReal) := funext fun i => funext fun k => hA i k
  obtain rfl : w = fun j c => (W j c : EReal) := funext fun j => funext fun c => hW j c
  obtain rfl : b = fun c => (B c : EReal) := funext fun c => hB c
  rw [outK_coe, outR_coe]
  refine congrArg (fun t : ℝ => ((t + B c : ℝ) : EReal)) ?_
  rw [Finset.mul_sum]
  exact Finset.sum_congr rfl fun k _ => by ring

end Cert.Gcn

end
-- ==== Proof.KI.DegreeValue.lean ====
/-
  The degree launch's output array, index by index, on the extended reals.

  At a first-half point the carried column is zeroed, read back, and the block's row sums added: it holds zero plus
  the row sums.  At the second-half point the block's row sums are added to that and the total is stored, read back
  and copied into the output block.  The block a point is handed is block (t / 2, t % 2) of the adjacency; the output
  block of the second half of row band `ib` is rows 1024·ib … 1024·ib + 1023 of the degree column, and these eight
  blocks cover the column.  So the array ends holding, at every row, the sum of the row's two halves.
-/
import proofs.«152812_j63574105915528_2_alg».proof.Proof.KI.DegreeData
import proofs.«152812_j63574105915528_2_alg».proof.Proof.KI.Payloads
import proofs.«152812_j63574105915528_2_alg».proof.Proof.GcnSpec
import proofs.«152812_j63574105915528_2_alg».proof.Proof.GcnLaw
import Idealize.ShloMosaic.Lib.Pipeline.Value
import Idealize.ShloMosaic.Lib.ValueIdx
import Idealize.ShloMosaic.Lib.Tactic

set_option maxRecDepth 16384

noncomputable section

namespace Cert.KernelIdeal.DegVal

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

theorem hz : (![0, 0] : Fin 2 → Nat) = fun _ => 0 := funext fun a => by fin_cases a <;> rfl

theorem accFirst_eq (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : firstHalf i) (hc1 : ¬lastHalf i) (x0 : Vec F S1024x4096 .f32) :
    degAccFirst c i arg2 harg2 arg3 harg3 arg4 harg4 hc0 hc1 x0 = k0_pay2 (k0_pay1 (F := F)) x0 := by
  unfold degAccFirst
  rw [View.read_writes_eq_canon _ _ _ (degAccCoverFirst c i arg2 harg2 arg3 harg3 arg4 harg4 hc0 hc1 x0)]
  unfold degRunFirst
  dsimp only
  sl_unfold_words
  rw [View.canon_cons_unit_zero (S := S1024x1) hz, View.readCov_unit_zero (S := S1024x1) _ hz]
  simp only [View.readAt_eq_ld, harg2.read_unread, View.ld_unit_zero (S := S1024x4096) hz]

theorem accLast_eq (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬firstHalf i) (hc1 : lastHalf i) (x0 : Vec F S1024x4096 .f32) (xs0 : Vec F S1024x1 .f32) :
    degAccLast c i arg2 harg2 arg3 harg3 arg4 harg4 hc0 hc1 x0 xs0 = k0_pay2 xs0 x0 := by
  unfold degAccLast
  rw [View.read_writes_eq_canon _ _ _ (degAccCoverLast c i arg2 harg2 arg3 harg3 arg4 harg4 hc0 hc1 x0 xs0)]
  unfold degRunLast
  dsimp only
  sl_unfold_words
  rw [View.canon_unit_zero (S := S1024x1) hz]
  simp only [View.readAt_eq_ld, harg2.read_unread, harg4.read_unread, View.ld_unit_zero (S := S1024x4096) hz, View.ld_unit_zero (S := S1024x1) hz]

theorem outLast_eq (c : Dev nD) (i : grid0.Coords) (arg2 : Memref sig .tc .vmem S1024x4096 .f32) (harg2 : arg2.IsWhole) (arg3 : Memref sig .tc .vmem S1024x1 .f32) (harg3 : arg3.IsWhole) (arg4 : Memref sig .tc .vmem S1024x1 .f32) (harg4 : arg4.IsWhole) (hc0 : ¬firstHalf i) (hc1 : lastHalf i) (x0 : Vec F S1024x4096 .f32) (xs0 : Vec F S1024x1 .f32) :
    degOutLast c i arg2 harg2 arg3 harg3 arg4 harg4 hc0 hc1 x0 xs0 = k0_pay2 xs0 x0 := by
  unfold degOutLast
  rw [View.read_writes_eq_canon _ _ _ (degOutCoverLast c i arg2 harg2 arg3 harg3 arg4 harg4 hc0 hc1 x0 xs0)]
  unfold degRunLast
  dsimp only
  sl_unfold_words
  rw [View.canon_unit_zero (S := S1024x1) hz, View.readCov_unit_zero (S := S1024x1) _ hz]
  simp only [View.readAt_eq_ld, harg2.read_unread, harg4.read_unread, View.ld_unit_zero (S := S1024x4096) hz, View.ld_unit_zero (S := S1024x1) hz]

/-! ## On the extended reals -/

/-- Row `r` of row band `ib` when 8192 rows are cut into bands of 1024. -/
abbrev row1024 (ib : Fin 8) (r : Fin 1024) : Fin 8192 := ⟨1024 * ib.val + r.val, by omega⟩

section Ideal

open Cert.KernelIdeal.Pay

variable (V : (c : Dev nD) → (b : Ref sig .tc) → Buf (Elt Ideal) ((c : Thread nD τ).loc b))

/-- The adjacency as the launch finds it, and its block at a point, as functions into the extended reals. -/
abbrev adjOf (c : Dev nD) : S8192x8192.Idx → EReal := V c main_arg1
abbrev blkOf (c : Dev nD) (t : Fin cfg0.N) : S1024x4096.Idx → EReal := degBlk V c 0 t
abbrev accOf (c : Dev nD) (n : ℕ) (hn : n < cfg0.N) : S1024x1.Idx → EReal := (degAt V c n hn).2
abbrev outOf (c : Dev nD) (n : ℕ) (hn : n < cfg0.N) : S1024x1.Idx → EReal := (degAt V c n hn).1

/-- The printed index maps over the grid: the adjacency block of point `t` is block (t / 2, t % 2), the output
    block is block (t / 2, 0). -/
theorem idx_facts : ∀ t : Fin cfg0.N, win0_0.index t (0 : Fin 2) = t.val / 2 ∧ win0_0.index t (1 : Fin 2) = t.val % 2
    ∧ win0_1.index t (0 : Fin 2) = t.val / 2 ∧ win0_1.index t (1 : Fin 2) = 0 :=
  (by decide +kernel : ∀ t : Fin grid0.N, win0_0.index t (0 : Fin 2) = t.val / 2 ∧ win0_0.index t (1 : Fin 2) = t.val % 2
    ∧ win0_1.index t (0 : Fin 2) = t.val / 2 ∧ win0_1.index t (1 : Fin 2) = 0)

/-- The adjacency block of a point, read at an entry, is the adjacency at that row of the row band and that column
    of the half. -/
theorem blk_apply (c : Dev nD) (t : Fin cfg0.N) (ib : Fin 8) (kb : Fin 2) (ht : t.val = 2 * ib.val + kb.val)
    (r : Fin 1024) (kk : Fin 4096) :
    blkOf V c t (ix2 r kk)
      = adjOf V c (ix2 (row1024 ib r) (Cert.Gcn.col4096 kb kk)) := by
  obtain ⟨e0, e1, -, -⟩ := idx_facts t
  show degBlk V c 0 t (ix2 r kk) = adjOf V c _
  unfold degBlk
  rw [View.read_apply]
  show adjOf V c _ = adjOf V c _
  refine congrArg (adjOf V c) ?_
  funext a
  apply Fin.ext
  match a with
  | ⟨0, _⟩ => show win0_0.index t (0 : Fin 2) * 1024 + 1 * r.val = 1024 * ib.val + r.val; rw [e0]; omega
  | ⟨1, _⟩ => show win0_0.index t (1 : Fin 2) * 4096 + 1 * kk.val = 4096 * kb.val + kk.val; rw [e1]; omega

/-- After a first-half point the carried column holds zero plus the block's row sums. -/
theorem acc_even (c : Dev nD) (t : Fin cfg0.N) (h0 : t.val % 2 = 0) (r : Fin 1024) :
    accOf V c t.val t.isLt (ix2 r (0 : Fin 1))
      = Cert.Gcn.zeroE + ∑ kk : Fin 4096, blkOf V c t (ix2 r kk) := by
  show (degAt V c t.val t.isLt).2 (ix2 r (0 : Fin 1)) = _
  rw [degAt_first V c t h0]
  dsimp only
  rw [accFirst_eq, pay_rowsum, pay_zero_col]

/-- After a second-half point the output block holds what the first half left plus the block's row sums. -/
theorem out_odd (c : Dev nD) (t : Fin cfg0.N) (h0 : ¬t.val % 2 = 0) (r : Fin 1024) :
    outOf V c t.val t.isLt (ix2 r (0 : Fin 1))
      = accOf V c (t.val - 1) (Nat.lt_of_le_of_lt (Nat.sub_le _ _) t.isLt) (ix2 r (0 : Fin 1))
        + ∑ kk : Fin 4096, blkOf V c t (ix2 r kk) := by
  show (degAt V c t.val t.isLt).1 (ix2 r (0 : Fin 1)) = _
  rw [degAt_last V c t h0]
  dsimp only
  rw [outLast_eq, pay_rowsum]

/-- The degree column: every row's sum over its two halves. -/
def degG (c : Dev nD) : S8192x1.Idx → EReal := fun j =>
  ∑ kb : Fin 2, ∑ kk : Fin 4096, adjOf V c (ix2 (⟨(j 0).val, (j 0).isLt⟩ : Fin 8192) (Cert.Gcn.col4096 kb kk))

/-- The output block after the second half of row band `ib` is that band of the degree column. -/
theorem out_val (c : Dev nD) (t : Fin cfg0.N) (ib : Fin 8) (ht : t.val = 2 * ib.val + 1) (r : Fin 1024) :
    outOf V c t.val t.isLt (ix2 r (0 : Fin 1))
      = ∑ kb : Fin 2, ∑ kk : Fin 4096, adjOf V c (ix2 (row1024 ib r) (Cert.Gcn.col4096 kb kk)) := by
  have hN : t.val < 16 := lt_of_lt_of_eq t.isLt (show cfg0.N = 16 from N_0)
  have h0 : ¬t.val % 2 = 0 := by omega
  rw [out_odd V c t h0 r]
  have hp : t.val - 1 < cfg0.N := Nat.lt_of_le_of_lt (Nat.sub_le _ _) t.isLt
  have he := acc_even V c ⟨t.val - 1, hp⟩ (by show (t.val - 1) % 2 = 0; omega) r
  rw [show accOf V c (t.val - 1) hp (ix2 r (0 : Fin 1)) = _ from he]
  rw [Fin.sum_univ_two]
  rw [Finset.sum_congr rfl fun kk _ => blk_apply V c ⟨t.val - 1, hp⟩ ib 0 (by show t.val - 1 = 2 * ib.val + 0; omega) r kk]
  rw [Finset.sum_congr rfl fun kk _ => blk_apply V c t ib 1 (by show t.val = 2 * ib.val + 1; omega) r kk]
  rw [Cert.Gcn.zeroE_eq, zero_add]

/-- What a flushing point writes back is its block of the degree column. -/
theorem flushed_eq (c : Dev nD) (t : Fin cfg0.N) (hf : (cfg0.win 1).flush t = true) :
    (degDat V c).flushed 1 t = ((cfg0.win 1).blk t).view.read (Elt Ideal) (degG V c) := by
  have hodd : t.val % 2 = 1 := (flush0_1 t).mp hf
  have hN : t.val < 16 := lt_of_lt_of_eq t.isLt (show cfg0.N = 16 from N_0)
  obtain ⟨-, -, e2, e3⟩ := idx_facts t
  show (cfg0.win 1).cut (grid0.coords t) ((degDat V c).after 1 t) = _
  rw [degAfter1]
  funext y
  obtain ⟨r, u, rfl⟩ : ∃ (r : Fin 1024) (u : Fin 1), y = ix2 r u := ⟨y 0, y 1, eq_ix2 y⟩
  obtain rfl : u = 0 := Subsingleton.elim _ _
  rw [View.read_apply]
  show outOf V c t.val t.isLt (ix2 r (0 : Fin 1)) = degG V c (((cfg0.win 1).blk t).view.emb (ix2 r (0 : Fin 1)))
  rw [out_val V c t ⟨t.val / 2, by omega⟩ (by show t.val = 2 * (t.val / 2) + 1; omega) r]
  unfold degG
  refine Finset.sum_congr rfl fun kb _ => Finset.sum_congr rfl fun kk _ => congrArg (adjOf V c) ?_
  funext a
  apply Fin.ext
  match a with
  | ⟨0, _⟩ => show 1024 * (t.val / 2) + r.val = win0_1.index t (0 : Fin 2) * 1024 + 1 * r.val; rw [e2]; omega
  | ⟨1, _⟩ => rfl

/-- An index of the degree column is in a point's output block iff its row is in the block's range. -/
theorem mem_blk (t : Fin cfg0.N) (i : S8192x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v0).slice (win0_1.rect t)).set ↔ _
  rw [View.set_slice_whole, Rect.mem_set_unit]
  exact Iff.rfl

/-- Every row is in the output block of the second half of its row band. -/
theorem covered (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  let t : Fin cfg0.N := ⟨2 * ((i 0).val / 1024) + 1, lt_of_lt_of_eq (by omega : 2 * ((i 0).val / 1024) + 1 < 16) N_0.symm⟩
  obtain ⟨-, -, e2, e3⟩ := idx_facts t
  have tv : t.val = 2 * ((i 0).val / 1024) + 1 := rfl
  refine ⟨t, (flush0_1 t).mpr (by rw [tv]; omega), ?_⟩
  rw [mem_blk]
  intro a
  match a with
  | ⟨0, _⟩ => show win0_1.index t (0 : Fin 2) * 1024 ≤ (i 0).val ∧ (i 0).val < win0_1.index t (0 : Fin 2) * 1024 + 1024; rw [e2, tv]; omega
  | ⟨1, _⟩ => show win0_1.index t (1 : Fin 2) * 1 ≤ (i 1).val ∧ (i 1).val < win0_1.index t (1 : Fin 2) * 1 + 1; rw [e3]; omega

/-- The degree launch's output array. -/
abbrev degArr (c : Dev nD) : S8192x1.Idx → EReal := (degDat (F := Ideal) V c).arrAt 1 cfg0.N

/-- The degree launch's output array is the degree column: every row's sum over its two halves. -/
theorem degArr_eq (c : Dev nD) (i : Fin 8192) :
    degArr V c (ix2 i (0 : Fin 1))
      = Cert.Gcn.degK (fun a k => adjOf V c (ix2 a k)) i := by
  show ((degDat (F := Ideal) V c).arrAt 1 cfg0.N) (ix2 i (0 : Fin 1)) = _
  rw [(degDat V c).arrAt_eq_of_cover 1 (degG V c) (flushed_eq V c) covered]
  rfl

end Ideal

end Cert.KernelIdeal.DegVal

end
-- ==== Proof.KI.LayerValue.lean ====
import proofs.«152812_j63574105915528_2_alg».proof.Proof.KI.LayerData
import proofs.«152812_j63574105915528_2_alg».proof.Proof.KI.Payloads
import proofs.«152812_j63574105915528_2_alg».proof.Proof.GcnSpec
import proofs.«152812_j63574105915528_2_alg».proof.Proof.GcnLaw
import Idealize.ShloMosaic.Lib.Pipeline.Value
import Idealize.ShloMosaic.Lib.ValueIdx
import Idealize.ShloMosaic.Lib.Tactic

/-!
  The layer launch's output array as one function of the arrays the launch finds, index by index, on the
  extended reals.

  Each case of the body leaves the payloads of its blocks: the first column band zero plus the block product,
  every later band the block product added to what the band before left, the last band also the output block,
  the scaled accumulator plus the bias row.  A block of a window at point `t` is the array read at row band
  `t / 8` and column band `t % 8`.  So after column band `n % 8` of row band `n / 8` the accumulator at
  `(r, cc)` is zero plus the sum over the bands so far of the adjacency row times the scaled-support column (by
  induction on the point), and the block written back at the last column band is the row scale times the
  eight-band sum plus the bias.  Every row lies in the block its row band's last column band writes back, so
  the array ends holding that function everywhere.
-/

set_option maxRecDepth 16384

noncomputable section

namespace Cert.KernelIdeal.LayVal

open Cert.KernelIdeal Cert.KernelIdeal.Gen Cert.KernelIdeal.Hand Cert.KernelIdeal.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## What each case's stores leave, as payloads of the blocks -/

/-- First column band: the accumulator holds the word of 0.0 plus the block product. -/
theorem accFirst_eq (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : firstBand i) (hc1 : ¬lastBand i) (x0 : Vec F S1024x1024 .f32) (x1 : Vec F S1024x256 .bf16) (x2 : Vec F S1024x1 .f32) (x3 : Vec F S1x256 .f32) :
    layAccFirst c i arg2 harg2 arg3 harg3 arg4 harg4 arg5 harg5 arg6 harg6 arg7 harg7 hc0 hc1 x0 x1 x2 x3 = k1_pay2 x0 (k1_pay1 (F := F)) x1 := by
  unfold layAccFirst
  rw [View.read_writes_eq_canon _ _ _ (layAccCoverFirst c i arg2 harg2 arg3 harg3 arg4 harg4 arg5 harg5 arg6 harg6 arg7 harg7 hc0 hc1 x0 x1 x2 x3)]
  unfold layRunFirst
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg7.read_unread, View.ld_unit_zero (S := S1024x1024) hz, View.ld_unit_zero (S := S1024x256) hz, View.ld_unit_zero (S := S1024x1) hz, View.ld_unit_zero (S := S1x256) hz]

/-- A middle column band: the block product is added to what the accumulator held. -/
theorem accMid_eq (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : ¬lastBand i) (x0 : Vec F S1024x1024 .f32) (x1 : Vec F S1024x256 .bf16) (x2 : Vec F S1024x1 .f32) (x3 : Vec F S1x256 .f32) (xs0 : Vec F S1024x256 .f32) :
    layAccMid c i arg2 harg2 arg3 harg3 arg4 harg4 arg5 harg5 arg6 harg6 arg7 harg7 hc0 hc1 x0 x1 x2 x3 xs0 = k1_pay2 x0 xs0 x1 := by
  unfold layAccMid
  rw [View.read_writes_eq_canon _ _ _ (layAccCoverMid c i arg2 harg2 arg3 harg3 arg4 harg4 arg5 harg5 arg6 harg6 arg7 harg7 hc0 hc1 x0 x1 x2 x3 xs0)]
  unfold layRunMid
  dsimp only
  rw [View.canon_unit_zero (S := S1024x256) hz]
  simp only [View.readAt_eq_ld, harg2.read_unread, harg3.read_unread, harg4.read_unread, harg5.read_unread, harg7.read_unread, View.ld_unit_zero (S := S1024x1024) hz, View.ld_unit_zero (S := S1024x256) hz, View.ld_unit_zero (S := S1024x1) hz, View.ld_unit_zero (S := S1x256) hz]

/-- The last column band: the same for the accumulator. -/
theorem accLast_eq (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : lastBand i) (x0 : Vec F S1024x1024 .f32) (x1 : Vec F S1024x256 .bf16) (x2 : Vec F S1024x1 .f32) (x3 : Vec F S1x256 .f32) (xs0 : Vec F S1024x256 .f32) :
    layAccLast c i arg2 harg2 arg3 harg3 arg4 harg4 arg5 harg5 arg6 harg6 arg7 harg7 hc0 hc1 x0 x1 x2 x3 xs0 = k1_pay2 x0 xs0 x1 := by
  unfold layAccLast
  rw [View.read_writes_eq_canon _ _ _ (layAccCoverLast c i arg2 harg2 arg3 harg3 arg4 harg4 arg5 harg5 arg6 harg6 arg7 harg7 hc0 hc1 x0 x1 x2 x3 xs0)]
  unfold layRunLast
  dsimp only
  sl_unfold_words
  rw [View.canon_unit_zero (S := S1024x256) hz]
  simp only [View.readAt_eq_ld, harg2.read_unread, harg3.read_unread, harg4.read_unread, harg5.read_unread, harg7.read_unread, View.ld_unit_zero (S := S1024x1024) hz, View.ld_unit_zero (S := S1024x256) hz, View.ld_unit_zero (S := S1024x1) hz, View.ld_unit_zero (S := S1x256) hz]

/-- The last column band: the output block holds the scaled accumulator plus the bias row. -/
theorem outLast_eq (c : Dev nD) (i : grid1.Coords) (arg2 : Memref sig .tc .vmem S1024x1024 .f32) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hc0 : ¬firstBand i) (hc1 : lastBand i) (x0 : Vec F S1024x1024 .f32) (x1 : Vec F S1024x256 .bf16) (x2 : Vec F S1024x1 .f32) (x3 : Vec F S1x256 .f32) (xs0 : Vec F S1024x256 .f32) :
    layOutLast c i arg2 harg2 arg3 harg3 arg4 harg4 arg5 harg5 arg6 harg6 arg7 harg7 hc0 hc1 x0 x1 x2 x3 xs0 = k1_pay3 x2 (k1_pay2 x0 xs0 x1) x3 := by
  unfold layOutLast
  rw [View.read_writes_eq_canon _ _ _ (layOutCoverLast c i arg2 harg2 arg3 harg3 arg4 harg4 arg5 harg5 arg6 harg6 arg7 harg7 hc0 hc1 x0 x1 x2 x3 xs0)]
  unfold layRunLast
  dsimp only
  sl_unfold_words
  rw [View.canon_unit_zero (S := S1024x256) hz, View.readCov_unit_zero (S := S1024x256) _ hz]
  simp only [View.readAt_eq_ld, harg2.read_unread, harg3.read_unread, harg4.read_unread, harg5.read_unread, harg7.read_unread, View.ld_unit_zero (S := S1024x1024) hz, View.ld_unit_zero (S := S1024x256) hz, View.ld_unit_zero (S := S1024x1) hz, View.ld_unit_zero (S := S1x256) hz]

/-! ## The arrays and blocks at the extended reals -/

section AtIdeal

open Cert.Gcn (col1024 zeroE)

variable (V : (c : Dev nD) → (b : Ref sig .tc) → Buf (Elt Ideal) ((c : Thread nD τ).loc b))

abbrev adjOf (c : Dev nD) : S8192x8192.Idx → EReal := V c main_arg1
abbrev ssOf (c : Dev nD) : S8192x256.Idx → EReal := V c main_v12
abbrev drowOf (c : Dev nD) : S8192x1.Idx → EReal := V c main_v7
abbrev biasOf (c : Dev nD) : S1x256.Idx → EReal := V c main_v13
abbrev layArr (c : Dev nD) : S8192x256.Idx → EReal := (layDat (F := Ideal) V c).arrAt 4 cfg1.N
abbrev blk0Of (c : Dev nD) (t : Fin cfg1.N) : S1024x1024.Idx → EReal := layBlk V c 0 t
abbrev blk1Of (c : Dev nD) (t : Fin cfg1.N) : S1024x256.Idx → EReal := layBlk V c 1 t
abbrev blk2Of (c : Dev nD) (t : Fin cfg1.N) : S1024x1.Idx → EReal := layBlk V c 2 t
abbrev blk3Of (c : Dev nD) (t : Fin cfg1.N) : S1x256.Idx → EReal := layBlk V c 3 t
abbrev accOf (c : Dev nD) (n : ℕ) (hn : n < cfg1.N) : S1024x256.Idx → EReal := (layAt V c n hn).2
abbrev outOf (c : Dev nD) (n : ℕ) (hn : n < cfg1.N) : S1024x256.Idx → EReal := (layAt V c n hn).1

/-- The band a number names: its residue modulo 8. -/
def fin8 (n : ℕ) : Fin 8 := ⟨n % 8, Nat.mod_lt _ (by decide)⟩

/-- The block indices of the five windows at point `t`: row band `t / 8`, column band `t % 8`. -/
theorem idx_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = 0
    ∧ win1_4.index t (0 : Fin 2) = t.val / 8 ∧ win1_4.index t (1 : Fin 2) = 0 :=
  (by decide +kernel : ∀ t : Fin grid1.N, _)

theorem lt64 (t : Fin cfg1.N) : t.val < 64 := lt_of_lt_of_eq t.isLt (show cfg1.N = 64 from N_1)

/-! ## The blocks read off the arrays -/

theorem blk0_apply (c : Dev nD) (t : Fin cfg1.N) (r kk : Fin 1024) :
    blk0Of V c t (ix2 r kk) = adjOf V c (ix2 (col1024 (fin8 (t.val / 8)) r) (col1024 (fin8 t.val) kk)) := by
  obtain ⟨e0, e1, -⟩ := idx_facts t
  have hN := lt64 t
  show layBlk V c 0 t (ix2 r kk) = _
  unfold layBlk
  rw [View.read_apply]
  show V c main_arg1 _ = V c main_arg1 _
  congr 1
  funext a
  apply Fin.ext
  match a with
  | ⟨0, _⟩ => show win1_0.index t (0 : Fin 2) * 1024 + 1 * r.val = 1024 * ((t.val / 8) % 8) + r.val; rw [e0]; omega
  | ⟨1, _⟩ => show win1_0.index t (1 : Fin 2) * 1024 + 1 * kk.val = 1024 * (t.val % 8) + kk.val; rw [e1]; omega

theorem blk1_apply (c : Dev nD) (t : Fin cfg1.N) (kk : Fin 1024) (cc : Fin 256) :
    blk1Of V c t (ix2 kk cc) = ssOf V c (ix2 (col1024 (fin8 t.val) kk) cc) := by
  obtain ⟨-, -, e0, e1, -⟩ := idx_facts t
  show layBlk V c 1 t (ix2 kk cc) = _
  unfold layBlk
  rw [View.read_apply]
  show V c main_v12 _ = V c main_v12 _
  congr 1
  funext a
  apply Fin.ext
  match a with
  | ⟨0, _⟩ => show win1_1.index t (0 : Fin 2) * 1024 + 1 * kk.val = 1024 * (t.val % 8) + kk.val; rw [e0]; omega
  | ⟨1, _⟩ => show win1_1.index t (1 : Fin 2) * 256 + 1 * cc.val = cc.val; rw [e1]; omega

theorem blk2_apply (c : Dev nD) (t : Fin cfg1.N) (r : Fin 1024) :
    blk2Of V c t (ix2 r (0 : Fin 1)) = drowOf V c (ix2 (col1024 (fin8 (t.val / 8)) r) (0 : Fin 1)) := by
  obtain ⟨-, -, -, -, e0, e1, -⟩ := idx_facts t
  have hN := lt64 t
  show layBlk V c 2 t (ix2 r (0 : Fin 1)) = _
  unfold layBlk
  rw [View.read_apply]
  show V c main_v7 _ = V c main_v7 _
  congr 1
  funext a
  apply Fin.ext
  match a with
  | ⟨0, _⟩ => show win1_2.index t (0 : Fin 2) * 1024 + 1 * r.val = 1024 * ((t.val / 8) % 8) + r.val; rw [e0]; omega
  | ⟨1, _⟩ => show win1_2.index t (1 : Fin 2) * 1 + 1 * 0 = 0; rw [e1]

theorem blk3_apply (c : Dev nD) (t : Fin cfg1.N) (cc : Fin 256) :
    blk3Of V c t (ix2 (0 : Fin 1) cc) = biasOf V c (ix2 (0 : Fin 1) cc) := by
  obtain ⟨-, -, -, -, -, -, e0, e1, -⟩ := idx_facts t
  show layBlk V c 3 t (ix2 (0 : Fin 1) cc) = _
  unfold layBlk
  rw [View.read_apply]
  show V c main_v13 _ = V c main_v13 _
  congr 1
  funext a
  apply Fin.ext
  match a with
  | ⟨0, _⟩ => show win1_3.index t (0 : Fin 2) * 1 + 1 * 0 = 0; rw [e0]
  | ⟨1, _⟩ => show win1_3.index t (1 : Fin 2) * 256 + 1 * cc.val = cc.val; rw [e1]; omega

/-! ## The accumulator point by point -/

/-- Row `r` of row band `ib` of the adjacency times column `cc` of the scaled support, over column band `b`. -/
def bsum (c : Dev nD) (ib b : Fin 8) (r : Fin 1024) (cc : Fin 256) : EReal :=
  ∑ kk : Fin 1024, adjOf V c (ix2 (col1024 ib r) (col1024 b kk)) * ssOf V c (ix2 (col1024 b kk) cc)

theorem blockprod (c : Dev nD) (t : Fin cfg1.N) (r : Fin 1024) (cc : Fin 256) :
    ∑ kk : Fin 1024, blk0Of V c t (ix2 r kk) * blk1Of V c t (ix2 kk cc) = bsum V c (fin8 (t.val / 8)) (fin8 t.val) r cc :=
  Finset.sum_congr rfl fun kk _ => by rw [blk0_apply, blk1_apply]

theorem acc_first (c : Dev nD) (t : Fin cfg1.N) (h0 : t.val % 8 = 0) (r : Fin 1024) (cc : Fin 256) :
    accOf V c t.val t.isLt (ix2 r cc) = zeroE + bsum V c (fin8 (t.val / 8)) (fin8 t.val) r cc := by
  show (layAt V c t.val t.isLt).2 (ix2 r cc) = _
  rw [layAt_first V c t h0]
  dsimp only
  rw [accFirst_eq]
  refine (pay_matmul _ _ _ r cc).trans ?_
  rw [pay_zero_acc]
  exact congrArg (fun s => zeroE + s) (blockprod V c t r cc)

theorem acc_step (c : Dev nD) (t : Fin cfg1.N) (h0 : ¬t.val % 8 = 0) (r : Fin 1024) (cc : Fin 256) :
    accOf V c t.val t.isLt (ix2 r cc)
      = accOf V c (t.val - 1) (Nat.lt_of_le_of_lt (Nat.sub_le _ _) t.isLt) (ix2 r cc) + bsum V c (fin8 (t.val / 8)) (fin8 t.val) r cc := by
  show (layAt V c t.val t.isLt).2 (ix2 r cc) = _
  by_cases h1 : t.val % 8 = 7
  · rw [layAt_last V c t h0 h1]
    dsimp only
    rw [accLast_eq]
    refine (pay_matmul _ _ _ r cc).trans ?_
    exact congrArg (fun s => accOf V c (t.val - 1) (Nat.lt_of_le_of_lt (Nat.sub_le _ _) t.isLt) (ix2 r cc) + s) (blockprod V c t r cc)
  · rw [layAt_mid V c t h0 h1]
    dsimp only
    rw [accMid_eq]
    refine (pay_matmul _ _ _ r cc).trans ?_
    exact congrArg (fun s => accOf V c (t.val - 1) (Nat.lt_of_le_of_lt (Nat.sub_le _ _) t.isLt) (ix2 r cc) + s) (blockprod V c t r cc)

theorem fin8_mod (n : ℕ) : fin8 (n % 8) = fin8 n := Fin.ext (Nat.mod_mod _ _)

/-- After column band `n % 8` of row band `n / 8` the accumulator holds zero plus the products over the bands so far. -/
theorem acc_closed (c : Dev nD) (r : Fin 1024) (cc : Fin 256) : ∀ (n : ℕ) (hn : n < cfg1.N),
    accOf V c n hn (ix2 r cc) = zeroE + ∑ b ∈ Finset.range (n % 8 + 1), bsum V c (fin8 (n / 8)) (fin8 b) r cc
  | 0, hn => by
    refine (acc_first V c ⟨0, hn⟩ rfl r cc).trans ?_
    show zeroE + bsum V c (fin8 (0 / 8)) (fin8 0) r cc = zeroE + ∑ b ∈ Finset.range 1, bsum V c (fin8 (0 / 8)) (fin8 b) r cc
    rw [Finset.sum_range_one]
  | n + 1, hn => by
    by_cases h0 : (n + 1) % 8 = 0
    · refine (acc_first V c ⟨n + 1, hn⟩ h0 r cc).trans ?_
      show zeroE + bsum V c (fin8 ((n + 1) / 8)) (fin8 (n + 1)) r cc = _
      rw [h0, Nat.zero_add, Finset.sum_range_one, ← fin8_mod (n + 1), h0]
    · refine (acc_step V c ⟨n + 1, hn⟩ h0 r cc).trans ?_
      show accOf V c n (Nat.lt_of_succ_lt hn) (ix2 r cc) + bsum V c (fin8 ((n + 1) / 8)) (fin8 (n + 1)) r cc = _
      rw [acc_closed c r cc n (Nat.lt_of_succ_lt hn)]
      have e1 : n / 8 = (n + 1) / 8 := by omega
      have e2 : n % 8 + 1 = (n + 1) % 8 := by omega
      rw [e1, e2, Finset.sum_range_succ, add_assoc, fin8_mod]

/-! ## The output block at the last column band -/

theorem out_last (c : Dev nD) (t : Fin cfg1.N) (h7 : t.val % 8 = 7) (r : Fin 1024) (cc : Fin 256) :
    outOf V c t.val t.isLt (ix2 r cc)
      = blk2Of V c t (ix2 r (0 : Fin 1)) * accOf V c t.val t.isLt (ix2 r cc) + blk3Of V c t (ix2 (0 : Fin 1) cc) := by
  have h0 : ¬t.val % 8 = 0 := by omega
  show (layAt V c t.val t.isLt).1 (ix2 r cc) = _ * (layAt V c t.val t.isLt).2 (ix2 r cc) + _
  rw [layAt_last V c t h0 h7]
  dsimp only
  rw [outLast_eq, accLast_eq]
  exact pay_final _ _ _ r cc

/-! ## The whole output array -/

/-- The layer at row `i`, column `cc`: the row scale times the eight-band sum, plus the bias. -/
def gval (c : Dev nD) (i : Fin 8192) (cc : Fin 256) : EReal :=
  drowOf V c (ix2 i (0 : Fin 1)) * (∑ kb : Fin 8, ∑ kk : Fin 1024, adjOf V c (ix2 i (col1024 kb kk)) * ssOf V c (ix2 (col1024 kb kk) cc))
    + biasOf V c (ix2 (0 : Fin 1) cc)

def G (c : Dev nD) : S8192x256.Idx → EReal := fun j => gval V c (j 0) (j 1)

theorem fin8_val (b : Fin 8) : fin8 b.val = b := Fin.ext (Nat.mod_eq_of_lt b.isLt)

theorem flushed_eq (c : Dev nD) (t : Fin cfg1.N) (hf : (cfg1.win 4).flush t = true) :
    (layDat (F := Ideal) V c).flushed 4 t = ((cfg1.win 4).blk t).view.read (Elt Ideal) (G V c) := by
  have h7 : t.val % 8 = 7 := (flush1_4 t).mp hf
  have hN := lt64 t
  obtain ⟨-, -, -, -, -, -, -, -, e0, e1⟩ := idx_facts t
  show (cfg1.win 4).cut (grid1.coords t) ((layDat (F := Ideal) V c).after 4 t) = _
  rw [layAfter4]
  funext y
  obtain ⟨r, cc, rfl⟩ : ∃ (r : Fin 1024) (cc : Fin 256), y = ix2 r cc := ⟨y 0, y 1, eq_ix2 y⟩
  show outOf V c t.val t.isLt (ix2 r cc) = G V c (((cfg1.win 4).blk t).view.emb (ix2 r cc))
  have hemb : ((cfg1.win 4).blk t).view.emb (ix2 r cc) = ix2 (col1024 (fin8 (t.val / 8)) r) cc := by
    funext a
    apply Fin.ext
    match a with
    | ⟨0, _⟩ => show win1_4.index t (0 : Fin 2) * 1024 + 1 * r.val = 1024 * ((t.val / 8) % 8) + r.val; rw [e0]; omega
    | ⟨1, _⟩ => show win1_4.index t (1 : Fin 2) * 256 + 1 * cc.val = cc.val; rw [e1]; omega
  rw [hemb, out_last V c t h7 r cc, acc_closed V c r cc t.val t.isLt, blk2_apply, blk3_apply]
  show _ = gval V c (col1024 (fin8 (t.val / 8)) r) cc
  unfold gval
  rw [Cert.Gcn.zeroE_eq, zero_add, h7, Finset.sum_range]
  refine congrArg (fun s => drowOf V c (ix2 (col1024 (fin8 (t.val / 8)) r) (0 : Fin 1)) * s + biasOf V c (ix2 (0 : Fin 1) cc)) ?_
  refine Finset.sum_congr rfl fun b _ => ?_
  rw [fin8_val]
  rfl

theorem mem_blk (t : Fin cfg1.N) (i : S8192x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v14).slice (win1_4.rect t)).set ↔ _
  rw [View.set_slice_whole, Rect.mem_set_unit]
  exact Iff.rfl

/-- Row `i` is written back by the last column band of its row band. -/
theorem cover (i : S8192x256.Idx) : ∃ t : Fin cfg1.N, (cfg1.win 4).flush t = true ∧ i ∈ ((cfg1.win 4).blk t).view.set := by
  have hN : cfg1.N = 64 := N_1
  have hi0 : (i 0).val < 8192 := (i 0).isLt
  have hi1 : (i 1).val < 256 := (i 1).isLt
  have ht : 8 * ((i 0).val / 1024) + 7 < cfg1.N := by omega
  obtain ⟨-, -, -, -, -, -, -, -, e0, e1⟩ := idx_facts ⟨8 * ((i 0).val / 1024) + 7, ht⟩
  refine ⟨⟨8 * ((i 0).val / 1024) + 7, ht⟩, (flush1_4 _).mpr (by show (8 * ((i 0).val / 1024) + 7) % 8 = 7; omega), ?_⟩
  rw [mem_blk]
  intro a
  match a with
  | ⟨0, _⟩ =>
    show win1_4.index ⟨8 * ((i 0).val / 1024) + 7, ht⟩ (0 : Fin 2) * 1024 ≤ (i 0).val
      ∧ (i 0).val < win1_4.index ⟨8 * ((i 0).val / 1024) + 7, ht⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win1_4.index ⟨8 * ((i 0).val / 1024) + 7, ht⟩ (1 : Fin 2) * 256 ≤ (i 1).val
      ∧ (i 1).val < win1_4.index ⟨8 * ((i 0).val / 1024) + 7, ht⟩ (1 : Fin 2) * 256 + 256
    rw [e1]
    omega

/-- The output array after the launch, index by index. -/
theorem layArr_eq (c : Dev nD) (i : Fin 8192) (cc : Fin 256) :
    layArr V c (ix2 i cc)
      = drowOf V c (ix2 i (0 : Fin 1)) * (∑ kb : Fin 8, ∑ kk : Fin 1024, adjOf V c (ix2 i (Cert.Gcn.col1024 kb kk)) * ssOf V c (ix2 (Cert.Gcn.col1024 kb kk) cc))
        + biasOf V c (ix2 (0 : Fin 1) cc) := by
  have h : layArr V c = G V c :=
    (layDat (F := Ideal) V c).arrAt_eq_of_cover 4 (G V c) (flushed_eq V c) cover
  rw [h]
  rfl

end AtIdeal

end Cert.KernelIdeal.LayVal

end
-- ==== Proof.KI.HostStretch.lean ====
/-
  The host operations between the two kernel launches, read at an index on the extended reals.

  From the degree column the first launch leaves, the host computes the scale (the power -1/2 where the degree is
  positive, zero elsewhere) as a vector over the rows, the support as the product of the features and the weights,
  the support scaled row by row (stored in the narrower format, which is the identity on extended reals), and the
  bias as a one-row array.  Each result is read here at one element; the arguments and the degree column are left
  as they were.
-/
import proofs.«152812_j63574105915528_2_alg».proof.Proof.Gen.KernelIdeal.Launch
import proofs.«152812_j63574105915528_2_alg».proof.Proof.Gen.KernelIdeal.Regions
import proofs.«152812_j63574105915528_2_alg».proof.Proof.GcnSpec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Host

open Cert.KernelIdeal Cert.KernelIdeal.Gen Idealize.ShloMosaic Idealize.ShloMosaic.TcCoe Idealize.ShloMosaic.ValueIdx Idealize.ShloMosaic.StableHlo

/-- The scale read off a degree column: D^(-1/2) where the degree is positive, zero elsewhere. -/
def dOf (D : S8192x1.Idx → EReal) (i : Fin 8192) : EReal :=
  Scalar.select (FloatOps.cmpf (F := Ideal) (φ := .f32) .ogt (D (ix2 i (0 : Fin 1))) Cert.Gcn.zeroE)
    (FloatOps.hostPowf (F := Ideal) (φ := .f32) (D (ix2 i (0 : Fin 1))) Cert.Gcn.nhalfE) Cert.Gcn.zeroE

/-- The scale as the host computes it, a vector over the rows: the degree column flattened, compared with zero,
    raised to the power -1/2, and selected against zero. -/
def dvec (D : S8192x1.Idx → EReal) : S8192.Idx → EReal :=
  select
    (cmpf (F := Ideal) (φ := .f32) .ogt (shapeCast S8192 D shapeCasts_S8192x1_S8192 : FVec Ideal S8192 .f32)
      (broadcastInDim S8192 ![] bcast_S_S8192 (constant (F := Ideal) S_ .f32 0x00000000#32)))
    (Host.powf (F := Ideal) (φ := .f32) (shapeCast S8192 D shapeCasts_S8192x1_S8192 : FVec Ideal S8192 .f32)
      (broadcastInDim S8192 ![] bcast_S_S8192 (constant (F := Ideal) S_ .f32 0xBF000000#32)))
    (broadcastInDim S8192 ![] bcast_S_S8192 (constant (F := Ideal) S_ .f32 0x00000000#32))

/-- The host's scale vector at row `i` is the scale read off the degree column at `i`. -/
theorem dvec_apply (D : S8192x1.Idx → EReal) (i : Fin 8192) : dvec D (ix1 i) = dOf D i := by
  have hs : shapeCast S8192 D shapeCasts_S8192x1_S8192 (ix1 i) = D (ix2 i (0 : Fin 1)) :=
    shapeCast_apply D _ _ _ (by
      rw [Shape.rowMajor_val_two, Shape.rowMajor_val_one]
      show i.val * 1 + 0 = i.val
      omega)
  show Scalar.select
      (FloatOps.cmpf (F := Ideal) (φ := .f32) .ogt (shapeCast S8192 D shapeCasts_S8192x1_S8192 (ix1 i)) Cert.Gcn.zeroE)
      (FloatOps.hostPowf (F := Ideal) (φ := .f32) (shapeCast S8192 D shapeCasts_S8192x1_S8192 (ix1 i)) Cert.Gcn.nhalfE)
      Cert.Gcn.zeroE = _
  rw [hs]
  rfl

/-- A vector over the rows cast to a column reads, at `(i, 0)`, the vector at `i`. -/
theorem col_apply (v : S8192.Idx → EReal) (i : Fin 8192) :
    shapeCast S8192x1 v shapeCasts_S8192_S8192x1 (ix2 i (0 : Fin 1)) = v (ix1 i) :=
  shapeCast_apply v _ _ _ (by
    rw [Shape.rowMajor_val_two, Shape.rowMajor_val_one]
    show i.val = i.val * 1 + 0
    omega)

/-- A column broadcast along the second axis reads, at `(k, c)`, the column at `(k, 0)`. -/
theorem bcol_apply (y : S8192x1.Idx → EReal) (k : Fin 8192) (c : Fin 256) :
    broadcastInDim S8192x256 ![0, 1] bcast_S8192x1_S8192x256_0_1 y (ix2 k c) = y (ix2 k (0 : Fin 1)) :=
  broadcastInDim_apply _ bcast_S8192x1_S8192x256_0_1 y (ix2 k c) (ix2 k (0 : Fin 1)) (fun a => match a with
    | ⟨0, _⟩ => by show k.val = if (8192 : Nat) = 1 then 0 else k.val; rw [if_neg (by decide)]
    | ⟨1, _⟩ => by show 0 = if (1 : Nat) = 1 then 0 else c.val; rw [if_pos rfl])

/-! ## The contraction of the features with the weights -/

theorem lhs_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide),
    dif_pos (show (0 : Fin S8192x256.rank) ∈ dot_S8192x256_S256x256_S8192x256_1_0_0_1_n_n.lhsNonContracting by decide)]
  rfl
theorem lhs_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
theorem rhs_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
theorem rhs_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide),
    dif_pos (show (1 : Fin S256x256.rank) ∈ dot_S8192x256_S256x256_S8192x256_1_0_0_1_n_n.rhsNonContracting by decide)]
  rfl

/-- The product of the features and the weights at `(k, c)` is the support there. -/
theorem dot_apply (A0 : FVec Ideal S8192x256 .f32) (A2 : FVec Ideal S256x256 .f32) (k : Fin 8192) (c : Fin 256) :
    Host.dotGeneral (F := Ideal) dot_S8192x256_S256x256_S8192x256_1_0_0_1_n_n none A0 A2 (ix2 k c)
      = Cert.Gcn.supp (fun a j => A0 (ix2 a j)) (fun j d => A2 (ix2 j d)) k c := by
  simp only [Host.dotGeneral]
  rw [Ideal.dotGeneral_apply,
    ← Equiv.sum_comp (ValueIdx.contrEquiv1 dot_S8192x256_S256x256_S8192x256_1_0_0_1_n_n 256 rfl rfl).symm]
  unfold Cert.Gcn.supp
  refine Finset.sum_congr rfl fun j _ => ?_
  have hk := ValueIdx.contrEquiv1_symm_val dot_S8192x256_S256x256_S8192x256_1_0_0_1_n_n 256 rfl rfl j
  have el : dot_S8192x256_S256x256_S8192x256_1_0_0_1_n_n.lhsIdx (ix2 k c)
      ((ValueIdx.contrEquiv1 dot_S8192x256_S256x256_S8192x256_1_0_0_1_n_n 256 rfl rfl).symm j) = ix2 k j :=
    funext fun a => Fin.ext (by
      match a with
      | ⟨0, _⟩ => exact lhs_0 _ _
      | ⟨1, _⟩ => exact (lhs_1 _ _).trans hk)
  have er : dot_S8192x256_S256x256_S8192x256_1_0_0_1_n_n.rhsIdx (ix2 k c)
      ((ValueIdx.contrEquiv1 dot_S8192x256_S256x256_S8192x256_1_0_0_1_n_n 256 rfl rfl).symm j) = ix2 j c :=
    funext fun a => Fin.ext (by
      match a with
      | ⟨0, _⟩ => exact (rhs_0 _ _).trans hk
      | ⟨1, _⟩ => exact rhs_1 _ _)
  rw [el, er]

/-! ## The buffers after the three stretches -/

variable (W : Valuation τ sig (Elt Ideal))

/-- The buffers after the three host stretches, run in order from `W`. -/
abbrev after3 : Valuation τ sig (Elt Ideal) :=
  StableHlo.after hostOps1_2 (StableHlo.after hostOps1_1 (StableHlo.after hostOps1 W))

/-- The scale column the second launch reads is the host's scale vector cast to a column. -/
theorem v7_eq : (after3 W (Proc.devRef .tc main_v7) : S8192x1.Idx → EReal)
    = shapeCast S8192x1 (dvec (W (Proc.devRef .tc main_v0) : S8192x1.Idx → EReal)) shapeCasts_S8192_S8192x1 := by
  dsimp only [after3]
  simp only [hostOps1, hostOps1_1, hostOps1_2]
  after_results
  rfl

/-- The scaled support the second launch reads: the scale column broadcast along the rows, times the product of the
    features and the weights, stored in the narrower format. -/
theorem v12_eq : (after3 W (Proc.devRef .tc main_v12) : S8192x256.Idx → EReal)
    = truncf (F := Ideal) .bf16
        (mulf (F := Ideal) (φ := .f32)
          (broadcastInDim S8192x256 ![0, 1] bcast_S8192x1_S8192x256_0_1
            (shapeCast S8192x1 (dvec (W (Proc.devRef .tc main_v0) : S8192x1.Idx → EReal)) shapeCasts_S8192_S8192x1))
          (Host.dotGeneral (F := Ideal) (φ₁ := .f32) (φ₂ := .f32) dot_S8192x256_S256x256_S8192x256_1_0_0_1_n_n none
            (W (Proc.devRef .tc main_arg0) : FVec Ideal S8192x256 .f32) (W (Proc.devRef .tc main_arg2) : FVec Ideal S256x256 .f32)))
        bitsLt_bf16_f32 := by
  dsimp only [after3]
  simp only [hostOps1, hostOps1_1, hostOps1_2]
  after_results
  rfl

/-- The bias the second launch reads is the bias argument cast to one row. -/
theorem v13_eq : (after3 W (Proc.devRef .tc main_v13) : S1x256.Idx → EReal)
    = shapeCast S1x256 (W (Proc.devRef .tc main_arg3) : S256.Idx → EReal) shapeCasts_S256_S1x256 := by
  dsimp only [after3]
  simp only [hostOps1, hostOps1_1, hostOps1_2]
  after_results
  rfl

/-! ## The three results at an index -/

/-- The scale column at row `i` is the scale read off the degree column. -/
theorem drow_eq (i : Fin 8192) :
    (after3 W (Proc.devRef .tc main_v7) : S8192x1.Idx → EReal) (ix2 i (0 : Fin 1))
      = dOf (W (Proc.devRef .tc main_v0) : S8192x1.Idx → EReal) i := by
  rw [v7_eq, col_apply, dvec_apply]

/-- The scaled support at `(k, c)` is the scale at `k` times the support at `(k, c)`. -/
theorem scaled_eq (k : Fin 8192) (c : Fin 256) :
    (after3 W (Proc.devRef .tc main_v12) : S8192x256.Idx → EReal) (ix2 k c)
      = dOf (W (Proc.devRef .tc main_v0) : S8192x1.Idx → EReal) k
        * Cert.Gcn.supp (fun a j => (W (Proc.devRef .tc main_arg0) : S8192x256.Idx → EReal) (ix2 a j))
            (fun j d => (W (Proc.devRef .tc main_arg2) : S256x256.Idx → EReal) (ix2 j d)) k c := by
  rw [v12_eq, truncf_apply, mulf_apply, bcol_apply, col_apply, dvec_apply, dot_apply]

/-- The bias row at column `c` is the bias argument at `c`. -/
theorem bias_eq (c : Fin 256) :
    (after3 W (Proc.devRef .tc main_v13) : S1x256.Idx → EReal) (ix2 (0 : Fin 1) c)
      = (W (Proc.devRef .tc main_arg3) : S256.Idx → EReal) (ix1 c) := by
  rw [v13_eq]
  exact shapeCast_a_1a_apply _ _ _ _

/-! ## What the stretches leave as it was -/

theorem kept_of {r : Ref sig .tc} (h1 : r ∉ hostOps1_W) (h2 : r ∉ hostOps1_1_W) (h3 : r ∉ hostOps1_2_W) :
    after3 W (Proc.devRef .tc r) = W (Proc.devRef .tc r) :=
  (StableHlo.after_of_writes_sub hostOps1_2 _ hostOps1_2_writes h3).trans <|
    (StableHlo.after_of_writes_sub hostOps1_1 _ hostOps1_1_writes h2).trans
      (StableHlo.after_of_writes_sub hostOps1 _ hostOps1_writes h1)

theorem kept_arg0 : after3 W (Proc.devRef .tc main_arg0) = W (Proc.devRef .tc main_arg0) :=
  kept_of W (by decide) (by decide) (by decide)
theorem kept_arg1 : after3 W (Proc.devRef .tc main_arg1) = W (Proc.devRef .tc main_arg1) :=
  kept_of W (by decide) (by decide) (by decide)
theorem kept_arg2 : after3 W (Proc.devRef .tc main_arg2) = W (Proc.devRef .tc main_arg2) :=
  kept_of W (by decide) (by decide) (by decide)
theorem kept_arg3 : after3 W (Proc.devRef .tc main_arg3) = W (Proc.devRef .tc main_arg3) :=
  kept_of W (by decide) (by decide) (by decide)
theorem kept_v0 : after3 W (Proc.devRef .tc main_v0) = W (Proc.devRef .tc main_v0) :=
  kept_of W (by decide) (by decide) (by decide)

end Cert.KernelIdeal.Host

end
-- ==== Proof.KI.Result.lean ====
/-
  The program's result as one function of its arguments, on the extended reals.

  The degree launch leaves the degree column (every row's sum over its two halves); the host lines turn it into the
  scale `deg ^ (-1/2)` where positive and zero elsewhere, form `x · w`, scale its rows, and lay the bias as a row;
  the layer launch multiplies each adjacency row into the scaled support in eight bands, scales the row and adds the
  bias.  Composed, the result array holds the blocked spelling of the layer at every index.
-/
import proofs.«152812_j63574105915528_2_alg».proof.Proof.KI.Regions
import proofs.«152812_j63574105915528_2_alg».proof.Proof.KI.DegreeValue
import proofs.«152812_j63574105915528_2_alg».proof.Proof.KI.LayerValue
import proofs.«152812_j63574105915528_2_alg».proof.Proof.KI.HostStretch
import proofs.«152812_j63574105915528_2_alg».proof.Proof.GcnSpec

set_option maxRecDepth 16384

noncomputable section

namespace Cert.KernelIdeal.Res

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The arguments as functions of coordinates. -/
abbrev xArr (c : Dev nD) : S8192x256.Idx → EReal := m ((c.tc : Thread nD τ).loc main_arg0)
abbrev adjArr (c : Dev nD) : S8192x8192.Idx → EReal := m ((c.tc : Thread nD τ).loc main_arg1)
abbrev wArr (c : Dev nD) : S256x256.Idx → EReal := m ((c.tc : Thread nD τ).loc main_arg2)
abbrev bArr (c : Dev nD) : S256.Idx → EReal := m ((c.tc : Thread nD τ).loc main_arg3)
abbrev xFn (c : Dev nD) : Fin 8192 → Fin 256 → EReal := fun a j => xArr m c (ix2 a j)
abbrev adjFn (c : Dev nD) : Fin 8192 → Fin 8192 → EReal := fun a k => adjArr m c (ix2 a k)
abbrev wFn (c : Dev nD) : Fin 256 → Fin 256 → EReal := fun j d => wArr m c (ix2 j d)
abbrev bFn (c : Dev nD) : Fin 256 → EReal := fun d => bArr m c (ix1 d)

/-- The result array: the blocked spelling of the layer at every index. -/
def result (c : Dev nD) : S8192x256.Idx → EReal := fun j =>
  Cert.Gcn.outK (xFn m c) (adjFn m c) (wFn m c) (bFn m c) ⟨(j 0).val, (j 0).isLt⟩ ⟨(j 1).val, (j 1).isLt⟩

/-- The degree column the host lines read is the row degree. -/
theorem deg_eq (c : Dev nD) (i : Fin 8192) :
    (W1 m ρ c (Proc.devRef .tc main_v0) : S8192x1.Idx → EReal) (ix2 i (0 : Fin 1)) = Cert.Gcn.degK (adjFn m c) i := by
  rw [W1_main_v0]
  exact DegVal.degArr_eq (V0 m ρ) c i

/-- So the scale the host lines compute is the blocked spelling's. -/
theorem scale_eq (c : Dev nD) (i : Fin 8192) :
    Host.dOf (W1 m ρ c (Proc.devRef .tc main_v0) : S8192x1.Idx → EReal) i = Cert.Gcn.dK (adjFn m c) i := by
  unfold Host.dOf Cert.Gcn.dK
  rw [deg_eq m ρ c i]

theorem Wd_arg0 (c : Dev nD) : W1 m ρ c (Proc.devRef .tc main_arg0) = m ((c.tc : Thread nD τ).loc main_arg0) :=
  (W1_of_ne m ρ c main_arg0 (by decide)).trans rfl
theorem Wd_arg2 (c : Dev nD) : W1 m ρ c (Proc.devRef .tc main_arg2) = m ((c.tc : Thread nD τ).loc main_arg2) :=
  (W1_of_ne m ρ c main_arg2 (by decide)).trans rfl
theorem Wd_arg3 (c : Dev nD) : W1 m ρ c (Proc.devRef .tc main_arg3) = m ((c.tc : Thread nD τ).loc main_arg3) :=
  (W1_of_ne m ρ c main_arg3 (by decide)).trans rfl

/-- What the layer launch finds in its four input arrays. -/
theorem in_drow (c : Dev nD) (i : Fin 8192) : LayVal.drowOf (V4 m ρ) c (ix2 i (0 : Fin 1)) = Cert.Gcn.dK (adjFn m c) i := by
  show (Host.after3 (W1 m ρ c) (Proc.devRef .tc main_v7) : S8192x1.Idx → EReal) (ix2 i (0 : Fin 1)) = _
  rw [Host.drow_eq, scale_eq]
theorem in_ss (c : Dev nD) (k : Fin 8192) (cc : Fin 256) :
    LayVal.ssOf (V4 m ρ) c (ix2 k cc) = Cert.Gcn.dK (adjFn m c) k * Cert.Gcn.supp (xFn m c) (wFn m c) k cc := by
  show (Host.after3 (W1 m ρ c) (Proc.devRef .tc main_v12) : S8192x256.Idx → EReal) (ix2 k cc) = _
  rw [Host.scaled_eq, scale_eq, Wd_arg0, Wd_arg2]
theorem in_bias (c : Dev nD) (cc : Fin 256) : LayVal.biasOf (V4 m ρ) c (ix2 (0 : Fin 1) cc) = bFn m c cc := by
  show (Host.after3 (W1 m ρ c) (Proc.devRef .tc main_v13) : S1x256.Idx → EReal) (ix2 (0 : Fin 1) cc) = _
  rw [Host.bias_eq, Wd_arg3]
theorem in_adj (c : Dev nD) (i k : Fin 8192) : LayVal.adjOf (V4 m ρ) c (ix2 i k) = adjFn m c i k := by
  show (W4 m ρ c (Proc.devRef .tc main_arg1) : S8192x8192.Idx → EReal) (ix2 i k) = _
  rw [W4_main_arg1]

/-- The layer launch's output array is the result. -/
theorem result_eq (c : Dev nD) : (layDat (F := Ideal) (V4 m ρ) c).arrAt 4 cfg1.N = result m c := by
  funext j
  obtain ⟨i, cc, rfl⟩ : ∃ (i : Fin 8192) (cc : Fin 256), j = ix2 i cc := ⟨j 0, j 1, eq_ix2 j⟩
  show LayVal.layArr (V4 m ρ) c (ix2 i cc) = Cert.Gcn.outK (xFn m c) (adjFn m c) (wFn m c) (bFn m c) i cc
  rw [LayVal.layArr_eq, in_drow, in_bias]
  unfold Cert.Gcn.outK Cert.Gcn.accK
  refine congrArg (fun s => Cert.Gcn.dK (adjFn m c) i * s + bFn m c cc) ?_
  refine Finset.sum_congr rfl fun kb _ => Finset.sum_congr rfl fun kk _ => ?_
  rw [in_adj, in_ss]

/-- The run, read: the result array at the blocked spelling of the layer, the arguments unchanged. -/
theorem run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_all (F := Ideal) m ρ)

end Cert.KernelIdeal.Res

end
-- ==== Proof.RefRead.lean ====
/-
  The reference program's result, read at an index, is the whole spelling of the layer.

  Each operation of the reference is read at one element: the row sum is zero plus the sum of the row, the
  power and the test for an infinite magnitude act element by element, the two broadcasts of the scale read
  it at the row and at the column, the two contractions are finite sums of products, and the bias is read at
  the column.  Put together these are exactly the terms of the whole spelling.
-/
import proofs.«152812_j63574105915528_2_alg».proof.Proof.Gen.ReferenceIdeal.Read
import proofs.«152812_j63574105915528_2_alg».proof.Proof.GcnSpec
import Idealize.ShloMosaic.Lib.ValueIdx

noncomputable section

namespace Cert.Gcn.RefRead

open Cert.ReferenceIdeal Cert.ReferenceIdeal.Read Idealize.ShloMosaic Idealize.ShloMosaic.ValueIdx

/-! ## The composed index functions are the coordinate indices -/

theorem idx_v0 (a : Fin 8192) (k : Fin 8192) : idx_main_v0 (ix1 a) k = ix2 a k := by
  funext d; match d with | ⟨0, _⟩ => rfl | ⟨1, _⟩ => rfl

theorem idx_row (a : Fin 8192) (k : Fin 8192) : idx_main_v5 (idx_main_v6 (ix2 a k)) = ix1 a := by
  funext d; match d with | ⟨0, _⟩ => rfl

theorem idx_col (a : Fin 8192) (k : Fin 8192) : idx_main_v8 (idx_main_v9 (ix2 a k)) = ix1 k := by
  funext d; match d with | ⟨0, _⟩ => rfl

theorem idx_bias (a : Fin 8192) (c : Fin 256) : idx_main_v13 (idx_main_v14 (ix2 a c)) = ix1 c := by
  funext d; match d with | ⟨0, _⟩ => rfl

theorem lidx_v11 (k : Fin 8192) (c : Fin 256) (j : Fin 256) : lidx_main_v11 (ix2 k c) j = ix2 k j := by
  funext d; match d with | ⟨0, _⟩ => rfl | ⟨1, _⟩ => rfl

theorem ridx_v11 (k : Fin 8192) (c : Fin 256) (j : Fin 256) : ridx_main_v11 (ix2 k c) j = ix2 j c := by
  funext d; match d with | ⟨0, _⟩ => rfl | ⟨1, _⟩ => rfl

theorem lidx_v12 (i : Fin 8192) (c : Fin 256) (k : Fin 8192) : lidx_main_v12 (ix2 i c) k = ix2 i k := by
  funext d; match d with | ⟨0, _⟩ => rfl | ⟨1, _⟩ => rfl

theorem ridx_v12 (i : Fin 8192) (c : Fin 256) (k : Fin 8192) : ridx_main_v12 (ix2 i c) k = ix2 k c := by
  funext d; match d with | ⟨0, _⟩ => rfl | ⟨1, _⟩ => rfl

/-! ## The row degree, its power and the scale -/

/-- The reduce over the row is zero plus the sum of the row. -/
theorem deg_eq (x1 : (⟨S8192x8192, .f32⟩ : BufTy).Contents (Elt Ideal)) (a : Fin 8192) :
    val_main_v0 (F := Ideal) x1 (ix1 a) = Cert.Gcn.degR (fun a k => x1 (ix2 a k)) a := by
  rw [val_main_v0_apply, val_main_cst_apply]
  unfold Cert.Gcn.degR
  refine congrArg (_ + ·) (Finset.sum_congr rfl fun k _ => ?_)
  rw [idx_v0]

/-- The power of the row degree at the exponent -1/2. -/
theorem pow_eq (x1 : (⟨S8192x8192, .f32⟩ : BufTy).Contents (Elt Ideal)) (a : Fin 8192) :
    val_main_v2 (F := Ideal) x1 (ix1 a)
      = FloatOps.hostPowf (F := Ideal) (φ := .f32) (Cert.Gcn.degR (fun a k => x1 (ix2 a k)) a) Cert.Gcn.nhalfE := by
  rw [val_main_v2_apply, deg_eq, val_main_v1_apply, val_main_cst_0_apply]

/-- The scale: the power, replaced by zero where its magnitude is infinite. -/
theorem d_eq (x1 : (⟨S8192x8192, .f32⟩ : BufTy).Contents (Elt Ideal)) (a : Fin 8192) :
    val_main_v4 (F := Ideal) x1 (ix1 a) = Cert.Gcn.dR (fun a k => x1 (ix2 a k)) a := by
  rw [val_main_v4_apply, val_main_v3_apply, val_main_call0_v0_apply, pow_eq, val_main_call0_v1_apply,
    val_main_call0_cst_apply, val_main_call1_v1_apply, val_main_call1_v0_apply, val_main_cst_1_apply]
  rfl

/-! ## The support -/

/-- The first contraction is the support. -/
theorem supp_eq (x0 : (⟨S8192x256, .f32⟩ : BufTy).Contents (Elt Ideal))
    (x2 : (⟨S256x256, .f32⟩ : BufTy).Contents (Elt Ideal)) (k : Fin 8192) (c : Fin 256) :
    val_main_v11 (F := Ideal) x0 x2 (ix2 k c)
      = Cert.Gcn.supp (fun a j => x0 (ix2 a j)) (fun j d => x2 (ix2 j d)) k c := by
  rw [val_main_v11_apply]
  unfold Cert.Gcn.supp
  refine Finset.sum_congr rfl fun j _ => ?_
  rw [lidx_v11, ridx_v11]

/-! ## The scaled adjacency entry -/

/-- The adjacency entry scaled on both sides. -/
theorem scaled_eq (x1 : (⟨S8192x8192, .f32⟩ : BufTy).Contents (Elt Ideal)) (i k : Fin 8192) :
    val_main_v10 (F := Ideal) x1 (ix2 i k)
      = (Cert.Gcn.dR (fun a k => x1 (ix2 a k)) i * x1 (ix2 i k)) * Cert.Gcn.dR (fun a k => x1 (ix2 a k)) k := by
  rw [val_main_v10_apply, val_main_v7_apply, val_main_v6_apply, val_main_v5_apply, idx_row, d_eq,
    val_main_v9_apply, val_main_v8_apply, idx_col, d_eq]
  rfl

/-! ## The whole layer -/

/-- The reference's result at row `i` and column `c` is the whole spelling at `i`, `c`. -/
theorem ref_eq (x0 : (⟨S8192x256, .f32⟩ : BufTy).Contents (Elt Ideal))
    (x1 : (⟨S8192x8192, .f32⟩ : BufTy).Contents (Elt Ideal))
    (x2 : (⟨S256x256, .f32⟩ : BufTy).Contents (Elt Ideal))
    (x3 : (⟨S256, .f32⟩ : BufTy).Contents (Elt Ideal)) (i : Fin 8192) (c : Fin 256) :
    Cert.ReferenceIdeal.Read.val_main_v15 (F := Ideal) x0 x1 x2 x3 (ix2 i c)
      = Cert.Gcn.outR (fun a j => x0 (ix2 a j)) (fun a k => x1 (ix2 a k)) (fun j d => x2 (ix2 j d))
          (fun d => x3 (ix1 d)) i c := by
  rw [val_main_v15_apply, val_main_v12_apply, val_main_v14_apply, val_main_v13_apply, idx_bias]
  unfold Cert.Gcn.outR
  refine congrArg (· + x3 (ix1 c)) (Finset.sum_congr rfl fun k _ => ?_)
  rw [lidx_v12, ridx_v12, scaled_eq, supp_eq]

end Cert.Gcn.RefRead

end
-- ==== Proof.PreFinite.lean ====
/-
  Finiteness out of the precondition.

  The precondition is the conjunction of four statements, one per argument array: every element's magnitude is
  below +infinity.  A conjunction of one-bit words is 1 exactly when each word is 1; a reduction by conjunction
  over a whole array that came out 1 met a 1 at every element; and an extended real whose magnitude is below the
  top element is neither infinity, so it is a real number.
-/
import proofs.«152812_j63574105915528_2_alg».proof.Defs
import Idealize.ShloMosaic.Lib.ReduceAll
import Idealize.ShloMosaic.Lib.ValueIdx

noncomputable section

namespace Cert.Gcn.PreFinite

open Idealize.ShloMosaic Idealize.ShloMosaic.ValueIdx

/-- The scalar shape has one index. -/
instance subsingleton_scalar_idx : Subsingleton Cert.Pre_finite_inputs.S_.Idx :=
  ⟨fun _ _ => funext fun d => d.elim0⟩

/-- An extended real whose magnitude compares below the word of +infinity is a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- Under the precondition every element of every argument array is a real number. -/
theorem finite_of_pre [hP : Cert.Pre_finite_inputs.Facts]
    (a0 : (⟨Cert.Pre_finite_inputs.S8192x256, .f32⟩ : BufTy).Contents (Elt Ideal))
    (a1 : (⟨Cert.Pre_finite_inputs.S8192x8192, .f32⟩ : BufTy).Contents (Elt Ideal))
    (a2 : (⟨Cert.Pre_finite_inputs.S256x256, .f32⟩ : BufTy).Contents (Elt Ideal))
    (a3 : (⟨Cert.Pre_finite_inputs.S256, .f32⟩ : BufTy).Contents (Elt Ideal))
    (h : Cert.Pre_finite_inputs.fn (F := Ideal) a0 a1 a2 a3 = (fun _ => 1#1)) :
    (∀ j, ∃ r : ℝ, a0 j = (r : EReal)) ∧ (∀ j, ∃ r : ℝ, a1 j = (r : EReal))
      ∧ (∀ j, ∃ r : ℝ, a2 j = (r : EReal)) ∧ (∀ j, ∃ r : ℝ, a3 j = (r : EReal)) := by
  have h0 := congrFun h ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  refine ⟨fun j => ?_, fun j => ?_, fun j => ?_, fun j => ?_⟩
  · exact real_of_abs_lt_inf (a0 j) (Host.reduce_andi_all _ _ _ _ _ e0 j)
  · exact real_of_abs_lt_inf (a1 j) (Host.reduce_andi_all _ _ _ _ _ e1 j)
  · exact real_of_abs_lt_inf (a2 j) (Host.reduce_andi_all _ _ _ _ _ e2 j)
  · exact real_of_abs_lt_inf (a3 j) (Host.reduce_andi_all _ _ _ _ _ e3 j)

end Cert.Gcn.PreFinite

end
-- ==== Proof.lean ====
/-
  The degree-normalised graph-convolution layer: a kernel program of two launches against its reference.

  The kernel program sweeps the adjacency twice.  The first launch sums every row in two halves, carrying a column of
  partial sums across the two halves of a row band.  Host lines turn the degree column into the scale
  `deg ^ (-1/2)` where the degree is positive and zero elsewhere, form the support `x · w` and scale its rows.  The
  second launch multiplies each adjacency row into the scaled support in eight bands, carrying an accumulator across
  the bands of a row band, and at the last band scales the row and adds the bias.  The reference forms the degree as
  one sum, replaces an infinite `deg ^ (-1/2)` by zero, scales the adjacency on both sides entry by entry, and takes
  one product with `x · w`.

  The frames: each program, read as five segments (launch, three host stretches, launch), runs to the end from any
  memory, faults nowhere, and no segment writes an argument (`Hand.run_all`, proved once for any float instance and
  used at the word level and on the extended reals).  The reference's frame is its run with the result dropped.

  The value claim: on the extended reals the kernel program's result array holds the blocked spelling of the layer
  (`Res.run`), the reference's the whole spelling (`RefRead.ref_eq`), and on finite inputs the two agree
  (`Gcn.outK_eq_outR`): every degree is a real, a real power of a real is real, a non-positive real to the power
  -1/2 is zero, and in the reals the row scale moves across the finite sum.  Finiteness is the precondition, decoded
  by `PreFinite.finite_of_pre`.  The ideal pass rewrote nothing, so the preservation claim is trivial.
-/
import proofs.«152812_j63574105915528_2_alg».proof.Defs
import proofs.«152812_j63574105915528_2_alg».proof.Proof.Gen.Kernel
import proofs.«152812_j63574105915528_2_alg».proof.Proof.Gen.Kernel.Skeleton
import proofs.«152812_j63574105915528_2_alg».proof.Proof.Gen.Kernel.Launch
import proofs.«152812_j63574105915528_2_alg».proof.Proof.Gen.Kernel.Regions
import proofs.«152812_j63574105915528_2_alg».proof.Proof.Gen.Kernel.Points
import proofs.«152812_j63574105915528_2_alg».proof.Proof.Gen.KernelIdeal
import proofs.«152812_j63574105915528_2_alg».proof.Proof.Gen.KernelIdeal.Skeleton
import proofs.«152812_j63574105915528_2_alg».proof.Proof.Gen.KernelIdeal.Launch
import proofs.«152812_j63574105915528_2_alg».proof.Proof.Gen.KernelIdeal.Regions
import proofs.«152812_j63574105915528_2_alg».proof.Proof.Gen.KernelIdeal.Points
import proofs.«152812_j63574105915528_2_alg».proof.Proof.Gen.ReferenceIdeal
import proofs.«152812_j63574105915528_2_alg».proof.Proof.Gen.Pre_finite_inputs
import proofs.«152812_j63574105915528_2_alg».proof.Proof.Gen.ReferenceIdeal.Run
import proofs.«152812_j63574105915528_2_alg».proof.Proof.Gen.ReferenceIdeal.Read
import proofs.«152812_j63574105915528_2_alg».proof.Proof.K.Regions
import proofs.«152812_j63574105915528_2_alg».proof.Proof.KI.Result
import proofs.«152812_j63574105915528_2_alg».proof.Proof.RefRead
import proofs.«152812_j63574105915528_2_alg».proof.Proof.PreFinite
import proofs.«152812_j63574105915528_2_alg».proof.Proof.GcnLaw
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs to the end and leaves its arguments as launched. -/
theorem frame_k : Cert.frame_Kernel := fun m ρ _ =>
  (θ_run Cert.Kernel.defs _ _).mono (fun _ h c => (h c).2) (Cert.Kernel.Hand.run_all (F := Bits) m ρ)

/-- So does its idealization. -/
theorem frame_ki : Cert.frame_KernelIdeal := fun m ρ _ =>
  (θ_run Cert.KernelIdeal.defs _ _).mono (fun _ h c => (h c).2) (Cert.KernelIdeal.Hand.run_all (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On finite inputs the two programs end with the same result array: the blocked and the whole spelling of the layer
    agree at every index. -/
theorem algebraic : Cert.algebraic_KernelIdeal_ReferenceIdeal := by
  intro m ρ m' ρ' hpre hagree
  refine ⟨fun c => Cert.KernelIdeal.Res.result m c, Cert.KernelIdeal.Res.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2.1, (hagree c).2.2.2]
  funext j
  obtain ⟨i, cc, rfl⟩ : ∃ (i : Fin 8192) (cc : Fin 256), j = ix2 i cc := ⟨j 0, j 1, eq_ix2 j⟩
  rw [Cert.Gcn.RefRead.ref_eq]
  obtain ⟨h0, h1, h2, h3⟩ := Cert.Gcn.PreFinite.finite_of_pre _ _ _ _ (hpre c)
  exact (Cert.Gcn.outK_eq_outR _ _ _ _ (fun a j => h0 (ix2 a j)) (fun a k => h1 (ix2 a k)) (fun j d => h2 (ix2 j d))
    (fun d => h3 (ix1 d)) i cc).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
